-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v129) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x10 : Shape := ⟨2, ![64, 10]⟩
abbrev S10 : Shape := ⟨1, ![10]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_

variable [Facts]

def fn_part4 {F : FTy → Type} [FloatOps F] (main_arg16 : FVec F S64 .f32) (main_arg17 : FVec F S64x10 .f32) (main_arg18 : FVec F S10 .f32) (main_v63 : IVec S_ 1) (main_v67 : IVec S_ 1) : IVec S_ 1 :=
  let main_v68 : IVec S_ 1 := andi main_v63 main_v67
  let main_v69 : FVec F S64 .f32 := Host.absf main_arg16
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64x10 .f32 := Host.absf main_arg17
  let main_cst_28 : FVec F S_ .f32 := constant S_ .f32 0x7F800000#32
  let main_v75 : FVec F S64x10 .f32 := broadcastInDim S64x10 ![] bcast_S_S64x10 main_cst_28
  let main_v76 : IVec S64x10 1 := cmpf .olt main_v74 main_v75
  let main_c_29 : IVec S_ 1 := constantI S_ 1 1#1
  let main_v77 : IVec S_ 1 := (fun x v => Host.reduce IntOp.andi x v reducesTo_S64x10_S_d0_1 h_S_) main_v76 main_c_29
  let main_v78 : IVec S_ 1 := andi main_v73 main_v77
  let main_v79 : FVec F S10 .f32 := Host.absf main_arg18
  let main_cst_30 : FVec F S_ .f32 := constant S_ .f32 0x7F800000#32
  let main_v80 : FVec F S10 .f32 := broadcastInDim S10 ![] bcast_S_S10 main_cst_30
  let main_v81 : IVec S10 1 := cmpf .olt main_v79 main_v80
  let main_c_31 : IVec S_ 1 := constantI S_ 1 1#1
  let main_v82 : IVec S_ 1 := (fun x v => Host.reduce IntOp.andi x v reducesTo_S10_S_d0 h_S_) main_v81 main_c_31
  let main_v83 : IVec S_ 1 := andi main_v78 main_v82
  main_v83

def fn_part3 {F : FTy → Type} [FloatOps F] (main_arg13 : FVec F S128 .f32) (main_arg14 : FVec F S128 .f32) (main_arg15 : FVec F S128x64 .f32) (main_arg16 : FVec F S64 .f32) (main_arg17 : FVec F S64x10 .f32) (main_arg18 : FVec F S10 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x64 .f32 := Host.absf main_arg15
  let main_cst_24 : FVec F S_ .f32 := constant S_ .f32 0x7F800000#32
  let main_v65 : FVec F S128x64 .f32 := broadcastInDim S128x64 ![] bcast_S_S128x64 main_cst_24
  let main_v66 : IVec S128x64 1 := cmpf .olt main_v64 main_v65
  let main_c_25 : IVec S_ 1 := constantI S_ 1 1#1
  let main_v67 : IVec S_ 1 := (fun x v => Host.reduce IntOp.andi x v reducesTo_S128x64_S_d0_1 h_S_) main_v66 main_c_25
  fn_part4 (F := F) main_arg16 main_arg17 main_arg18 main_v63 main_v67

def fn_part2 {F : FTy → Type} [FloatOps F] (main_arg9 : FVec F S128 .f32) (main_arg10 : FVec F S128 .f32) (main_arg11 : FVec F S128 .f32) (main_arg12 : FVec F S128 .f32) (main_arg13 : FVec F S128 .f32) (main_arg14 : FVec F S128 .f32) (main_arg15 : FVec F S128x64 .f32) (main_arg16 : FVec F S64 .f32) (main_arg17 : FVec F S64x10 .f32) (main_arg18 : FVec F S10 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_arg16 main_arg17 main_arg18 main_v48 main_v49 main_v50

def fn_part1 {F : FTy → Type} [FloatOps F] (main_arg6 : FVec F S128 .f32) (main_arg7 : FVec F S128x128 .f32) (main_arg8 : FVec F S128 .f32) (main_arg9 : FVec F S128 .f32) (main_arg10 : FVec F S128 .f32) (main_arg11 : FVec F S128 .f32) (main_arg12 : FVec F S128 .f32) (main_arg13 : FVec F S128 .f32) (main_arg14 : FVec F S128 .f32) (main_arg15 : FVec F S128x64 .f32) (main_arg16 : FVec F S64 .f32) (main_arg17 : FVec F S64x10 .f32) (main_arg18 : FVec F S10 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_v33

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128 .f32) (main_arg10 : FVec F S128 .f32) (main_arg11 : FVec F S128 .f32) (main_arg12 : FVec F S128 .f32) (main_arg13 : FVec F S128 .f32) (main_arg14 : FVec F S128 .f32) (main_arg15 : FVec F S128x64 .f32) (main_arg16 : FVec F S64 .f32) (main_arg17 : FVec F S64x10 .f32) (main_arg18 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_arg14 main_arg15 main_arg16 main_arg17 main_arg18 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x10 : Shape := ⟨2, ![64, 10]⟩
abbrev S10 : Shape := ⟨1, ![10]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S4000x128 : Shape := ⟨2, ![4000, 128]⟩
abbrev S4000x1 : Shape := ⟨2, ![4000, 1]⟩
abbrev S1700000x128 : Shape := ⟨2, ![1700000, 128]⟩
abbrev S1x128 : Shape := ⟨2, ![1, 128]⟩
abbrev S1000x128 : Shape := ⟨2, ![1000, 128]⟩
abbrev S1000 : Shape := ⟨1, ![1000]⟩
abbrev S1000x1 : Shape := ⟨2, ![1000, 1]⟩
abbrev S1x64 : Shape := ⟨2, ![1, 64]⟩
abbrev S1x10 : Shape := ⟨2, ![1, 10]⟩
abbrev S1000x10 : Shape := ⟨2, ![1000, 10]⟩
abbrev S1000x64 : Shape := ⟨2, ![1000, 64]⟩

abbrev nBuf : Space → Nat
  | .hbm => 117
  | .vmem => 42
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128x64, .f32⟩
  | .hbm, ⟨16, _⟩ => ⟨S64, .f32⟩
  | .hbm, ⟨17, _⟩ => ⟨S64x10, .f32⟩
  | .hbm, ⟨18, _⟩ => ⟨S10, .f32⟩
  | .hbm, ⟨19, _⟩ => ⟨S100000, .i32⟩
  | .hbm, ⟨20, _⟩ => ⟨S1x1600000, .i32⟩
  | .hbm, ⟨21, _⟩ => ⟨S1600000, .i32⟩
  | .hbm, ⟨22, _⟩ => ⟨S1700000, .i32⟩
  | .hbm, ⟨23, _⟩ => ⟨S1x1600000, .i32⟩
  | .hbm, ⟨24, _⟩ => ⟨S1600000, .i32⟩
  | .hbm, ⟨25, _⟩ => ⟨S1700000, .i32⟩
  | .hbm, ⟨26, _⟩ => ⟨S_, .f32⟩
  | .hbm, ⟨27, _⟩ => ⟨S1700000, .f32⟩
  | .hbm, ⟨28, _⟩ => ⟨S_, .f32⟩
  | .hbm, ⟨29, _⟩ => ⟨S100000, .f32⟩
  | .hbm, ⟨30, _⟩ => ⟨S1700000x1, .i32⟩
  | .hbm, ⟨31, _⟩ => ⟨S100000, .f32⟩
  | .hbm, ⟨32, _⟩ => ⟨S_, .f32⟩
  | .hbm, ⟨33, _⟩ => ⟨S100000, .f32⟩
  | .hbm, ⟨34, _⟩ => ⟨S100000, .i1⟩
  | .hbm, ⟨35, _⟩ => ⟨S_, .f32⟩
  | .hbm, ⟨36, _⟩ => ⟨S100000, .f32⟩
  | .hbm, ⟨37, _⟩ => ⟨S100000, .f32⟩
  | .hbm, ⟨38, _⟩ => ⟨S_, .f32⟩
  | .hbm, ⟨39, _⟩ => ⟨S_, .f32⟩
  | .hbm, ⟨40, _⟩ => ⟨S100000, .f32⟩
  | .hbm, ⟨41, _⟩ => ⟨S100000, .f32⟩
  | .hbm, ⟨42, _⟩ => ⟨S100000x1, .f32⟩
  | .hbm, ⟨43, _⟩ => ⟨S100000x128, .bf16⟩
  | .hbm, ⟨44, _⟩ => ⟨S_, .i32⟩
  | .hbm, ⟨45, _⟩ => ⟨S1700000, .i32⟩
  | .hbm, ⟨46, _⟩ => ⟨S1700000, .i1⟩
  | .hbm, ⟨47, _⟩ => ⟨S_, .i32⟩
  | .hbm, ⟨48, _⟩ => ⟨S1700000, .i32⟩
  | .hbm, ⟨49, _⟩ => ⟨S1700000, .i32⟩
  | .hbm, ⟨50, _⟩ => ⟨S1700000, .i32⟩
  | .hbm, ⟨51, _⟩ => ⟨S1700000x1, .i32⟩
  | .hbm, ⟨52, _⟩ => ⟨S1700000x128, .bf16⟩
  | .hbm, ⟨53, _⟩ => ⟨S1700000x128, .f32⟩
  | .hbm, ⟨54, _⟩ => ⟨S_, .f32⟩
  | .hbm, ⟨55, _⟩ => ⟨S100000x128, .f32⟩
  | .hbm, ⟨56, _⟩ => ⟨S1700000x1, .i32⟩
  | .hbm, ⟨57, _⟩ => ⟨S100000x128, .f32⟩
  | .hbm, ⟨58, _⟩ => ⟨S1x128, .f32⟩
  | .hbm, ⟨59, _⟩ => ⟨S1x128, .f32⟩
  | .hbm, ⟨60, _⟩ => ⟨S1x128, .f32⟩
  | .hbm, ⟨61, _⟩ => ⟨S100000x128, .bf16⟩
  | .hbm, ⟨62, _⟩ => ⟨S_, .i32⟩
  | .hbm, ⟨63, _⟩ => ⟨S1700000, .i32⟩
  | .hbm, ⟨64, _⟩ => ⟨S1700000, .i1⟩
  | .hbm, ⟨65, _⟩ => ⟨S_, .i32⟩
  | .hbm, ⟨66, _⟩ => ⟨S1700000, .i32⟩
  | .hbm, ⟨67, _⟩ => ⟨S1700000, .i32⟩
  | .hbm, ⟨68, _⟩ => ⟨S1700000, .i32⟩
  | .hbm, ⟨69, _⟩ => ⟨S1700000x1, .i32⟩
  | .hbm, ⟨70, _⟩ => ⟨S1700000x128, .bf16⟩
  | .hbm, ⟨71, _⟩ => ⟨S1700000x128, .f32⟩
  | .hbm, ⟨72, _⟩ => ⟨S_, .f32⟩
  | .hbm, ⟨73, _⟩ => ⟨S100000x128, .f32⟩
  | .hbm, ⟨74, _⟩ => ⟨S1700000x1, .i32⟩
  | .hbm, ⟨75, _⟩ => ⟨S100000x128, .f32⟩
  | .hbm, ⟨76, _⟩ => ⟨S1x128, .f32⟩
  | .hbm, ⟨77, _⟩ => ⟨S1x128, .f32⟩
  | .hbm, ⟨78, _⟩ => ⟨S1x128, .f32⟩
  | .hbm, ⟨79, _⟩ => ⟨S100000x128, .bf16⟩
  | .hbm, ⟨80, _⟩ => ⟨S_, .i32⟩
  | .hbm, ⟨81, _⟩ => ⟨S1700000, .i32⟩
  | .hbm, ⟨82, _⟩ => ⟨S1700000, .i1⟩
  | .hbm, ⟨83, _⟩ => ⟨S_, .i32⟩
  | .hbm, ⟨84, _⟩ => ⟨S1700000, .i32⟩
  | .hbm, ⟨85, _⟩ => ⟨S1700000, .i32⟩
  | .hbm, ⟨86, _⟩ => ⟨S1700000, .i32⟩
  | .hbm, ⟨87, _⟩ => ⟨S1700000x1, .i32⟩
  | .hbm, ⟨88, _⟩ => ⟨S1700000x128, .bf16⟩
  | .hbm, ⟨89, _⟩ => ⟨S1700000x128, .f32⟩
  | .hbm, ⟨90, _⟩ => ⟨S_, .f32⟩
  | .hbm, ⟨91, _⟩ => ⟨S100000x128, .f32⟩
  | .hbm, ⟨92, _⟩ => ⟨S1700000x1, .i32⟩
  | .hbm, ⟨93, _⟩ => ⟨S100000x128, .f32⟩
  | .hbm, ⟨94, _⟩ => ⟨S1x128, .f32⟩
  | .hbm, ⟨95, _⟩ => ⟨S1x128, .f32⟩
  | .hbm, ⟨96, _⟩ => ⟨S1x128, .f32⟩
  | .hbm, ⟨97, _⟩ => ⟨S100000x128, .f32⟩
  | .hbm, ⟨98, _⟩ => ⟨S_, .f32⟩
  | .hbm, ⟨99, _⟩ => ⟨S1000x128, .f32⟩
  | .hbm, ⟨100, _⟩ => ⟨S100000x1, .i32⟩
  | .hbm, ⟨101, _⟩ => ⟨S1000x128, .f32⟩
  | .hbm, ⟨102, _⟩ => ⟨S_, .f32⟩
  | .hbm, ⟨103, _⟩ => ⟨S100000, .f32⟩
  | .hbm, ⟨104, _⟩ => ⟨S_, .f32⟩
  | .hbm, ⟨105, _⟩ => ⟨S1000, .f32⟩
  | .hbm, ⟨106, _⟩ => ⟨S100000x1, .i32⟩
  | .hbm, ⟨107, _⟩ => ⟨S1000, .f32⟩
  | .hbm, ⟨108, _⟩ => ⟨S_, .f32⟩
  | .hbm, ⟨109, _⟩ => ⟨S1000, .f32⟩
  | .hbm, ⟨110, _⟩ => ⟨S1000, .f32⟩
  | .hbm, ⟨111, _⟩ => ⟨S1000x1, .f32⟩
  | .hbm, ⟨112, _⟩ => ⟨S1000x128, .f32⟩
  | .hbm, ⟨113, _⟩ => ⟨S1000x128, .f32⟩
  | .hbm, ⟨114, _⟩ => ⟨S1x64, .f32⟩
  | .hbm, ⟨115, _⟩ => ⟨S1x10, .f32⟩
  | .hbm, ⟨116, _⟩ => ⟨S1000x10, .f32⟩
  | .local _ .vmem, ⟨0, _⟩ => ⟨S4000x128, .f32⟩
  | .local _ .vmem, ⟨1, _⟩ => ⟨S4000x128, .f32⟩
  | .local _ .vmem, ⟨2, _⟩ => ⟨S128x128, .f32⟩
  | .local _ .vmem, ⟨3, _⟩ => ⟨S4000x1, .f32⟩
  | .local _ .vmem, ⟨4, _⟩ => ⟨S4000x1, .f32⟩
  | .local _ .vmem, ⟨5, _⟩ => ⟨S4000x128, .bf16⟩
  | .local _ .vmem, ⟨6, _⟩ => ⟨S4000x128, .bf16⟩
  | .local _ .vmem, ⟨7, _⟩ => ⟨S4000x128, .f32⟩
  | .local _ .vmem, ⟨8, _⟩ => ⟨S4000x128, .f32⟩
  | .local _ .vmem, ⟨9, _⟩ => ⟨S4000x1, .f32⟩
  | .local _ .vmem, ⟨10, _⟩ => ⟨S4000x1, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S128x128, .f32⟩
  | .local _ .vmem, ⟨15, _⟩ => ⟨S4000x128, .bf16⟩
  | .local _ .vmem, ⟨16, _⟩ => ⟨S4000x128, .bf16⟩
  | .local _ .vmem, ⟨17, _⟩ => ⟨S4000x128, .f32⟩
  | .local _ .vmem, ⟨18, _⟩ => ⟨S4000x128, .f32⟩
  | .local _ .vmem, ⟨19, _⟩ => ⟨S4000x1, .f32⟩
  | .local _ .vmem, ⟨20, _⟩ => ⟨S4000x1, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S128x128, .f32⟩
  | .local _ .vmem, ⟨25, _⟩ => ⟨S4000x128, .bf16⟩
  | .local _ .vmem, ⟨26, _⟩ => ⟨S4000x128, .bf16⟩
  | .local _ .vmem, ⟨27, _⟩ => ⟨S4000x128, .f32⟩
  | .local _ .vmem, ⟨28, _⟩ => ⟨S4000x128, .f32⟩
  | .local _ .vmem, ⟨29, _⟩ => ⟨S4000x1, .f32⟩
  | .local _ .vmem, ⟨30, _⟩ => ⟨S4000x1, .f32⟩
  | .local _ .vmem, ⟨31, _⟩ => ⟨S1x128, .f32⟩
  | .local _ .vmem, ⟨32, _⟩ => ⟨S1x128, .f32⟩
  | .local _ .vmem, ⟨33, _⟩ => ⟨S1x128, .f32⟩
  | .local _ .vmem, ⟨34, _⟩ => ⟨S4000x128, .f32⟩
  | .local _ .vmem, ⟨35, _⟩ => ⟨S4000x128, .f32⟩
  | .local _ .vmem, ⟨36, _⟩ => ⟨S1000x128, .f32⟩
  | .local _ .vmem, ⟨37, _⟩ => ⟨S128x64, .f32⟩
  | .local _ .vmem, ⟨38, _⟩ => ⟨S1x64, .f32⟩
  | .local _ .vmem, ⟨39, _⟩ => ⟨S64x10, .f32⟩
  | .local _ .vmem, ⟨40, _⟩ => ⟨S1x10, .f32⟩
  | .local _ .vmem, ⟨41, _⟩ => ⟨S1000x10, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_cst : Ref sig .tc := ⟨.hbm, 26, rfl⟩
abbrev main_v7 : Ref sig .tc := ⟨.hbm, 27, rfl⟩
abbrev main_cst_0 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst_1 : Ref sig .tc := ⟨.hbm, 32, rfl⟩
abbrev main_v11 : Ref sig .tc := ⟨.hbm, 33, rfl⟩
abbrev main_v12 : Ref sig .tc := ⟨.hbm, 34, rfl⟩
abbrev main_cst_2 : Ref sig .tc := ⟨.hbm, 35, rfl⟩
abbrev main_v13 : Ref sig .tc := ⟨.hbm, 36, rfl⟩
abbrev main_v14 : Ref sig .tc := ⟨.hbm, 37, rfl⟩
abbrev main_cst_3 : Ref sig .tc := ⟨.hbm, 38, rfl⟩
abbrev main_call0_v0 : Ref sig .tc := ⟨.hbm, 39, rfl⟩
abbrev main_call0_v1 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_c : Ref sig .tc := ⟨.hbm, 44, rfl⟩
abbrev main_v18 : Ref sig .tc := ⟨.hbm, 45, rfl⟩
abbrev main_v19 : Ref sig .tc := ⟨.hbm, 46, rfl⟩
abbrev main_c_4 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_cst_5 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_c_6 : Ref sig .tc := ⟨.hbm, 62, rfl⟩
abbrev main_v33 : Ref sig .tc := ⟨.hbm, 63, rfl⟩
abbrev main_v34 : Ref sig .tc := ⟨.hbm, 64, rfl⟩
abbrev main_c_7 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_cst_8 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_c_9 : Ref sig .tc := ⟨.hbm, 80, rfl⟩
abbrev main_v48 : Ref sig .tc := ⟨.hbm, 81, rfl⟩
abbrev main_v49 : Ref sig .tc := ⟨.hbm, 82, rfl⟩
abbrev main_c_10 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_cst_11 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_cst_12 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_cst_13 : Ref sig .tc := ⟨.hbm, 102, rfl⟩
abbrev main_v66 : Ref sig .tc := ⟨.hbm, 103, rfl⟩
abbrev main_cst_14 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_15 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg6_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg6_0 : Ref sig .tc := ⟨.vmem, 25, rfl⟩
abbrev cc2_stg6_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc4_stg0_0 : Ref sig .tc := ⟨.vmem, 36, rfl⟩
abbrev cc4_stg1_0 : Ref sig .tc := ⟨.vmem, 37, rfl⟩
abbrev cc4_stg2_0 : Ref sig .tc := ⟨.vmem, 38, rfl⟩
abbrev cc4_stg3_0 : Ref sig .tc := ⟨.vmem, 39, rfl⟩
abbrev cc4_stg4_0 : Ref sig .tc := ⟨.vmem, 40, rfl⟩
abbrev cc4_stg5_0 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem6_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem6_0 : DmaSem sig := 25
abbrev cc2_sem6_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35
abbrev cc4_sem0_0 : DmaSem sig := 36
abbrev cc4_sem1_0 : DmaSem sig := 37
abbrev cc4_sem2_0 : DmaSem sig := 38
abbrev cc4_sem3_0 : DmaSem sig := 39
abbrev cc4_sem4_0 : DmaSem sig := 40
abbrev cc4_sem5_0 : DmaSem sig := 41

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4000x128 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S4000x128 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S4000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S1000x128 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x10 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x10 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1000x10 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  packedbf16_S4000x128_S4000x128_0_0 : (Rect.unit (s := S4000x128) ![0, 0] S4000x128.size inb_S4000x128_S4000x128_0_0).PackedRows (EltTy.packing .bf16)
  bcast_S_S100000x128 : S_.BroadcastsInDim S100000x128 (![] : Fin 0 → Fin S100000x128.rank)
  shapeCasts_S128_S1x128 : S128.ShapeCasts S1x128
  shapeCasts_S4000x128_S4000x128 : S4000x128.ShapeCasts S4000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  bcast_S_S1000x128 : S_.BroadcastsInDim S1000x128 (![] : Fin 0 → Fin S1000x128.rank)
  bcast_S100000_S100000x1_0 : S100000.BroadcastsInDim S100000x1 (![0] : Fin 1 → Fin S100000x1.rank)
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x128_0_1 : S1000x1.BroadcastsInDim S1000x128 (![0, 1] : Fin 2 → Fin S1000x128.rank)
  shapeCasts_S64_S1x64 : S64.ShapeCasts S1x64
  shapeCasts_S10_S1x10 : S10.ShapeCasts S1x10
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1000x64 : S1x64.Broadcasts S1000x64
  inb_S64x10_S64x10_0_0 : ∀ a, (![0, 0] : Fin 2 → Nat) a + S64x10.size a ≤ S64x10.size a
  h_S64x10 : 0 < S64x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S1000x10 : S1x10.Broadcasts S1000x10
  inb_S1000x10_S1000x10_0_0 : ∀ a, (![0, 0] : Fin 2 → Nat) a + S1000x10.size a ≤ S1000x10.size a
  h_S1000x10 : 0 < S1000x10.numel
  scatter_S100000_S1700000x1_S1700000_n_0_0_1_wf : ScatterDims.WF S100000 S1700000x1 S1700000 [] [0] [0] 1
  dot_S4000x128_S128x128_S4000x128_1_0_0_1_n_n_wf : DotDims.WF S4000x128 S128x128 S4000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S1000x128_S100000x1_S100000x128_1_0_0_1_wf : ScatterDims.WF S1000x128 S100000x1 S100000x128 [1] [0] [0] 1
  scatter_S1000_S100000x1_S100000_n_0_0_1_wf : ScatterDims.WF S1000 S100000x1 S100000 [] [0] [0] 1
  dot_S1000x128_S128x64_S1000x64_1_0_0_1_n_n_wf : DotDims.WF S1000x128 S128x64 S1000x64 [1] [0] [0] [1] [] []
  dot_S1000x64_S64x10_S1000x10_1_0_0_1_n_n_wf : DotDims.WF S1000x64 S64x10 S1000x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S100000x128.size a
  hwx0_3 : ∀ i : grid0.Coords, EltTy.bits .bf16 = 32 ∨ (Rect.block (s := S100000x128) S4000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S100000x1.size a
  hwx1_1 : ∀ i : grid1.Coords, EltTy.bits .f32 = 32 ∨ (Rect.block (s := S100000x1) S4000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x128.size a ≤ S100000x128.size a
  hwx1_6 : ∀ i : grid1.Coords, EltTy.bits .bf16 = 32 ∨ (Rect.block (s := S100000x128) S4000x128.size (cc1_transform_6 i) (hinb1_6 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x1.size a ≤ S100000x1.size a
  hwx2_1 : ∀ i : grid2.Coords, EltTy.bits .f32 = 32 ∨ (Rect.block (s := S100000x1) S4000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S4000x128.size a ≤ S100000x128.size a
  hwx2_6 : ∀ i : grid2.Coords, EltTy.bits .bf16 = 32 ∨ (Rect.block (s := S100000x128) S4000x128.size (cc2_transform_6 i) (hinb2_6 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S100000x128.size a
  hwx3_0 : ∀ i : grid3.Coords, EltTy.bits .f32 = 32 ∨ (Rect.block (s := S100000x128) S4000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x1.size a ≤ S100000x1.size a
  hwx3_1 : ∀ i : grid3.Coords, EltTy.bits .f32 = 32 ∨ (Rect.block (s := S100000x1) S4000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S4000x128.size a ≤ S100000x128.size a
  hwx3_5 : ∀ i : grid3.Coords, EltTy.bits .f32 = 32 ∨ (Rect.block (s := S100000x128) S4000x128.size (cc3_transform_5 i) (hinb3_5 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S1000x128.size a ≤ S1000x128.size a
  hwx4_0 : ∀ i : grid4.Coords, EltTy.bits .f32 = 32 ∨ (Rect.block (s := S1000x128) S1000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x10.size a ≤ S64x10.size a
  hwx4_3 : ∀ i : grid4.Coords, EltTy.bits .f32 = 32 ∨ (Rect.block (s := S64x10) S64x10.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x10.size a ≤ S1x10.size a
  hwx4_4 : ∀ i : grid4.Coords, EltTy.bits .f32 = 32 ∨ (Rect.block (s := S1x10) S1x10.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1000x10.size a ≤ S1000x10.size a
  hwx4_5 : ∀ i : grid4.Coords, EltTy.bits .f32 = 32 ∨ (Rect.block (s := S1000x10) S1000x10.size (cc4_transform_5 i) (hinb4_5 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S1000x128_S100000x1_S100000x128_1_0_0_1 : ScatterDims S1000x128 S100000x1 S100000x128 where
  updateWindowDims := [1]
  insertedWindowDims := [0]
  scatterDimsToOperandDims := [0]
  indexVectorDim := 1
  wf := scatter_S1000x128_S100000x1_S100000x128_1_0_0_1_wf
def scatter_S1000_S100000x1_S100000_n_0_0_1 : ScatterDims S1000 S100000x1 S100000 where
  updateWindowDims := []
  insertedWindowDims := [0]
  scatterDimsToOperandDims := [0]
  indexVectorDim := 1
  wf := scatter_S1000_S100000x1_S100000_n_0_0_1_wf
def dot_S1000x128_S128x64_S1000x64_1_0_0_1_n_n : DotDims S1000x128 S128x64 S1000x64 where
  lhsContracting := [1]
  rhsContracting := [0]
  lhsNonContracting := [0]
  rhsNonContracting := [1]
  lhsBatch := []
  rhsBatch := []
  wf := dot_S1000x128_S128x64_S1000x64_1_0_0_1_n_n_wf
def dot_S1000x64_S64x10_S1000x10_1_0_0_1_n_n : DotDims S1000x64 S64x10 S1000x10 where
  lhsContracting := [1]
  rhsContracting := [0]
  lhsNonContracting := [0]
  rhsNonContracting := [1]
  lhsBatch := []
  rhsBatch := []
  wf := dot_S1000x64_S64x10_S1000x10_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S4000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v28) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v29) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v31) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg5) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v32) S4000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v43) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v16) S4000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v44) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v45) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v46) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg7) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v47) S4000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v58) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v16) S4000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v59) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v60) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v61) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v62) S4000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v74) S1000x128.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg15) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v75) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg17) S64x10.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v76) S1x10.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v77) S1000x10.size cc4_transform_5 reads4_5 true true 1 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x10 : Shape := ⟨2, ![64, 10]⟩
abbrev S10 : Shape := ⟨1, ![10]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S1000x128 : Shape := ⟨2, ![1000, 128]⟩
abbrev S100000x1 : Shape := ⟨2, ![100000, 1]⟩
abbrev S1000 : Shape := ⟨1, ![1000]⟩
abbrev S1000x1 : Shape := ⟨2, ![1000, 1]⟩
abbrev S1000x64 : Shape := ⟨2, ![1000, 64]⟩
abbrev S1x64 : Shape := ⟨2, ![1, 64]⟩
abbrev S1000x10 : Shape := ⟨2, ![1000, 10]⟩
abbrev S1x10 : Shape := ⟨2, ![1, 10]⟩

abbrev nBuf : Space → Nat
  | .hbm => 184
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128, .f32⟩
  | 10 => ⟨S128, .f32⟩
  | 11 => ⟨S128, .f32⟩
  | 12 => ⟨S128, .f32⟩
  | 13 => ⟨S128, .f32⟩
  | 14 => ⟨S128, .f32⟩
  | 15 => ⟨S128x64, .f32⟩
  | 16 => ⟨S64, .f32⟩
  | 17 => ⟨S64x10, .f32⟩
  | 18 => ⟨S10, .f32⟩
  | 19 => ⟨S100000, .i32⟩
  | 20 => ⟨S1x1600000, .i32⟩
  | 21 => ⟨S1600000, .i32⟩
  | 22 => ⟨S1700000, .i32⟩
  | 23 => ⟨S1x1600000, .i32⟩
  | 24 => ⟨S1600000, .i32⟩
  | 25 => ⟨S1700000, .i32⟩
  | 26 => ⟨S_, .f32⟩
  | 27 => ⟨S1700000, .f32⟩
  | 28 => ⟨S_, .f32⟩
  | 29 => ⟨S100000, .f32⟩
  | 30 => ⟨S1700000x1, .i32⟩
  | 31 => ⟨S100000, .f32⟩
  | 32 => ⟨S_, .f32⟩
  | 33 => ⟨S100000, .f32⟩
  | 34 => ⟨S100000, .i1⟩
  | 35 => ⟨S_, .f32⟩
  | 36 => ⟨S100000, .f32⟩
  | 37 => ⟨S100000, .f32⟩
  | 38 => ⟨S_, .f32⟩
  | 39 => ⟨S_, .f32⟩
  | 40 => ⟨S100000, .f32⟩
  | 41 => ⟨S100000, .f32⟩
  | 42 => ⟨S_, .i32⟩
  | 43 => ⟨S1700000, .i32⟩
  | 44 => ⟨S1700000, .i1⟩
  | 45 => ⟨S_, .i32⟩
  | 46 => ⟨S1700000, .i32⟩
  | 47 => ⟨S1700000, .i32⟩
  | 48 => ⟨S1700000, .i32⟩
  | 49 => ⟨S1700000x1, .i32⟩
  | 50 => ⟨S1700000, .f32⟩
  | 51 => ⟨S_, .i32⟩
  | 52 => ⟨S1700000, .i32⟩
  | 53 => ⟨S1700000, .i1⟩
  | 54 => ⟨S_, .i32⟩
  | 55 => ⟨S1700000, .i32⟩
  | 56 => ⟨S1700000, .i32⟩
  | 57 => ⟨S1700000, .i32⟩
  | 58 => ⟨S1700000x1, .i32⟩
  | 59 => ⟨S1700000, .f32⟩
  | 60 => ⟨S1700000, .f32⟩
  | 61 => ⟨S100000x128, .f32⟩
  | 62 => ⟨S_, .i32⟩
  | 63 => ⟨S1700000, .i32⟩
  | 64 => ⟨S1700000, .i1⟩
  | 65 => ⟨S_, .i32⟩
  | 66 => ⟨S1700000, .i32⟩
  | 67 => ⟨S1700000, .i32⟩
  | 68 => ⟨S1700000, .i32⟩
  | 69 => ⟨S1700000x1, .i32⟩
  | 70 => ⟨S1700000x128, .f32⟩
  | 71 => ⟨S1700000x1, .f32⟩
  | 72 => ⟨S1700000x128, .f32⟩
  | 73 => ⟨S1700000x128, .f32⟩
  | 74 => ⟨S_, .f32⟩
  | 75 => ⟨S100000x128, .f32⟩
  | 76 => ⟨S1700000x1, .i32⟩
  | 77 => ⟨S100000x128, .f32⟩
  | 78 => ⟨S1x128, .f32⟩
  | 79 => ⟨S100000x128, .f32⟩
  | 80 => ⟨S100000x128, .f32⟩
  | 81 => ⟨S1x128, .f32⟩
  | 82 => ⟨S100000x128, .f32⟩
  | 83 => ⟨S100000x128, .f32⟩
  | 84 => ⟨S_, .f32⟩
  | 85 => ⟨S100000x128, .f32⟩
  | 86 => ⟨S100000x128, .f32⟩
  | 87 => ⟨S1x128, .f32⟩
  | 88 => ⟨S100000x128, .f32⟩
  | 89 => ⟨S100000x128, .f32⟩
  | 90 => ⟨S_, .f32⟩
  | 91 => ⟨S100000x128, .f32⟩
  | 92 => ⟨S100000x128, .f32⟩
  | 93 => ⟨S100000x128, .f32⟩
  | 94 => ⟨S_, .i32⟩
  | 95 => ⟨S1700000, .i32⟩
  | 96 => ⟨S1700000, .i1⟩
  | 97 => ⟨S_, .i32⟩
  | 98 => ⟨S1700000, .i32⟩
  | 99 => ⟨S1700000, .i32⟩
  | 100 => ⟨S1700000, .i32⟩
  | 101 => ⟨S1700000x1, .i32⟩
  | 102 => ⟨S1700000x128, .f32⟩
  | 103 => ⟨S1700000x1, .f32⟩
  | 104 => ⟨S1700000x128, .f32⟩
  | 105 => ⟨S1700000x128, .f32⟩
  | 106 => ⟨S_, .f32⟩
  | 107 => ⟨S100000x128, .f32⟩
  | 108 => ⟨S1700000x1, .i32⟩
  | 109 => ⟨S100000x128, .f32⟩
  | 110 => ⟨S1x128, .f32⟩
  | 111 => ⟨S100000x128, .f32⟩
  | 112 => ⟨S100000x128, .f32⟩
  | 113 => ⟨S1x128, .f32⟩
  | 114 => ⟨S100000x128, .f32⟩
  | 115 => ⟨S100000x128, .f32⟩
  | 116 => ⟨S_, .f32⟩
  | 117 => ⟨S100000x128, .f32⟩
  | 118 => ⟨S100000x128, .f32⟩
  | 119 => ⟨S1x128, .f32⟩
  | 120 => ⟨S100000x128, .f32⟩
  | 121 => ⟨S100000x128, .f32⟩
  | 122 => ⟨S_, .f32⟩
  | 123 => ⟨S100000x128, .f32⟩
  | 124 => ⟨S100000x128, .f32⟩
  | 125 => ⟨S100000x128, .f32⟩
  | 126 => ⟨S_, .i32⟩
  | 127 => ⟨S1700000, .i32⟩
  | _ => ⟨S100000x128, .f32⟩

abbrev hbmTy0_1 (i : Nat) : BufTy := match i % 128 with
  | 0 => ⟨S1700000, .i1⟩
  | 1 => ⟨S_, .i32⟩
  | 2 => ⟨S1700000, .i32⟩
  | 3 => ⟨S1700000, .i32⟩
  | 4 => ⟨S1700000, .i32⟩
  | 5 => ⟨S1700000x1, .i32⟩
  | 6 => ⟨S1700000x128, .f32⟩
  | 7 => ⟨S1700000x1, .f32⟩
  | 8 => ⟨S1700000x128, .f32⟩
  | 9 => ⟨S1700000x128, .f32⟩
  | 10 => ⟨S_, .f32⟩
  | 11 => ⟨S100000x128, .f32⟩
  | 12 => ⟨S1700000x1, .i32⟩
  | 13 => ⟨S100000x128, .f32⟩
  | 14 => ⟨S1x128, .f32⟩
  | 15 => ⟨S100000x128, .f32⟩
  | 16 => ⟨S100000x128, .f32⟩
  | 17 => ⟨S1x128, .f32⟩
  | 18 => ⟨S100000x128, .f32⟩
  | 19 => ⟨S100000x128, .f32⟩
  | 20 => ⟨S_, .f32⟩
  | 21 => ⟨S100000x128, .f32⟩
  | 22 => ⟨S100000x128, .f32⟩
  | 23 => ⟨S1x128, .f32⟩
  | 24 => ⟨S100000x128, .f32⟩
  | 25 => ⟨S100000x128, .f32⟩
  | 26 => ⟨S_, .f32⟩
  | 27 => ⟨S100000x128, .f32⟩
  | 28 => ⟨S100000x128, .f32⟩
  | 29 => ⟨S_, .f32⟩
  | 30 => ⟨S1000x128, .f32⟩
  | 31 => ⟨S100000x1, .i32⟩
  | 32 => ⟨S1000x128, .f32⟩
  | 33 => ⟨S_, .f32⟩
  | 34 => ⟨S100000, .f32⟩
  | 35 => ⟨S_, .f32⟩
  | 36 => ⟨S1000, .f32⟩
  | 37 => ⟨S100000x1, .i32⟩
  | 38 => ⟨S1000, .f32⟩
  | 39 => ⟨S_, .f32⟩
  | 40 => ⟨S1000, .f32⟩
  | 41 => ⟨S1000, .f32⟩
  | 42 => ⟨S1000x1, .f32⟩
  | 43 => ⟨S1000x128, .f32⟩
  | 44 => ⟨S1000x128, .f32⟩
  | 45 => ⟨S1000x64, .f32⟩
  | 46 => ⟨S1x64, .f32⟩
  | 47 => ⟨S1000x64, .f32⟩
  | 48 => ⟨S1000x64, .f32⟩
  | 49 => ⟨S_, .f32⟩
  | 50 => ⟨S1000x64, .f32⟩
  | 51 => ⟨S1000x64, .f32⟩
  | 52 => ⟨S1000x10, .f32⟩
  | 53 => ⟨S1x10, .f32⟩
  | 54 => ⟨S1000x10, .f32⟩
  | 55 => ⟨S1000x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_cst : Ref sig .tc := ⟨.hbm, 26, rfl⟩
abbrev main_v7 : Ref sig .tc := ⟨.hbm, 27, rfl⟩
abbrev main_cst_0 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst_1 : Ref sig .tc := ⟨.hbm, 32, rfl⟩
abbrev main_v11 : Ref sig .tc := ⟨.hbm, 33, rfl⟩
abbrev main_v12 : Ref sig .tc := ⟨.hbm, 34, rfl⟩
abbrev main_cst_2 : Ref sig .tc := ⟨.hbm, 35, rfl⟩
abbrev main_v13 : Ref sig .tc := ⟨.hbm, 36, rfl⟩
abbrev main_v14 : Ref sig .tc := ⟨.hbm, 37, rfl⟩
abbrev main_cst_3 : Ref sig .tc := ⟨.hbm, 38, rfl⟩
abbrev main_call0_v0 : Ref sig .tc := ⟨.hbm, 39, rfl⟩
abbrev main_call0_v1 : Ref sig .tc := ⟨.hbm, 40, rfl⟩
abbrev main_v15 : Ref sig .tc := ⟨.hbm, 41, rfl⟩
abbrev main_c : Ref sig .tc := ⟨.hbm, 42, rfl⟩
abbrev main_v16 : Ref sig .tc := ⟨.hbm, 43, rfl⟩
abbrev main_v17 : Ref sig .tc := ⟨.hbm, 44, rfl⟩
abbrev main_c_4 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_c_5 : Ref sig .tc := ⟨.hbm, 51, rfl⟩
abbrev main_v23 : Ref sig .tc := ⟨.hbm, 52, rfl⟩
abbrev main_v24 : Ref sig .tc := ⟨.hbm, 53, rfl⟩
abbrev main_c_6 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_c_7 : Ref sig .tc := ⟨.hbm, 62, rfl⟩
abbrev main_v32 : Ref sig .tc := ⟨.hbm, 63, rfl⟩
abbrev main_v33 : Ref sig .tc := ⟨.hbm, 64, rfl⟩
abbrev main_c_8 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_cst_9 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_cst_10 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_call1_cst : Ref sig .tc := ⟨.hbm, 90, rfl⟩
abbrev main_call1_v0 : Ref sig .tc := ⟨.hbm, 91, rfl⟩
abbrev main_v56 : Ref sig .tc := ⟨.hbm, 92, rfl⟩
abbrev main_v57 : Ref sig .tc := ⟨.hbm, 93, rfl⟩
abbrev main_c_11 : Ref sig .tc := ⟨.hbm, 94, rfl⟩
abbrev main_v58 : Ref sig .tc := ⟨.hbm, 95, rfl⟩
abbrev main_v59 : Ref sig .tc := ⟨.hbm, 96, rfl⟩
abbrev main_c_12 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_cst_13 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_cst_14 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_call2_cst : Ref sig .tc := ⟨.hbm, 122, rfl⟩
abbrev main_call2_v0 : Ref sig .tc := ⟨.hbm, 123, rfl⟩
abbrev main_v82 : Ref sig .tc := ⟨.hbm, 124, rfl⟩
abbrev main_v83 : Ref sig .tc := ⟨.hbm, 125, rfl⟩
abbrev main_c_15 : Ref sig .tc := ⟨.hbm, 126, rfl⟩
abbrev main_v84 : Ref sig .tc := ⟨.hbm, 127, rfl⟩
abbrev main_v85 : Ref sig .tc := ⟨.hbm, 128, rfl⟩
abbrev main_c_16 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_cst_17 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_cst_18 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_call3_cst : Ref sig .tc := ⟨.hbm, 154, rfl⟩
abbrev main_call3_v0 : Ref sig .tc := ⟨.hbm, 155, rfl⟩
abbrev main_v108 : Ref sig .tc := ⟨.hbm, 156, rfl⟩
abbrev main_cst_19 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_cst_20 : Ref sig .tc := ⟨.hbm, 161, rfl⟩
abbrev main_v112 : Ref sig .tc := ⟨.hbm, 162, rfl⟩
abbrev main_cst_21 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_cst_22 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_call4_cst : Ref sig .tc := ⟨.hbm, 177, rfl⟩
abbrev main_call4_v0 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S1000x128 : S_.BroadcastsInDim S1000x128 (![] : Fin 0 → Fin S1000x128.rank)
  bcast_S100000_S100000x1_0 : S100000.BroadcastsInDim S100000x1 (![0] : Fin 1 → Fin S100000x1.rank)
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x128_0_1 : S1000x1.BroadcastsInDim S1000x128 (![0, 1] : Fin 2 → Fin S1000x128.rank)
  bcast_S64_S1x64_1 : S64.BroadcastsInDim S1x64 (![1] : Fin 1 → Fin S1x64.rank)
  bcast_S1x64_S1000x64_0_1 : S1x64.BroadcastsInDim S1000x64 (![0, 1] : Fin 2 → Fin S1000x64.rank)
  bcast_S_S1000x64 : S_.BroadcastsInDim S1000x64 (![] : Fin 0 → Fin S1000x64.rank)
  bcast_S10_S1x10_1 : S10.BroadcastsInDim S1x10 (![1] : Fin 1 → Fin S1x10.rank)
  bcast_S1x10_S1000x10_0_1 : S1x10.BroadcastsInDim S1000x10 (![0, 1] : Fin 2 → Fin S1000x10.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S1000x128_S100000x1_S100000x128_1_0_0_1_wf : ScatterDims.WF S1000x128 S100000x1 S100000x128 [1] [0] [0] 1
  scatter_S1000_S100000x1_S100000_n_0_0_1_wf : ScatterDims.WF S1000 S100000x1 S100000 [] [0] [0] 1
  dot_S1000x128_S128x64_S1000x64_1_0_0_1_n_n_wf : DotDims.WF S1000x128 S128x64 S1000x64 [1] [0] [0] [1] [] []
  dot_S1000x64_S64x10_S1000x10_1_0_0_1_n_n_wf : DotDims.WF S1000x64 S64x10 S1000x10 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S1000x128_S100000x1_S100000x128_1_0_0_1 : ScatterDims S1000x128 S100000x1 S100000x128 where
  updateWindowDims := [1]
  insertedWindowDims := [0]
  scatterDimsToOperandDims := [0]
  indexVectorDim := 1
  wf := scatter_S1000x128_S100000x1_S100000x128_1_0_0_1_wf
def scatter_S1000_S100000x1_S100000_n_0_0_1 : ScatterDims S1000 S100000x1 S100000 where
  updateWindowDims := []
  insertedWindowDims := [0]
  scatterDimsToOperandDims := [0]
  indexVectorDim := 1
  wf := scatter_S1000_S100000x1_S100000_n_0_0_1_wf
def dot_S1000x128_S128x64_S1000x64_1_0_0_1_n_n : DotDims S1000x128 S128x64 S1000x64 where
  lhsContracting := [1]
  rhsContracting := [0]
  lhsNonContracting := [0]
  rhsNonContracting := [1]
  lhsBatch := []
  rhsBatch := []
  wf := dot_S1000x128_S128x64_S1000x64_1_0_0_1_n_n_wf
def dot_S1000x64_S64x10_S1000x10_1_0_0_1_n_n : DotDims S1000x64 S64x10 S1000x10 where
  lhsContracting := [1]
  rhsContracting := [0]
  lhsNonContracting := [0]
  rhsNonContracting := [1]
  lhsBatch := []
  rhsBatch := []
  wf := dot_S1000x64_S64x10_S1000x10_1_0_0_1_n_n_wf

class Facts : Prop extends Facts₀ where

variable [Facts]
-- ==== Proof.KRun.lean ====
/-
  The run of the five-kernel program with its result named.

  The program's frame follows the buffers through twelve segments — host lines and kernel launches in turn — and
  ends with every buffer at the last segment's contents. Here that run is stated with one more conjunct: the
  result buffer ends at the last segment's contents of the result, on top of the arguments ending unchanged.
-/
import proofs.«132462_j15779709846111_2_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run : θ_run defs (onTc (τ := τ) (main (F := F))) ⟨m, fun _ => 0, ρ⟩ (fun r => ∀ c : Dev nD,
      r.2.mem ((c.tc : Thread nD τ).loc main_v77) = W12 m ρ c (Proc.devRef .tc main_v77)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v77 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c),
       (h c _ (mem_uc main_arg13 (by decide))).trans (W12_main_arg13 m ρ c),
       (h c _ (mem_uc main_arg14 (by decide))).trans (W12_main_arg14 m ρ c),
       (h c _ (mem_uc main_arg15 (by decide))).trans (W12_main_arg15 m ρ c),
       (h c _ (mem_uc main_arg16 (by decide))).trans (W12_main_arg16 m ρ c),
       (h c _ (mem_uc main_arg17 (by decide))).trans (W12_main_arg17 m ρ c),
       (h c _ (mem_uc main_arg18 (by decide))).trans (W12_main_arg18 m ρ c)⟩)

end Cert.KernelIdeal.ValueRun

end
-- ==== Proof.LibConcat2.lean ====
/-
  Reading what a buffer holds after a line of host operations.

  A line of host operations is a fold: each operation overwrites its result buffer with its function of its operand
  buffers.  What a buffer holds afterwards is therefore a nest of those functions over the contents the line started
  from, and one rewriting pass computes it: at an operation's own result buffer the fold gives the function's value, at
  any other buffer what was there before.

  One operation stops such a pass: a concatenation takes its operands as a LIST of (shape, array) pairs, and a rewriting
  pass does not enter that list.  For two operands we give the concatenation a form with the operands as plain
  arguments; the pass folds a concatenation into this form as soon as it meets one and then continues inside the two
  operands.
-/
import Idealize.ShloMosaic.Lib.StableHlo.Run

namespace Cert.HostLine

open Idealize.ShloMosaic Idealize.ShloMosaic.StableHlo

/-- The concatenation of two arrays along an axis, the two arrays as plain arguments. -/
def concat2 {α : Type} (t : Shape) (a : Fin t.rank) (s1 s2 : Shape) (h : Shape.Concatenates [s1, s2] t a)
    (x : s1.Idx → α) (y : s2.Idx → α) : t.Idx → α :=
  concatenate t a [⟨s1, x⟩, ⟨s2, y⟩] h

/-- A concatenation of two operands is `concat2` of them. -/
theorem concat2_fold {α : Type} (t : Shape) (a : Fin t.rank) (s1 s2 : Shape) (h : Shape.Concatenates [s1, s2] t a)
    (x : s1.Idx → α) (y : s2.Idx → α) :
    concatenate t a [⟨s1, x⟩, ⟨s2, y⟩] h = concat2 t a s1 s2 h x y := rfl

/-- Computes `after ops V b` for a literal line `ops`, as the operations' functions nested over `V` at the buffers the
    line reads but does not write; two-operand concatenations come out as `concat2`. -/
macro "host_line" : tactic =>
  `(tactic| (simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', concat2_fold]))

end Cert.HostLine
-- ==== Proof.KDefs.lean ====
/-
  The host lines of the five-kernel program as functions of their operands.

  From the edge words: the source and destination words (a row of the given words followed by one loop word
  per node), the column a row gather reads through and the column a scatter lands through, the in-degree of
  every node and the degree factor (the degree to the power -1/2 where it is positive, zero elsewhere), also as
  a column. From a table: its gathered rows summed onto zero over the edges, and the mean of the node rows of
  each graph.
-/
import proofs.«132462_j15779709846111_2_alg».proof.KernelIdeal
import proofs.«132462_j15779709846111_2_alg».proof.Proof.Gen.KernelIdeal
import proofs.«132462_j15779709846111_2_alg».proof.Proof.LibConcat2
import Idealize.ShloMosaic.PureOps.Ideal

noncomputable section

namespace Cert.KernelIdeal.HostChain

open Cert.KernelIdeal Cert.KernelIdeal.Gen Cert.HostLine
open Idealize.ShloMosaic Idealize.ShloMosaic.TcCoe

/-! ## The host lines as functions of their operands -/

/-- The source words: the first row of the edge words followed by one loop word per node. -/
def srcWords (x1 : (⟨S2x1600000, .i32⟩ : BufTy).Contents (Elt Ideal)) : IVec S1700000 32 :=
  concat2 S1700000 0 S1600000 S100000 concatenates_S1600000_S100000_S1700000_d0
    (shapeCast S1600000 (extractStridedSlice S1x1600000 ![0, 0] x1 slices_S2x1600000_S1x1600000_0_0) shapeCasts_S1x1600000_S1600000)
    (iotaInDim S100000 32 0)

/-- The destination words: the second row of the edge words followed by one loop word per node. -/
def dstWords (x1 : (⟨S2x1600000, .i32⟩ : BufTy).Contents (Elt Ideal)) : IVec S1700000 32 :=
  concat2 S1700000 0 S1600000 S100000 concatenates_S1600000_S100000_S1700000_d0
    (shapeCast S1600000 (extractStridedSlice S1x1600000 ![1, 0] x1 slices_S2x1600000_S1x1600000_1_0) shapeCasts_S1x1600000_S1600000)
    (iotaInDim S100000 32 0)

/-- The column a row gather reads through: negative words shifted by the number of nodes. -/
def srcCol (s : IVec S1700000 32) : IVec S1700000x1 32 :=
  broadcastInDim S1700000x1 ![0] bcast_S1700000_S1700000x1_0
    (select (cmpi .slt s (broadcastInDim S1700000 ![] bcast_S_S1700000 (constantI S_ 32 0#32)))
      (addi s (broadcastInDim S1700000 ![] bcast_S_S1700000 (constantI S_ 32 100000#32))) s)

/-- The column a scatter lands through: the words themselves. -/
def dstCol (t : IVec S1700000 32) : IVec S1700000x1 32 :=
  broadcastInDim S1700000x1 ![0] bcast_S1700000_S1700000x1_0 t

/-- The gathered rows of a table summed onto a zero table over the edges. -/
def aggOf (T : (⟨S100000x128, .bf16⟩ : BufTy).Contents (Elt Ideal)) (s t : IVec S1700000 32) : (⟨S100000x128, .f32⟩ : BufTy).Contents (Elt Ideal) :=
  Host.scatterAdd (F := Ideal) scatter_S100000x128_S1700000x1_S1700000x128_1_0_0_1
    (broadcastInDim S100000x128 ![] bcast_S_S100000x128 (constant (F := Ideal) S_ .f32 0x00000000#32))
    (dstCol t)
    (extf .f32 (Host.gather gather_S100000x128_S1700000x1_S1700000x128_1_0_n_n_0_1_1128 T (srcCol s)) bitsLt_bf16_f32)

/-- The in-degree of every node, as a float: one for each edge landing on it, onto zero. -/
def degOf (t : IVec S1700000 32) : (⟨S100000, .f32⟩ : BufTy).Contents (Elt Ideal) :=
  Host.scatterAdd (F := Ideal) scatter_S100000_S1700000x1_S1700000_n_0_0_1
    (broadcastInDim S100000 ![] bcast_S_S100000 (constant (F := Ideal) S_ .f32 0x00000000#32))
    (dstCol t)
    (broadcastInDim S1700000 ![] bcast_S_S1700000 (constant (F := Ideal) S_ .f32 0x3F800000#32))

/-- The degree factor: the degree to the power -1/2 where the degree is positive, zero elsewhere. -/
def dinvOf (t : IVec S1700000 32) : (⟨S100000, .f32⟩ : BufTy).Contents (Elt Ideal) :=
  select (cmpf (F := Ideal) .ogt (degOf t) (broadcastInDim S100000 ![] bcast_S_S100000 (constant (F := Ideal) S_ .f32 0x00000000#32)))
    (Host.powf (F := Ideal) (degOf t) (broadcastInDim S100000 ![] bcast_S_S100000 (constant (F := Ideal) S_ .f32 0xBF000000#32)))
    (broadcastInDim S100000 ![] bcast_S_S100000 (id (constant (F := Ideal) S_ .f32 0x00000000#32)))

/-- The degree factor as a column. -/
def dcolOf (t : IVec S1700000 32) : (⟨S100000x1, .f32⟩ : BufTy).Contents (Elt Ideal) :=
  shapeCast S100000x1 (dinvOf t) shapeCasts_S100000_S100000x1

/-- The mean of the node rows of each graph: the rows summed by graph word, divided by the larger of the
    graph's node count and one. -/
def poolOf (bt : IVec S100000 32) (Y : (⟨S100000x128, .f32⟩ : BufTy).Contents (Elt Ideal)) : (⟨S1000x128, .f32⟩ : BufTy).Contents (Elt Ideal) :=
  Host.divf (F := Ideal)
    (Host.scatterAdd (F := Ideal) scatter_S1000x128_S100000x1_S100000x128_1_0_0_1
      (broadcastInDim S1000x128 ![] bcast_S_S1000x128 (constant (F := Ideal) S_ .f32 0x00000000#32))
      (broadcastInDim S100000x1 ![0] bcast_S100000_S100000x1_0 bt) Y)
    (broadcastInDim S1000x128 ![0, 1] bcast_S1000x1_S1000x128_0_1 (broadcastInDim S1000x1 ![0] bcast_S1000_S1000x1_0
      (maximumf (F := Ideal)
        (Host.scatterAdd (F := Ideal) scatter_S1000_S100000x1_S100000_n_0_0_1
          (broadcastInDim S1000 ![] bcast_S_S1000 (constant (F := Ideal) S_ .f32 0x00000000#32))
          (broadcastInDim S100000x1 ![0] bcast_S100000_S100000x1_0 bt)
          (broadcastInDim S100000 ![] bcast_S_S100000 (constant (F := Ideal) S_ .f32 0x3F800000#32)))
        (broadcastInDim S1000 ![] bcast_S_S1000 (constant (F := Ideal) S_ .f32 0x3F800000#32)))))

end Cert.KernelIdeal.HostChain

end
-- ==== Proof.KHost.lean ====
/-
  What each kernel finds in its operand buffers.

  Between the five kernels the program runs lines of host operations; each buffer a kernel reads is therefore a
  nest of host operations over the launch contents of the arguments and over the arrays the earlier kernels left.
  This module computes those nests: the degree factor as a column, each layer's sum over the edges of the gathered
  rows of the previous kernel's output, the parameter rows, and the pooled table.
-/
import proofs.«132462_j15779709846111_2_alg».proof.Proof.Gen.KernelIdeal.Frame
import proofs.«132462_j15779709846111_2_alg».proof.Proof.KDefs
import proofs.«132462_j15779709846111_2_alg».proof.Proof.LibConcat2
import Idealize.ShloMosaic.Lib.StableHlo.Run
import Idealize.ShloMosaic.PureOps.Ideal

set_option maxRecDepth 16384

noncomputable section

namespace Cert.KernelIdeal.HostChain

open Cert.KernelIdeal Cert.KernelIdeal.Gen Cert.HostLine
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-! ## A buffer no kernel and no host line in between writes is kept -/

theorem keep4_main_v3 : W4 m ρ c (Proc.devRef .tc main_v3) = W3 m ρ c (Proc.devRef .tc main_v3) := W4_of_ne m ρ c main_v3 (by decide)
theorem keep4_main_v6 : W4 m ρ c (Proc.devRef .tc main_v6) = W3 m ρ c (Proc.devRef .tc main_v6) := W4_of_ne m ρ c main_v6 (by decide)
theorem keep4_main_v16 : W4 m ρ c (Proc.devRef .tc main_v16) = W3 m ρ c (Proc.devRef .tc main_v16) := (W4_arr m ρ c 2).trans (((dat0 (V3 m ρ) c).arrAt_in 2 rfl _).trans (A_eq0 (V3 m ρ) c 2))
theorem keep4_main_arg2 : W4 m ρ c (Proc.devRef .tc main_arg2) = W3 m ρ c (Proc.devRef .tc main_arg2) := W4_of_ne m ρ c main_arg2 (by decide)
theorem keep4_main_arg4 : W4 m ρ c (Proc.devRef .tc main_arg4) = W3 m ρ c (Proc.devRef .tc main_arg4) := W4_of_ne m ρ c main_arg4 (by decide)
theorem keep4_main_arg5 : W4 m ρ c (Proc.devRef .tc main_arg5) = W3 m ρ c (Proc.devRef .tc main_arg5) := W4_of_ne m ρ c main_arg5 (by decide)
theorem keep4_main_arg6 : W4 m ρ c (Proc.devRef .tc main_arg6) = W3 m ρ c (Proc.devRef .tc main_arg6) := W4_of_ne m ρ c main_arg6 (by decide)
theorem keep4_main_arg7 : W4 m ρ c (Proc.devRef .tc main_arg7) = W3 m ρ c (Proc.devRef .tc main_arg7) := W4_of_ne m ρ c main_arg7 (by decide)
theorem keep4_main_arg8 : W4 m ρ c (Proc.devRef .tc main_arg8) = W3 m ρ c (Proc.devRef .tc main_arg8) := W4_of_ne m ρ c main_arg8 (by decide)
theorem keep4_main_arg9 : W4 m ρ c (Proc.devRef .tc main_arg9) = W3 m ρ c (Proc.devRef .tc main_arg9) := W4_of_ne m ρ c main_arg9 (by decide)
theorem keep4_main_arg10 : W4 m ρ c (Proc.devRef .tc main_arg10) = W3 m ρ c (Proc.devRef .tc main_arg10) := W4_of_ne m ρ c main_arg10 (by decide)
theorem keep4_main_arg11 : W4 m ρ c (Proc.devRef .tc main_arg11) = W3 m ρ c (Proc.devRef .tc main_arg11) := W4_of_ne m ρ c main_arg11 (by decide)
theorem keep4_main_arg12 : W4 m ρ c (Proc.devRef .tc main_arg12) = W3 m ρ c (Proc.devRef .tc main_arg12) := W4_of_ne m ρ c main_arg12 (by decide)
theorem keep4_main_arg13 : W4 m ρ c (Proc.devRef .tc main_arg13) = W3 m ρ c (Proc.devRef .tc main_arg13) := W4_of_ne m ρ c main_arg13 (by decide)
theorem keep4_main_arg14 : W4 m ρ c (Proc.devRef .tc main_arg14) = W3 m ρ c (Proc.devRef .tc main_arg14) := W4_of_ne m ρ c main_arg14 (by decide)
theorem keep4_main_arg15 : W4 m ρ c (Proc.devRef .tc main_arg15) = W3 m ρ c (Proc.devRef .tc main_arg15) := W4_of_ne m ρ c main_arg15 (by decide)
theorem keep4_main_arg16 : W4 m ρ c (Proc.devRef .tc main_arg16) = W3 m ρ c (Proc.devRef .tc main_arg16) := W4_of_ne m ρ c main_arg16 (by decide)
theorem keep4_main_arg17 : W4 m ρ c (Proc.devRef .tc main_arg17) = W3 m ρ c (Proc.devRef .tc main_arg17) := W4_of_ne m ρ c main_arg17 (by decide)
theorem keep4_main_arg18 : W4 m ρ c (Proc.devRef .tc main_arg18) = W3 m ρ c (Proc.devRef .tc main_arg18) := W4_of_ne m ρ c main_arg18 (by decide)
theorem keep6_main_v3 : W6 m ρ c (Proc.devRef .tc main_v3) = W5 m ρ c (Proc.devRef .tc main_v3) := W6_of_ne m ρ c main_v3 (by decide)
theorem keep6_main_v6 : W6 m ρ c (Proc.devRef .tc main_v6) = W5 m ρ c (Proc.devRef .tc main_v6) := W6_of_ne m ρ c main_v6 (by decide)
theorem keep6_main_v16 : W6 m ρ c (Proc.devRef .tc main_v16) = W5 m ρ c (Proc.devRef .tc main_v16) := (W6_arr m ρ c 1).trans (((dat1 (V5 m ρ) c).arrAt_in 1 rfl _).trans (A_eq1 (V5 m ρ) c 1))
theorem keep6_main_arg2 : W6 m ρ c (Proc.devRef .tc main_arg2) = W5 m ρ c (Proc.devRef .tc main_arg2) := W6_of_ne m ρ c main_arg2 (by decide)
theorem keep6_main_arg6 : W6 m ρ c (Proc.devRef .tc main_arg6) = W5 m ρ c (Proc.devRef .tc main_arg6) := W6_of_ne m ρ c main_arg6 (by decide)
theorem keep6_main_arg7 : W6 m ρ c (Proc.devRef .tc main_arg7) = W5 m ρ c (Proc.devRef .tc main_arg7) := W6_of_ne m ρ c main_arg7 (by decide)
theorem keep6_main_arg8 : W6 m ρ c (Proc.devRef .tc main_arg8) = W5 m ρ c (Proc.devRef .tc main_arg8) := W6_of_ne m ρ c main_arg8 (by decide)
theorem keep6_main_arg11 : W6 m ρ c (Proc.devRef .tc main_arg11) = W5 m ρ c (Proc.devRef .tc main_arg11) := W6_of_ne m ρ c main_arg11 (by decide)
theorem keep6_main_arg12 : W6 m ρ c (Proc.devRef .tc main_arg12) = W5 m ρ c (Proc.devRef .tc main_arg12) := W6_of_ne m ρ c main_arg12 (by decide)
theorem keep6_main_arg13 : W6 m ρ c (Proc.devRef .tc main_arg13) = W5 m ρ c (Proc.devRef .tc main_arg13) := W6_of_ne m ρ c main_arg13 (by decide)
theorem keep6_main_arg14 : W6 m ρ c (Proc.devRef .tc main_arg14) = W5 m ρ c (Proc.devRef .tc main_arg14) := W6_of_ne m ρ c main_arg14 (by decide)
theorem keep6_main_arg15 : W6 m ρ c (Proc.devRef .tc main_arg15) = W5 m ρ c (Proc.devRef .tc main_arg15) := W6_of_ne m ρ c main_arg15 (by decide)
theorem keep6_main_arg16 : W6 m ρ c (Proc.devRef .tc main_arg16) = W5 m ρ c (Proc.devRef .tc main_arg16) := W6_of_ne m ρ c main_arg16 (by decide)
theorem keep6_main_arg17 : W6 m ρ c (Proc.devRef .tc main_arg17) = W5 m ρ c (Proc.devRef .tc main_arg17) := W6_of_ne m ρ c main_arg17 (by decide)
theorem keep6_main_arg18 : W6 m ρ c (Proc.devRef .tc main_arg18) = W5 m ρ c (Proc.devRef .tc main_arg18) := W6_of_ne m ρ c main_arg18 (by decide)
theorem keep8_main_v3 : W8 m ρ c (Proc.devRef .tc main_v3) = W7 m ρ c (Proc.devRef .tc main_v3) := W8_of_ne m ρ c main_v3 (by decide)
theorem keep8_main_v6 : W8 m ρ c (Proc.devRef .tc main_v6) = W7 m ρ c (Proc.devRef .tc main_v6) := W8_of_ne m ρ c main_v6 (by decide)
theorem keep8_main_v16 : W8 m ρ c (Proc.devRef .tc main_v16) = W7 m ρ c (Proc.devRef .tc main_v16) := (W8_arr m ρ c 1).trans (((dat2 (V7 m ρ) c).arrAt_in 1 rfl _).trans (A_eq2 (V7 m ρ) c 1))
theorem keep8_main_arg2 : W8 m ρ c (Proc.devRef .tc main_arg2) = W7 m ρ c (Proc.devRef .tc main_arg2) := W8_of_ne m ρ c main_arg2 (by decide)
theorem keep8_main_arg8 : W8 m ρ c (Proc.devRef .tc main_arg8) = W7 m ρ c (Proc.devRef .tc main_arg8) := W8_of_ne m ρ c main_arg8 (by decide)
theorem keep8_main_arg13 : W8 m ρ c (Proc.devRef .tc main_arg13) = W7 m ρ c (Proc.devRef .tc main_arg13) := W8_of_ne m ρ c main_arg13 (by decide)
theorem keep8_main_arg14 : W8 m ρ c (Proc.devRef .tc main_arg14) = W7 m ρ c (Proc.devRef .tc main_arg14) := W8_of_ne m ρ c main_arg14 (by decide)
theorem keep8_main_arg15 : W8 m ρ c (Proc.devRef .tc main_arg15) = W7 m ρ c (Proc.devRef .tc main_arg15) := W8_of_ne m ρ c main_arg15 (by decide)
theorem keep8_main_arg16 : W8 m ρ c (Proc.devRef .tc main_arg16) = W7 m ρ c (Proc.devRef .tc main_arg16) := W8_of_ne m ρ c main_arg16 (by decide)
theorem keep8_main_arg17 : W8 m ρ c (Proc.devRef .tc main_arg17) = W7 m ρ c (Proc.devRef .tc main_arg17) := W8_of_ne m ρ c main_arg17 (by decide)
theorem keep8_main_arg18 : W8 m ρ c (Proc.devRef .tc main_arg18) = W7 m ρ c (Proc.devRef .tc main_arg18) := W8_of_ne m ρ c main_arg18 (by decide)
theorem keep10_main_arg2 : W10 m ρ c (Proc.devRef .tc main_arg2) = W9 m ρ c (Proc.devRef .tc main_arg2) := W10_of_ne m ρ c main_arg2 (by decide)
theorem keep10_main_arg15 : W10 m ρ c (Proc.devRef .tc main_arg15) = W9 m ρ c (Proc.devRef .tc main_arg15) := W10_of_ne m ρ c main_arg15 (by decide)
theorem keep10_main_arg16 : W10 m ρ c (Proc.devRef .tc main_arg16) = W9 m ρ c (Proc.devRef .tc main_arg16) := W10_of_ne m ρ c main_arg16 (by decide)
theorem keep10_main_arg17 : W10 m ρ c (Proc.devRef .tc main_arg17) = W9 m ρ c (Proc.devRef .tc main_arg17) := W10_of_ne m ρ c main_arg17 (by decide)
theorem keep10_main_arg18 : W10 m ρ c (Proc.devRef .tc main_arg18) = W9 m ρ c (Proc.devRef .tc main_arg18) := W10_of_ne m ρ c main_arg18 (by decide)

/-- The typed references of the called selection are the buffers themselves. -/
theorem to_main_cst_3 (h1 h2 h3) (v : (⟨S_, .f32⟩ : BufTy).Contents (Elt Ideal)) : (TRef.of main_cst_3 h1 h2 h3 : TRef sig ⟨S_, .f32⟩).toBuf v = v := rfl
theorem of_main_cst_3 (h1 h2 h3) (v : (⟨S_, .f32⟩ : BufTy).Contents (Elt Ideal)) : (TRef.of main_cst_3 h1 h2 h3 : TRef sig ⟨S_, .f32⟩).ofBuf v = v := rfl
theorem to_main_call0_v0 (h1 h2 h3) (v : (⟨S_, .f32⟩ : BufTy).Contents (Elt Ideal)) : (TRef.of main_call0_v0 h1 h2 h3 : TRef sig ⟨S_, .f32⟩).toBuf v = v := rfl
theorem of_main_call0_v0 (h1 h2 h3) (v : (⟨S_, .f32⟩ : BufTy).Contents (Elt Ideal)) : (TRef.of main_call0_v0 h1 h2 h3 : TRef sig ⟨S_, .f32⟩).ofBuf v = v := rfl
theorem to_main_call0_v1 (h1 h2 h3) (v : (⟨S100000, .f32⟩ : BufTy).Contents (Elt Ideal)) : (TRef.of main_call0_v1 h1 h2 h3 : TRef sig ⟨S100000, .f32⟩).toBuf v = v := rfl
theorem of_main_call0_v1 (h1 h2 h3) (v : (⟨S100000, .f32⟩ : BufTy).Contents (Elt Ideal)) : (TRef.of main_call0_v1 h1 h2 h3 : TRef sig ⟨S100000, .f32⟩).ofBuf v = v := rfl
theorem to_main_v12 (h1 h2 h3) (v : (⟨S100000, .i1⟩ : BufTy).Contents (Elt Ideal)) : (TRef.of main_v12 h1 h2 h3 : TRef sig ⟨S100000, .i1⟩).toBuf v = v := rfl
theorem of_main_v12 (h1 h2 h3) (v : (⟨S100000, .i1⟩ : BufTy).Contents (Elt Ideal)) : (TRef.of main_v12 h1 h2 h3 : TRef sig ⟨S100000, .i1⟩).ofBuf v = v := rfl
theorem to_main_v14 (h1 h2 h3) (v : (⟨S100000, .f32⟩ : BufTy).Contents (Elt Ideal)) : (TRef.of main_v14 h1 h2 h3 : TRef sig ⟨S100000, .f32⟩).toBuf v = v := rfl
theorem of_main_v14 (h1 h2 h3) (v : (⟨S100000, .f32⟩ : BufTy).Contents (Elt Ideal)) : (TRef.of main_v14 h1 h2 h3 : TRef sig ⟨S100000, .f32⟩).ofBuf v = v := rfl
theorem to_main_v15 (h1 h2 h3) (v : (⟨S100000, .f32⟩ : BufTy).Contents (Elt Ideal)) : (TRef.of main_v15 h1 h2 h3 : TRef sig ⟨S100000, .f32⟩).toBuf v = v := rfl
theorem of_main_v15 (h1 h2 h3) (v : (⟨S100000, .f32⟩ : BufTy).Contents (Elt Ideal)) : (TRef.of main_v15 h1 h2 h3 : TRef sig ⟨S100000, .f32⟩).ofBuf v = v := rfl

/-- The pass that computes a buffer's contents after the host lines and kernels before a boundary. -/
macro "chain_read" : tactic =>
  `(tactic| (simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', concat2_fold,
      to_main_cst_3, of_main_cst_3, to_main_call0_v0, of_main_call0_v0, to_main_call0_v1, of_main_call0_v1, to_main_v12, of_main_v12, to_main_v14, of_main_v14, to_main_v15, of_main_v15]))

/-- One buffer kept across one kernel. -/
macro "keep_step" : tactic =>
  `(tactic| (first
      | rw [keep4_main_v3]
      | rw [keep4_main_v6]
      | rw [keep4_main_v16]
      | rw [keep4_main_arg2]
      | rw [keep4_main_arg4]
      | rw [keep4_main_arg5]
      | rw [keep4_main_arg6]
      | rw [keep4_main_arg7]
      | rw [keep4_main_arg8]
      | rw [keep4_main_arg9]
      | rw [keep4_main_arg10]
      | rw [keep4_main_arg11]
      | rw [keep4_main_arg12]
      | rw [keep4_main_arg13]
      | rw [keep4_main_arg14]
      | rw [keep4_main_arg15]
      | rw [keep4_main_arg16]
      | rw [keep4_main_arg17]
      | rw [keep4_main_arg18]
      | rw [keep6_main_v3]
      | rw [keep6_main_v6]
      | rw [keep6_main_v16]
      | rw [keep6_main_arg2]
      | rw [keep6_main_arg6]
      | rw [keep6_main_arg7]
      | rw [keep6_main_arg8]
      | rw [keep6_main_arg11]
      | rw [keep6_main_arg12]
      | rw [keep6_main_arg13]
      | rw [keep6_main_arg14]
      | rw [keep6_main_arg15]
      | rw [keep6_main_arg16]
      | rw [keep6_main_arg17]
      | rw [keep6_main_arg18]
      | rw [keep8_main_v3]
      | rw [keep8_main_v6]
      | rw [keep8_main_v16]
      | rw [keep8_main_arg2]
      | rw [keep8_main_arg8]
      | rw [keep8_main_arg13]
      | rw [keep8_main_arg14]
      | rw [keep8_main_arg15]
      | rw [keep8_main_arg16]
      | rw [keep8_main_arg17]
      | rw [keep8_main_arg18]
      | rw [keep10_main_arg2]
      | rw [keep10_main_arg15]
      | rw [keep10_main_arg16]
      | rw [keep10_main_arg17]
      | rw [keep10_main_arg18]))

/-- The pass, the kept buffers walked back across the kernels, until the launch contents are reached. -/
macro "chain_walk" : tactic =>
  `(tactic| ((try chain_read); repeat (keep_step; try chain_read)))

/-- The arrays the kernels leave. -/
theorem out0 : W4 m ρ c (Proc.devRef .tc main_v17) = (dat0 (V3 m ρ) c).arrAt 3 cfg0.N := W4_arr m ρ c 3
theorem out1 : W6 m ρ c (Proc.devRef .tc main_v32) = (dat1 (V5 m ρ) c).arrAt 6 cfg1.N := W6_arr m ρ c 6
theorem out2 : W8 m ρ c (Proc.devRef .tc main_v47) = (dat2 (V7 m ρ) c).arrAt 6 cfg2.N := W8_arr m ρ c 6
theorem out3 : W10 m ρ c (Proc.devRef .tc main_v62) = (dat3 (V9 m ρ) c).arrAt 5 cfg3.N := W10_arr m ρ c 5
theorem out4 : W12 m ρ c (Proc.devRef .tc main_v77) = (dat4 (V11 m ρ) c).arrAt 5 cfg4.N := W12_arr m ρ c 5

/-- The launch contents of an argument. -/
abbrev arg (b : Ref sig .tc) := W0 m ρ c (Proc.devRef .tc b)

/-! ### What the first kernel finds -/
theorem in0_x : V3 m ρ c main_arg0 = arg m ρ c main_arg0 := by
  show W3 m ρ c (Proc.devRef .tc main_arg0) = _
  chain_walk
theorem in0_w : V3 m ρ c main_arg3 = arg m ρ c main_arg3 := by
  show W3 m ρ c (Proc.devRef .tc main_arg3) = _
  chain_walk
theorem in0_d : V3 m ρ c main_v16 = dcolOf (dstWords (arg m ρ c main_arg1)) := by
  show W3 m ρ c (Proc.devRef .tc main_v16) = _
  chain_walk
  rfl
/-! ### What kernel 1 finds -/
theorem in1_a : V5 m ρ c main_v28 = aggOf (W4 m ρ c (Proc.devRef .tc main_v17)) (srcWords (arg m ρ c main_arg1)) (dstWords (arg m ρ c main_arg1)) := by
  show W5 m ρ c (Proc.devRef .tc main_v28) = _
  chain_walk
  rfl
theorem in1_d : V5 m ρ c main_v16 = V3 m ρ c main_v16 := by
  show W5 m ρ c (Proc.devRef .tc main_v16) = W3 m ρ c (Proc.devRef .tc main_v16)
  chain_walk
theorem in1_b : V5 m ρ c main_v29 = shapeCast S1x128 (arg m ρ c main_arg4) shapeCasts_S128_S1x128 := by
  show W5 m ρ c (Proc.devRef .tc main_v29) = _
  chain_walk
  rfl
theorem in1_g : V5 m ρ c main_v30 = shapeCast S1x128 (arg m ρ c main_arg9) shapeCasts_S128_S1x128 := by
  show W5 m ρ c (Proc.devRef .tc main_v30) = _
  chain_walk
  rfl
theorem in1_be : V5 m ρ c main_v31 = shapeCast S1x128 (arg m ρ c main_arg10) shapeCasts_S128_S1x128 := by
  show W5 m ρ c (Proc.devRef .tc main_v31) = _
  chain_walk
  rfl
theorem in1_w : V5 m ρ c main_arg5 = arg m ρ c main_arg5 := by
  show W5 m ρ c (Proc.devRef .tc main_arg5) = _
  chain_walk
/-! ### What kernel 2 finds -/
theorem in2_a : V7 m ρ c main_v43 = aggOf (W6 m ρ c (Proc.devRef .tc main_v32)) (srcWords (arg m ρ c main_arg1)) (dstWords (arg m ρ c main_arg1)) := by
  show W7 m ρ c (Proc.devRef .tc main_v43) = _
  chain_walk
  rfl
theorem in2_d : V7 m ρ c main_v16 = V3 m ρ c main_v16 := by
  show W7 m ρ c (Proc.devRef .tc main_v16) = W3 m ρ c (Proc.devRef .tc main_v16)
  chain_walk
theorem in2_b : V7 m ρ c main_v44 = shapeCast S1x128 (arg m ρ c main_arg6) shapeCasts_S128_S1x128 := by
  show W7 m ρ c (Proc.devRef .tc main_v44) = _
  chain_walk
  rfl
theorem in2_g : V7 m ρ c main_v45 = shapeCast S1x128 (arg m ρ c main_arg11) shapeCasts_S128_S1x128 := by
  show W7 m ρ c (Proc.devRef .tc main_v45) = _
  chain_walk
  rfl
theorem in2_be : V7 m ρ c main_v46 = shapeCast S1x128 (arg m ρ c main_arg12) shapeCasts_S128_S1x128 := by
  show W7 m ρ c (Proc.devRef .tc main_v46) = _
  chain_walk
  rfl
theorem in2_w : V7 m ρ c main_arg7 = arg m ρ c main_arg7 := by
  show W7 m ρ c (Proc.devRef .tc main_arg7) = _
  chain_walk
/-! ### What kernel 3 finds -/
theorem in3_a : V9 m ρ c main_v58 = aggOf (W8 m ρ c (Proc.devRef .tc main_v47)) (srcWords (arg m ρ c main_arg1)) (dstWords (arg m ρ c main_arg1)) := by
  show W9 m ρ c (Proc.devRef .tc main_v58) = _
  chain_walk
  rfl
theorem in3_d : V9 m ρ c main_v16 = V3 m ρ c main_v16 := by
  show W9 m ρ c (Proc.devRef .tc main_v16) = W3 m ρ c (Proc.devRef .tc main_v16)
  chain_walk
theorem in3_b : V9 m ρ c main_v59 = shapeCast S1x128 (arg m ρ c main_arg8) shapeCasts_S128_S1x128 := by
  show W9 m ρ c (Proc.devRef .tc main_v59) = _
  chain_walk
  rfl
theorem in3_g : V9 m ρ c main_v60 = shapeCast S1x128 (arg m ρ c main_arg13) shapeCasts_S128_S1x128 := by
  show W9 m ρ c (Proc.devRef .tc main_v60) = _
  chain_walk
  rfl
theorem in3_be : V9 m ρ c main_v61 = shapeCast S1x128 (arg m ρ c main_arg14) shapeCasts_S128_S1x128 := by
  show W9 m ρ c (Proc.devRef .tc main_v61) = _
  chain_walk
  rfl
/-! ### What the last kernel finds -/
theorem in4_p : V11 m ρ c main_v74 = poolOf (arg m ρ c main_arg2) (W10 m ρ c (Proc.devRef .tc main_v62)) := by
  show W11 m ρ c (Proc.devRef .tc main_v74) = _
  chain_walk
  rfl
theorem in4_w1 : V11 m ρ c main_arg15 = arg m ρ c main_arg15 := by
  show W11 m ρ c (Proc.devRef .tc main_arg15) = _
  chain_walk
theorem in4_b1 : V11 m ρ c main_v75 = shapeCast S1x64 (arg m ρ c main_arg16) shapeCasts_S64_S1x64 := by
  show W11 m ρ c (Proc.devRef .tc main_v75) = _
  chain_walk
  rfl
theorem in4_w2 : V11 m ρ c main_arg17 = arg m ρ c main_arg17 := by
  show W11 m ρ c (Proc.devRef .tc main_arg17) = _
  chain_walk
theorem in4_b2 : V11 m ρ c main_v76 = shapeCast S1x10 (arg m ρ c main_arg18) shapeCasts_S10_S1x10 := by
  show W11 m ρ c (Proc.devRef .tc main_v76) = _
  chain_walk
  rfl

end Cert.KernelIdeal.HostChain

end
-- ==== Proof.Region0.lean ====
/-
  The first product of the network, as the scaled table it leaves: every row block of 4000 nodes holds the rows of
  X·W scaled by the nodes' factors, and the 25 blocks tile the 100000 rows.
-/
import proofs.«132462_j15779709846111_2_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Reg0

open Cert.KernelIdeal Cert.KernelIdeal.Gen Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Entry (u, j) of the scaled product: row u of X against column j of W, times node u's factor. -/
def val (X : S100000x128.Idx → EReal) (W : S128x128.Idx → EReal) (d : S100000x1.Idx → EReal) (u : Fin 100000) (j : Fin 128) : EReal :=
  (∑ k : Fin 128, X (ix2 u k) * W (ix2 k j)) * d (ix2 u 0)

/-- The dimension numbers of the block product: rows times columns over one contracted axis of 128. -/
abbrev D : DotDims S4000x128 S128x128 S4000x128 := dot_S4000x128_S128x128_S4000x128_1_0_0_1_n_n

/-- The left factor's row is the result's row. -/
theorem lhs0 (i : S4000x128.Idx) (r : D.contr.Idx) : (D.lhsIdx i r 0).val = (i 0).val := by
  unfold DotDims.lhsIdx
  rw [dif_neg (show ¬(0 : Fin S4000x128.rank) ∈ D.lhsBatch by decide), dif_pos (show (0 : Fin S4000x128.rank) ∈ D.lhsNonContracting by decide)]
  rfl
/-- The left factor's column is the contracted position. -/
theorem lhs1 (i : S4000x128.Idx) (r : D.contr.Idx) : (D.lhsIdx i r 1).val = (r ⟨0, by decide⟩).val :=
  D.lhsIdx_val_of_single rfl i r
/-- The right factor's row is the contracted position. -/
theorem rhs0 (i : S4000x128.Idx) (r : D.contr.Idx) : (D.rhsIdx i r 0).val = (r ⟨0, by decide⟩).val :=
  D.rhsIdx_val_of_single rfl i r
/-- The right factor's column is the result's column. -/
theorem rhs1 (i : S4000x128.Idx) (r : D.contr.Idx) : (D.rhsIdx i r 1).val = (i 1).val := by
  unfold DotDims.rhsIdx
  rw [dif_neg (show ¬(1 : Fin S128x128.rank) ∈ D.rhsBatch by decide), dif_pos (show (1 : Fin S128x128.rank) ∈ D.rhsNonContracting by decide)]
  rfl

/-- The block product into a zero accumulator, at entry (p, q): the sum over the 128 contracted positions. -/
theorem matmul_ix (a : FVec Ideal S4000x128 .bf16) (w : FVec Ideal S128x128 .bf16) (p : Fin 4000) (q : Fin 128) :
    matmul D none a w (constant S4000x128 .f32 0x00000000#32) (ix2 p q) = ∑ k : Fin 128, a (ix2 p k) * w (ix2 k q) := by
  simp only [matmul]
  rw [Ideal.matmul_constant_zero_apply, ← Equiv.sum_comp (contrEquiv1 D 128 rfl rfl).symm]
  refine Finset.sum_congr rfl fun k _ => ?_
  have hk := contrEquiv1_symm_val D 128 rfl rfl k
  have el : D.lhsIdx (ix2 p q) ((contrEquiv1 D 128 rfl rfl).symm k) = ix2 p k := funext fun a => Fin.ext (by
    match a with
    | ⟨0, _⟩ => exact lhs0 _ _
    | ⟨1, _⟩ => exact (lhs1 _ _).trans hk)
  have er : D.rhsIdx (ix2 p q) ((contrEquiv1 D 128 rfl rfl).symm k) = ix2 k q := funext fun a => Fin.ext (by
    match a with
    | ⟨0, _⟩ => exact (rhs0 _ _).trans hk
    | ⟨1, _⟩ => exact rhs1 _ _)
  rw [el, er]

/-- The body's value at entry (p, q) of a block: the product's entry times the row's factor. -/
theorem pay_ix (x : FVec Ideal S4000x128 .f32) (w : FVec Ideal S128x128 .f32) (d : FVec Ideal S4000x1 .f32) (p : Fin 4000) (q : Fin 128) :
    k0_pay1 (F := Ideal) x w d (ix2 p q) = (∑ k : Fin 128, x (ix2 p k) * w (ix2 k q)) * d (ix2 p 0) := by
  have e1 : k0_pay1 (F := Ideal) x w d (ix2 p q)
      = matmul (F := Ideal) D none (truncf (F := Ideal) .bf16 x bitsLt_bf16_f32) (truncf (F := Ideal) .bf16 w bitsLt_bf16_f32) (constant (F := Ideal) S4000x128 .f32 0x00000000#32) (ix2 p q)
        * broadcastTo S4000x128 (shapeCast S4000x1 d shapeCasts_S4000x1_S4000x1) broadcasts_S4000x1_S4000x128 (ix2 p q) := rfl
  rw [e1, matmul_ix, shapeCast_self]
  rw [broadcastTo_apply d broadcasts_S4000x1_S4000x128 (ix2 p q) (ix2 p 0) (by
    intro a
    match a with
    | ⟨0, _⟩ => rfl
    | ⟨1, _⟩ => rfl)]
  rfl

/-- The printed index maps, decided over the 25 points: the row-block windows sit at block (t, 0), the weight at (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Block t of the feature table is its rows 4000 t … 4000 t + 3999. -/
theorem blk_x (c : Dev nD) (t : Fin cfg0.N) (p : Fin 4000) (k : Fin 128) (u : Fin 100000) (hu : u.val = 4000 * t.val + p.val) :
    (iblk0 V c 0 t : Vec Ideal S4000x128 .f32) (ix2 p k) = V c main_arg0 (ix2 u k) := by
  obtain ⟨e0, e1, -⟩ := idx_facts t
  unfold iblk0
  rw [View.read_apply]
  show V c main_arg0 _ = V c main_arg0 _
  congr 1
  funext a
  apply Fin.ext
  match a with
  | ⟨0, _⟩ => show win0_0.index t 0 * 4000 + 1 * p.val = u.val; rw [e0, hu]; omega
  | ⟨1, _⟩ => show win0_0.index t 1 * 128 + 1 * k.val = k.val; rw [e1]; omega

/-- Every point sees the whole weight. -/
theorem blk_w (c : Dev nD) (t : Fin cfg0.N) (k : Fin 128) (q : Fin 128) :
    (iblk0 V c 1 t : Vec Ideal S128x128 .f32) (ix2 k q) = V c main_arg3 (ix2 k q) := by
  obtain ⟨-, -, e2, e3, -⟩ := idx_facts t
  unfold iblk0
  rw [View.read_apply]
  show V c main_arg3 _ = V c main_arg3 _
  congr 1
  funext a
  apply Fin.ext
  match a with
  | ⟨0, _⟩ => show win0_1.index t 0 * 128 + 1 * k.val = k.val; rw [e2]; omega
  | ⟨1, _⟩ => show win0_1.index t 1 * 128 + 1 * q.val = q.val; rw [e3]; omega

/-- Block t of the factor column is its rows 4000 t … 4000 t + 3999. -/
theorem blk_d (c : Dev nD) (t : Fin cfg0.N) (p : Fin 4000) (u : Fin 100000) (hu : u.val = 4000 * t.val + p.val) :
    (iblk0 V c 2 t : Vec Ideal S4000x1 .f32) (ix2 p 0) = V c main_v16 (ix2 u 0) := by
  obtain ⟨-, -, -, -, e4, e5, -⟩ := idx_facts t
  unfold iblk0
  rw [View.read_apply]
  show V c main_v16 _ = V c main_v16 _
  congr 1
  funext a
  apply Fin.ext
  match a with
  | ⟨0, _⟩ => show win0_2.index t 0 * 4000 + 1 * p.val = u.val; rw [e4, hu]; omega
  | ⟨1, _⟩ => show win0_2.index t 1 * 1 + 1 * 0 = 0; rw [e5]

/-- The scaled product as one table over all nodes. -/
def G (c : Dev nD) : S100000x128.Idx → Elt Ideal .bf16 := fun i =>
  val (V c main_arg0) (V c main_arg3) (V c main_v16) (i 0) (i 1)

/-- What point t writes back is block t of that table. -/
theorem flushed_eq (c : Dev nD) (t : Fin cfg0.N) :
    (dat0 V c).flushed 3 t = ((cfg0.win 3).blk t).view.read (Elt Ideal) (G V c) := by
  show (cfg0.win 3).cut (grid0.coords t) ((dat0 V c).after 3 t) = _
  rw [after0_3]
  unfold out0_3
  rw [View.canon_unit_zero hz]
  simp only [View.ld_unit_zero (S := S4000x128) hz, View.ld_unit_zero (S := S128x128) hz, View.ld_unit_zero (S := S4000x1) hz]
  funext y
  obtain ⟨p, q, rfl⟩ : ∃ (p : Fin 4000) (q : Fin 128), y = ix2 p q := ⟨y 0, y 1, eq_ix2 (n0 := 4000) (n1 := 128) y⟩
  obtain ⟨-, -, -, -, -, -, e6, e7⟩ := idx_facts t
  have hN : cfg0.N = 25 := N_0
  have hu : 4000 * t.val + p.val < 100000 := by have := t.isLt; omega
  have hemb : ((cfg0.win 3).blk t).view.emb (ix2 p q) = ix2 (⟨4000 * t.val + p.val, hu⟩ : Fin 100000) q := by
    funext a; apply Fin.ext
    match a with
    | ⟨0, _⟩ => show win0_3.index t 0 * 4000 + 1 * p.val = 4000 * t.val + p.val; rw [e6]; omega
    | ⟨1, _⟩ => show win0_3.index t 1 * 128 + 1 * q.val = q.val; rw [e7]; omega
  show k0_pay1 (F := Ideal) (iblk0 V c 0 t) (iblk0 V c 1 t) (iblk0 V c 2 t) (ix2 p q) = G V c (((cfg0.win 3).blk t).view.emb (ix2 p q))
  rw [hemb]
  refine (pay_ix (iblk0 V c 0 t) (iblk0 V c 1 t) (iblk0 V c 2 t) p q).trans ?_
  show _ = val (V c main_arg0) (V c main_arg3) (V c main_v16) (⟨4000 * t.val + p.val, hu⟩ : Fin 100000) q
  unfold val
  rw [blk_d V c t p ⟨4000 * t.val + p.val, hu⟩ rfl]
  congr 1
  refine Finset.sum_congr rfl fun k _ => ?_
  rw [blk_x V c t p k ⟨4000 * t.val + p.val, hu⟩ rfl, blk_w V c t k q]

/-- An index of the table is in point t's block iff each coordinate is in the block's range on its axis. -/
theorem mem_blk (t : Fin cfg0.N) (i : S100000x128.Idx) :
    i ∈ ((cfg0.win 3).blk t).view.set ↔ ∀ a : Fin 2, win0_3.index t a * S4000x128.size a ≤ (i a).val ∧ (i a).val < win0_3.index t a * S4000x128.size a + S4000x128.size a := by
  show i ∈ ((View.whole main_v17).slice (win0_3.rect t)).set ↔ _
  rw [View.set_slice_whole, Rect.mem_set_unit]
  exact Iff.rfl

/-- Row r lies in the block of point r / 4000: the 25 blocks tile the table. -/
theorem cover (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 25 := N_0
  have ht : (i 0).val / 4000 < cfg0.N := by rw [hN]; omega
  obtain ⟨-, -, -, -, -, -, e6, e7⟩ := idx_facts ⟨(i 0).val / 4000, ht⟩
  refine ⟨⟨(i 0).val / 4000, ht⟩, flush0_3 _, ?_⟩
  rw [mem_blk]
  intro a
  match a with
  | ⟨0, _⟩ =>
    show win0_3.index ⟨(i 0).val / 4000, ht⟩ 0 * 4000 ≤ (i 0).val ∧ (i 0).val < win0_3.index ⟨(i 0).val / 4000, ht⟩ 0 * 4000 + 4000
    rw [e6]
    show (i 0).val / 4000 * 4000 ≤ (i 0).val ∧ (i 0).val < (i 0).val / 4000 * 4000 + 4000
    omega
  | ⟨1, _⟩ =>
    show win0_3.index ⟨(i 0).val / 4000, ht⟩ 1 * 128 ≤ (i 1).val ∧ (i 1).val < win0_3.index ⟨(i 0).val / 4000, ht⟩ 1 * 128 + 128
    rw [e7]
    omega

/-- The table the region leaves. -/
theorem final_arr (c : Dev nD) : (dat0 V c).arrAt 3 cfg0.N = G V c :=
  (dat0 V c).arrAt_eq_of_cover 3 (G V c) (fun t _ => flushed_eq V c t) cover

/-- Entry (u, j) of it: the product's entry scaled by node u's factor. -/
theorem final (c : Dev nD) (u : Fin 100000) (j : Fin 128) :
    (dat0 (F := Ideal) V c).arrAt 3 cfg0.N (ix2 u j) = val (V c main_arg0) (V c main_arg3) (V c main_v16) u j := by
  rw [final_arr]
  rfl

end Cert.KernelIdeal.Reg0

end
-- ==== Proof.Region1.lean ====
/-
  A middle layer of the network, as the table it leaves. Each summed row is scaled by its node's factor, gets the bias,
  the normalisation (gain, fixed scale, shift) and the rectifier, is scaled by the node's factor again, and is then
  multiplied into the next weight. Every row block of 4000 nodes is computed from its own rows alone, and the 25
  blocks tile the 100000 rows.
-/
import proofs.«132462_j15779709846111_2_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Reg1

open Cert.KernelIdeal Cert.KernelIdeal.Gen Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Entry (u, j) of the layer's table: over the 128 columns k, the activated and rescaled entry (u, k) times W (k, j). -/
def val (A : S100000x128.Idx → EReal) (d : S100000x1.Idx → EReal) (b g be : S1x128.Idx → EReal) (W : S128x128.Idx → EReal)
    (u : Fin 100000) (j : Fin 128) : EReal :=
  ∑ k : Fin 128, (max ((g (ix2 0 k) * (A (ix2 u k) * d (ix2 u 0) + b (ix2 0 k))) * Ideal.ofBits .f32 0x3F7FFFAC#32 + be (ix2 0 k)) (Ideal.ofBits .f32 0x00000000#32)
      * d (ix2 u 0)) * W (ix2 k j)

/-- The dimension numbers of the block product: rows times columns over one contracted axis of 128. -/
abbrev D : DotDims S4000x128 S128x128 S4000x128 := dot_S4000x128_S128x128_S4000x128_1_0_0_1_n_n

/-- The left factor's row is the result's row. -/
theorem lhs0 (i : S4000x128.Idx) (r : D.contr.Idx) : (D.lhsIdx i r 0).val = (i 0).val := by
  unfold DotDims.lhsIdx
  rw [dif_neg (show ¬(0 : Fin S4000x128.rank) ∈ D.lhsBatch by decide), dif_pos (show (0 : Fin S4000x128.rank) ∈ D.lhsNonContracting by decide)]
  rfl
/-- The left factor's column is the contracted position. -/
theorem lhs1 (i : S4000x128.Idx) (r : D.contr.Idx) : (D.lhsIdx i r 1).val = (r ⟨0, by decide⟩).val :=
  D.lhsIdx_val_of_single rfl i r
/-- The right factor's row is the contracted position. -/
theorem rhs0 (i : S4000x128.Idx) (r : D.contr.Idx) : (D.rhsIdx i r 0).val = (r ⟨0, by decide⟩).val :=
  D.rhsIdx_val_of_single rfl i r
/-- The right factor's column is the result's column. -/
theorem rhs1 (i : S4000x128.Idx) (r : D.contr.Idx) : (D.rhsIdx i r 1).val = (i 1).val := by
  unfold DotDims.rhsIdx
  rw [dif_neg (show ¬(1 : Fin S128x128.rank) ∈ D.rhsBatch by decide), dif_pos (show (1 : Fin S128x128.rank) ∈ D.rhsNonContracting by decide)]
  rfl

/-- The block product into a zero accumulator, at entry (p, q): the sum over the 128 contracted positions. -/
theorem matmul_ix (a : FVec Ideal S4000x128 .bf16) (w : FVec Ideal S128x128 .bf16) (p : Fin 4000) (q : Fin 128) :
    matmul D none a w (constant S4000x128 .f32 0x00000000#32) (ix2 p q) = ∑ k : Fin 128, a (ix2 p k) * w (ix2 k q) := by
  simp only [matmul]
  rw [Ideal.matmul_constant_zero_apply, ← Equiv.sum_comp (contrEquiv1 D 128 rfl rfl).symm]
  refine Finset.sum_congr rfl fun k _ => ?_
  have hk := contrEquiv1_symm_val D 128 rfl rfl k
  have el : D.lhsIdx (ix2 p q) ((contrEquiv1 D 128 rfl rfl).symm k) = ix2 p k := funext fun a => Fin.ext (by
    match a with
    | ⟨0, _⟩ => exact lhs0 _ _
    | ⟨1, _⟩ => exact (lhs1 _ _).trans hk)
  have er : D.rhsIdx (ix2 p q) ((contrEquiv1 D 128 rfl rfl).symm k) = ix2 k q := funext fun a => Fin.ext (by
    match a with
    | ⟨0, _⟩ => exact (rhs0 _ _).trans hk
    | ⟨1, _⟩ => exact rhs1 _ _)
  rw [el, er]

/-- A column of factors laid along every column of the block reads the row's factor. -/
theorem bc_col (d : FVec Ideal S4000x1 .f32) (p : Fin 4000) (k : Fin 128) :
    broadcastTo S4000x128 d broadcasts_S4000x1_S4000x128 (ix2 p k) = d (ix2 p 0) := by
  exact broadcastTo_apply d broadcasts_S4000x1_S4000x128 (ix2 p k) (ix2 p 0) (by
    intro a
    match a with
    | ⟨0, _⟩ => rfl
    | ⟨1, _⟩ => rfl)

/-- A row laid along every row of the block reads the column's entry. -/
theorem bc_row (r : FVec Ideal S1x128 .f32) (p : Fin 4000) (k : Fin 128) :
    broadcastTo S4000x128 r broadcasts_S1x128_S4000x128 (ix2 p k) = r (ix2 0 k) := by
  exact broadcastTo_apply r broadcasts_S1x128_S4000x128 (ix2 p k) (ix2 0 k) (by
    intro a
    match a with
    | ⟨0, _⟩ => rfl
    | ⟨1, _⟩ => rfl)

/-- The left factor of the block product: the block's rows scaled, biased, normalised, rectified and scaled again. -/
def pre (A : FVec Ideal S4000x128 .f32) (d : FVec Ideal S4000x1 .f32) (b g be : FVec Ideal S1x128 .f32) (d' : FVec Ideal S4000x1 .f32) :
    FVec Ideal S4000x128 .f32 :=
  mulf
    (maximumf
      (addf
        (mulf
          (mulf (broadcastTo S4000x128 (shapeCast S1x128 g shapeCasts_S1x128_S1x128) broadcasts_S1x128_S4000x128)
            (addf
              (mulf (shapeCast S4000x128 A shapeCasts_S4000x128_S4000x128)
                (broadcastTo S4000x128 (shapeCast S4000x1 d shapeCasts_S4000x1_S4000x1) broadcasts_S4000x1_S4000x128))
              (broadcastTo S4000x128 (shapeCast S1x128 b shapeCasts_S1x128_S1x128) broadcasts_S1x128_S4000x128)))
          (broadcast S4000x128 (Scalar.ofBits (F := Ideal) .f32 0x3F7FFFAC#32)))
        (broadcastTo S4000x128 (shapeCast S1x128 be shapeCasts_S1x128_S1x128) broadcasts_S1x128_S4000x128))
      (broadcast S4000x128 (Scalar.ofBits (F := Ideal) .f32 0x00000000#32)))
    (broadcastTo S4000x128 (shapeCast S4000x1 d' shapeCasts_S4000x1_S4000x1) broadcasts_S4000x1_S4000x128)

/-- That factor at entry (p, k). -/
theorem pre_ix (A : FVec Ideal S4000x128 .f32) (d : FVec Ideal S4000x1 .f32) (b g be : FVec Ideal S1x128 .f32) (d' : FVec Ideal S4000x1 .f32)
    (p : Fin 4000) (k : Fin 128) :
    pre A d b g be d' (ix2 p k)
      = max ((g (ix2 0 k) * (A (ix2 p k) * d (ix2 p 0) + b (ix2 0 k))) * Ideal.ofBits .f32 0x3F7FFFAC#32 + be (ix2 0 k)) (Ideal.ofBits .f32 0x00000000#32)
        * d' (ix2 p 0) := by
  unfold pre
  simp only [mulf_apply, addf_apply, maximumf_apply, broadcast_apply, bc_col, bc_row, shapeCast_self]
  rfl

/-- The body's value at entry (p, q) of a block. -/
theorem pay_ix (A : FVec Ideal S4000x128 .f32) (d : FVec Ideal S4000x1 .f32) (b g be : FVec Ideal S1x128 .f32) (d' : FVec Ideal S4000x1 .f32)
    (W : FVec Ideal S128x128 .f32) (p : Fin 4000) (q : Fin 128) :
    k1_pay1 (F := Ideal) A d b g be d' W (ix2 p q)
      = ∑ k : Fin 128, (max ((g (ix2 0 k) * (A (ix2 p k) * d (ix2 p 0) + b (ix2 0 k))) * Ideal.ofBits .f32 0x3F7FFFAC#32 + be (ix2 0 k)) (Ideal.ofBits .f32 0x00000000#32)
          * d' (ix2 p 0)) * W (ix2 k q) := by
  have e1 : k1_pay1 (F := Ideal) A d b g be d' W (ix2 p q)
      = matmul (F := Ideal) D none (truncf (F := Ideal) .bf16 (pre A d b g be d') bitsLt_bf16_f32) (truncf (F := Ideal) .bf16 W bitsLt_bf16_f32)
          (constant (F := Ideal) S4000x128 .f32 0x00000000#32) (ix2 p q) := rfl
  rw [e1, matmul_ix]
  refine Finset.sum_congr rfl fun k _ => ?_
  show pre A d b g be d' (ix2 p k) * W (ix2 k q) = _
  rw [pre_ix]

/-- The printed index maps, decided over the 25 points: the row-block windows sit at block (t, 0), the weight at (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- The three one-row windows sit at block (0, 0) at every point. -/
theorem idx_rows : ∀ t : Fin cfg1.N,
    (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0) :=
  (by decide +kernel : ∀ t : Fin grid1.N, _)

/-- Block t of the summed table is its rows 4000 t … 4000 t + 3999. -/
theorem blk_a (c : Dev nD) (t : Fin cfg1.N) (p : Fin 4000) (k : Fin 128) (u : Fin 100000) (hu : u.val = 4000 * t.val + p.val) :
    (iblk1 V c 0 t : Vec Ideal S4000x128 .f32) (ix2 p k) = V c main_v28 (ix2 u k) := by
  obtain ⟨e0, e1, -⟩ := idx_facts t
  unfold iblk1
  rw [View.read_apply]
  show V c main_v28 _ = V c main_v28 _
  congr 1
  funext a
  apply Fin.ext
  match a with
  | ⟨0, _⟩ => show win1_0.index t 0 * 4000 + 1 * p.val = u.val; rw [e0, hu]; omega
  | ⟨1, _⟩ => show win1_0.index t 1 * 128 + 1 * k.val = k.val; rw [e1]; omega

/-- Block t of the factor column is its rows 4000 t … 4000 t + 3999. -/
theorem blk_d (c : Dev nD) (t : Fin cfg1.N) (p : Fin 4000) (u : Fin 100000) (hu : u.val = 4000 * t.val + p.val) :
    (iblk1 V c 1 t : Vec Ideal S4000x1 .f32) (ix2 p 0) = V c main_v16 (ix2 u 0) := by
  obtain ⟨-, -, e2, e3, -⟩ := idx_facts t
  unfold iblk1
  rw [View.read_apply]
  show V c main_v16 _ = V c main_v16 _
  congr 1
  funext a
  apply Fin.ext
  match a with
  | ⟨0, _⟩ => show win1_1.index t 0 * 4000 + 1 * p.val = u.val; rw [e2, hu]; omega
  | ⟨1, _⟩ => show win1_1.index t 1 * 1 + 1 * 0 = 0; rw [e3]

/-- Every point sees the whole b row. -/
theorem blk_b (c : Dev nD) (t : Fin cfg1.N) (k : Fin 128) :
    (iblk1 V c 2 t : Vec Ideal S1x128 .f32) (ix2 0 k) = V c main_v29 (ix2 0 k) := by
  have e := (idx_rows t).1
  unfold iblk1
  rw [View.read_apply]
  show V c main_v29 _ = V c main_v29 _
  congr 1
  funext a
  apply Fin.ext
  match a with
  | ⟨0, _⟩ => show win1_2.index t 0 * 1 + 1 * 0 = 0; rw [e.1]
  | ⟨1, _⟩ => show win1_2.index t 1 * 128 + 1 * k.val = k.val; rw [e.2]; omega

/-- Every point sees the whole g row. -/
theorem blk_g (c : Dev nD) (t : Fin cfg1.N) (k : Fin 128) :
    (iblk1 V c 3 t : Vec Ideal S1x128 .f32) (ix2 0 k) = V c main_v30 (ix2 0 k) := by
  have e := (idx_rows t).2.1
  unfold iblk1
  rw [View.read_apply]
  show V c main_v30 _ = V c main_v30 _
  congr 1
  funext a
  apply Fin.ext
  match a with
  | ⟨0, _⟩ => show win1_3.index t 0 * 1 + 1 * 0 = 0; rw [e.1]
  | ⟨1, _⟩ => show win1_3.index t 1 * 128 + 1 * k.val = k.val; rw [e.2]; omega

/-- Every point sees the whole be row. -/
theorem blk_be (c : Dev nD) (t : Fin cfg1.N) (k : Fin 128) :
    (iblk1 V c 4 t : Vec Ideal S1x128 .f32) (ix2 0 k) = V c main_v31 (ix2 0 k) := by
  have e := (idx_rows t).2.2
  unfold iblk1
  rw [View.read_apply]
  show V c main_v31 _ = V c main_v31 _
  congr 1
  funext a
  apply Fin.ext
  match a with
  | ⟨0, _⟩ => show win1_4.index t 0 * 1 + 1 * 0 = 0; rw [e.1]
  | ⟨1, _⟩ => show win1_4.index t 1 * 128 + 1 * k.val = k.val; rw [e.2]; omega

/-- Every point sees the whole weight. -/
theorem blk_w (c : Dev nD) (t : Fin cfg1.N) (k : Fin 128) (q : Fin 128) :
    (iblk1 V c 5 t : Vec Ideal S128x128 .f32) (ix2 k q) = V c main_arg5 (ix2 k q) := by
  obtain ⟨-, -, -, -, e4, e5, -⟩ := idx_facts t
  unfold iblk1
  rw [View.read_apply]
  show V c main_arg5 _ = V c main_arg5 _
  congr 1
  funext a
  apply Fin.ext
  match a with
  | ⟨0, _⟩ => show win1_5.index t 0 * 128 + 1 * k.val = k.val; rw [e4]; omega
  | ⟨1, _⟩ => show win1_5.index t 1 * 128 + 1 * q.val = q.val; rw [e5]; omega

/-- The layer's table over all nodes. -/
def G (c : Dev nD) : S100000x128.Idx → Elt Ideal .bf16 := fun i =>
  val (V c main_v28) (V c main_v16) (V c main_v29) (V c main_v30) (V c main_v31) (V c main_arg5) (i 0) (i 1)

/-- What point t writes back is block t of that table. -/
theorem flushed_eq (c : Dev nD) (t : Fin cfg1.N) :
    (dat1 V c).flushed 6 t = ((cfg1.win 6).blk t).view.read (Elt Ideal) (G V c) := by
  show (cfg1.win 6).cut (grid1.coords t) ((dat1 V c).after 6 t) = _
  rw [after1_6]
  unfold out1_6
  rw [View.canon_unit_zero hz]
  simp only [View.ld_unit_zero (S := S4000x128) hz, View.ld_unit_zero (S := S128x128) hz, View.ld_unit_zero (S := S4000x1) hz,
    View.ld_unit_zero (S := S1x128) hz]
  funext y
  obtain ⟨p, q, rfl⟩ : ∃ (p : Fin 4000) (q : Fin 128), y = ix2 p q := ⟨y 0, y 1, eq_ix2 (n0 := 4000) (n1 := 128) y⟩
  obtain ⟨-, -, -, -, -, -, e6, e7⟩ := idx_facts t
  have hN : cfg1.N = 25 := N_1
  have hu : 4000 * t.val + p.val < 100000 := by have := t.isLt; omega
  have hemb : ((cfg1.win 6).blk t).view.emb (ix2 p q) = ix2 (⟨4000 * t.val + p.val, hu⟩ : Fin 100000) q := by
    funext a; apply Fin.ext
    match a with
    | ⟨0, _⟩ => show win1_6.index t 0 * 4000 + 1 * p.val = 4000 * t.val + p.val; rw [e6]; omega
    | ⟨1, _⟩ => show win1_6.index t 1 * 128 + 1 * q.val = q.val; rw [e7]; omega
  show k1_pay1 (F := Ideal) (iblk1 V c 0 t) (iblk1 V c 1 t) (iblk1 V c 2 t) (iblk1 V c 3 t) (iblk1 V c 4 t) (iblk1 V c 1 t) (iblk1 V c 5 t) (ix2 p q)
    = G V c (((cfg1.win 6).blk t).view.emb (ix2 p q))
  rw [hemb]
  refine (pay_ix (iblk1 V c 0 t) (iblk1 V c 1 t) (iblk1 V c 2 t) (iblk1 V c 3 t) (iblk1 V c 4 t) (iblk1 V c 1 t) (iblk1 V c 5 t) p q).trans ?_
  show _ = val (V c main_v28) (V c main_v16) (V c main_v29) (V c main_v30) (V c main_v31) (V c main_arg5) (⟨4000 * t.val + p.val, hu⟩ : Fin 100000) q
  unfold val
  refine Finset.sum_congr rfl fun k _ => ?_
  rw [blk_d V c t p ⟨4000 * t.val + p.val, hu⟩ rfl, blk_a V c t p k ⟨4000 * t.val + p.val, hu⟩ rfl, blk_b V c t k, blk_g V c t k,
    blk_be V c t k, blk_w V c t k q]

/-- An index of the table is in point t's block iff each coordinate is in the block's range on its axis. -/
theorem mem_blk (t : Fin cfg1.N) (i : S100000x128.Idx) :
    i ∈ ((cfg1.win 6).blk t).view.set ↔ ∀ a : Fin 2, win1_6.index t a * S4000x128.size a ≤ (i a).val ∧ (i a).val < win1_6.index t a * S4000x128.size a + S4000x128.size a := by
  show i ∈ ((View.whole main_v32).slice (win1_6.rect t)).set ↔ _
  rw [View.set_slice_whole, Rect.mem_set_unit]
  exact Iff.rfl

/-- Row r lies in the block of point r / 4000: the 25 blocks tile the table. -/
theorem cover (i : S100000x128.Idx) : ∃ t : Fin cfg1.N, (cfg1.win 6).flush t = true ∧ i ∈ ((cfg1.win 6).blk t).view.set := by
  have hi0 : (i 0).val < 100000 := (i 0).isLt
  have hi1 : (i 1).val < 128 := (i 1).isLt
  have hN : cfg1.N = 25 := N_1
  have ht : (i 0).val / 4000 < cfg1.N := by rw [hN]; omega
  obtain ⟨-, -, -, -, -, -, e6, e7⟩ := idx_facts ⟨(i 0).val / 4000, ht⟩
  refine ⟨⟨(i 0).val / 4000, ht⟩, flush1_6 _, ?_⟩
  rw [mem_blk]
  intro a
  match a with
  | ⟨0, _⟩ =>
    show win1_6.index ⟨(i 0).val / 4000, ht⟩ 0 * 4000 ≤ (i 0).val ∧ (i 0).val < win1_6.index ⟨(i 0).val / 4000, ht⟩ 0 * 4000 + 4000
    rw [e6]
    show (i 0).val / 4000 * 4000 ≤ (i 0).val ∧ (i 0).val < (i 0).val / 4000 * 4000 + 4000
    omega
  | ⟨1, _⟩ =>
    show win1_6.index ⟨(i 0).val / 4000, ht⟩ 1 * 128 ≤ (i 1).val ∧ (i 1).val < win1_6.index ⟨(i 0).val / 4000, ht⟩ 1 * 128 + 128
    rw [e7]
    omega

/-- The table the region leaves. -/
theorem final_arr (c : Dev nD) : (dat1 V c).arrAt 6 cfg1.N = G V c :=
  (dat1 V c).arrAt_eq_of_cover 6 (G V c) (fun t _ => flushed_eq V c t) cover

/-- Entry (u, j) of it. -/
theorem final (c : Dev nD) (u : Fin 100000) (j : Fin 128) :
    (dat1 (F := Ideal) V c).arrAt 6 cfg1.N (ix2 u j)
      = val (V c main_v28) (V c main_v16) (V c main_v29) (V c main_v30) (V c main_v31) (V c main_arg5) u j := by
  rw [final_arr]
  rfl

end Cert.KernelIdeal.Reg1

end
-- ==== Proof.Region2.lean ====
/-
  A middle layer of the network, as the table it leaves. Each summed row is scaled by its node's factor, gets the bias,
  the normalisation (gain, fixed scale, shift) and the rectifier, is scaled by the node's factor again, and is then
  multiplied into the next weight. Every row block of 4000 nodes is computed from its own rows alone, and the 25
  blocks tile the 100000 rows.
-/
import proofs.«132462_j15779709846111_2_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Reg2

open Cert.KernelIdeal Cert.KernelIdeal.Gen Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Entry (u, j) of the layer's table: over the 128 columns k, the activated and rescaled entry (u, k) times W (k, j). -/
def val (A : S100000x128.Idx → EReal) (d : S100000x1.Idx → EReal) (b g be : S1x128.Idx → EReal) (W : S128x128.Idx → EReal)
    (u : Fin 100000) (j : Fin 128) : EReal :=
  ∑ k : Fin 128, (max ((g (ix2 0 k) * (A (ix2 u k) * d (ix2 u 0) + b (ix2 0 k))) * Ideal.ofBits .f32 0x3F7FFFAC#32 + be (ix2 0 k)) (Ideal.ofBits .f32 0x00000000#32)
      * d (ix2 u 0)) * W (ix2 k j)

/-- The dimension numbers of the block product: rows times columns over one contracted axis of 128. -/
abbrev D : DotDims S4000x128 S128x128 S4000x128 := dot_S4000x128_S128x128_S4000x128_1_0_0_1_n_n

/-- The left factor's row is the result's row. -/
theorem lhs0 (i : S4000x128.Idx) (r : D.contr.Idx) : (D.lhsIdx i r 0).val = (i 0).val := by
  unfold DotDims.lhsIdx
  rw [dif_neg (show ¬(0 : Fin S4000x128.rank) ∈ D.lhsBatch by decide), dif_pos (show (0 : Fin S4000x128.rank) ∈ D.lhsNonContracting by decide)]
  rfl
/-- The left factor's column is the contracted position. -/
theorem lhs1 (i : S4000x128.Idx) (r : D.contr.Idx) : (D.lhsIdx i r 1).val = (r ⟨0, by decide⟩).val :=
  D.lhsIdx_val_of_single rfl i r
/-- The right factor's row is the contracted position. -/
theorem rhs0 (i : S4000x128.Idx) (r : D.contr.Idx) : (D.rhsIdx i r 0).val = (r ⟨0, by decide⟩).val :=
  D.rhsIdx_val_of_single rfl i r
/-- The right factor's column is the result's column. -/
theorem rhs1 (i : S4000x128.Idx) (r : D.contr.Idx) : (D.rhsIdx i r 1).val = (i 1).val := by
  unfold DotDims.rhsIdx
  rw [dif_neg (show ¬(1 : Fin S128x128.rank) ∈ D.rhsBatch by decide), dif_pos (show (1 : Fin S128x128.rank) ∈ D.rhsNonContracting by decide)]
  rfl

/-- The block product into a zero accumulator, at entry (p, q): the sum over the 128 contracted positions. -/
theorem matmul_ix (a : FVec Ideal S4000x128 .bf16) (w : FVec Ideal S128x128 .bf16) (p : Fin 4000) (q : Fin 128) :
    matmul D none a w (constant S4000x128 .f32 0x00000000#32) (ix2 p q) = ∑ k : Fin 128, a (ix2 p k) * w (ix2 k q) := by
  simp only [matmul]
  rw [Ideal.matmul_constant_zero_apply, ← Equiv.sum_comp (contrEquiv1 D 128 rfl rfl).symm]
  refine Finset.sum_congr rfl fun k _ => ?_
  have hk := contrEquiv1_symm_val D 128 rfl rfl k
  have el : D.lhsIdx (ix2 p q) ((contrEquiv1 D 128 rfl rfl).symm k) = ix2 p k := funext fun a => Fin.ext (by
    match a with
    | ⟨0, _⟩ => exact lhs0 _ _
    | ⟨1, _⟩ => exact (lhs1 _ _).trans hk)
  have er : D.rhsIdx (ix2 p q) ((contrEquiv1 D 128 rfl rfl).symm k) = ix2 k q := funext fun a => Fin.ext (by
    match a with
    | ⟨0, _⟩ => exact (rhs0 _ _).trans hk
    | ⟨1, _⟩ => exact rhs1 _ _)
  rw [el, er]

/-- A column of factors laid along every column of the block reads the row's factor. -/
theorem bc_col (d : FVec Ideal S4000x1 .f32) (p : Fin 4000) (k : Fin 128) :
    broadcastTo S4000x128 d broadcasts_S4000x1_S4000x128 (ix2 p k) = d (ix2 p 0) := by
  exact broadcastTo_apply d broadcasts_S4000x1_S4000x128 (ix2 p k) (ix2 p 0) (by
    intro a
    match a with
    | ⟨0, _⟩ => rfl
    | ⟨1, _⟩ => rfl)

/-- A row laid along every row of the block reads the column's entry. -/
theorem bc_row (r : FVec Ideal S1x128 .f32) (p : Fin 4000) (k : Fin 128) :
    broadcastTo S4000x128 r broadcasts_S1x128_S4000x128 (ix2 p k) = r (ix2 0 k) := by
  exact broadcastTo_apply r broadcasts_S1x128_S4000x128 (ix2 p k) (ix2 0 k) (by
    intro a
    match a with
    | ⟨0, _⟩ => rfl
    | ⟨1, _⟩ => rfl)

/-- The left factor of the block product: the block's rows scaled, biased, normalised, rectified and scaled again. -/
def pre (A : FVec Ideal S4000x128 .f32) (d : FVec Ideal S4000x1 .f32) (b g be : FVec Ideal S1x128 .f32) (d' : FVec Ideal S4000x1 .f32) :
    FVec Ideal S4000x128 .f32 :=
  mulf
    (maximumf
      (addf
        (mulf
          (mulf (broadcastTo S4000x128 (shapeCast S1x128 g shapeCasts_S1x128_S1x128) broadcasts_S1x128_S4000x128)
            (addf
              (mulf (shapeCast S4000x128 A shapeCasts_S4000x128_S4000x128)
                (broadcastTo S4000x128 (shapeCast S4000x1 d shapeCasts_S4000x1_S4000x1) broadcasts_S4000x1_S4000x128))
              (broadcastTo S4000x128 (shapeCast S1x128 b shapeCasts_S1x128_S1x128) broadcasts_S1x128_S4000x128)))
          (broadcast S4000x128 (Scalar.ofBits (F := Ideal) .f32 0x3F7FFFAC#32)))
        (broadcastTo S4000x128 (shapeCast S1x128 be shapeCasts_S1x128_S1x128) broadcasts_S1x128_S4000x128))
      (broadcast S4000x128 (Scalar.ofBits (F := Ideal) .f32 0x00000000#32)))
    (broadcastTo S4000x128 (shapeCast S4000x1 d' shapeCasts_S4000x1_S4000x1) broadcasts_S4000x1_S4000x128)

/-- That factor at entry (p, k). -/
theorem pre_ix (A : FVec Ideal S4000x128 .f32) (d : FVec Ideal S4000x1 .f32) (b g be : FVec Ideal S1x128 .f32) (d' : FVec Ideal S4000x1 .f32)
    (p : Fin 4000) (k : Fin 128) :
    pre A d b g be d' (ix2 p k)
      = max ((g (ix2 0 k) * (A (ix2 p k) * d (ix2 p 0) + b (ix2 0 k))) * Ideal.ofBits .f32 0x3F7FFFAC#32 + be (ix2 0 k)) (Ideal.ofBits .f32 0x00000000#32)
        * d' (ix2 p 0) := by
  unfold pre
  simp only [mulf_apply, addf_apply, maximumf_apply, broadcast_apply, bc_col, bc_row, shapeCast_self]
  rfl

/-- The body's value at entry (p, q) of a block. -/
theorem pay_ix (A : FVec Ideal S4000x128 .f32) (d : FVec Ideal S4000x1 .f32) (b g be : FVec Ideal S1x128 .f32) (d' : FVec Ideal S4000x1 .f32)
    (W : FVec Ideal S128x128 .f32) (p : Fin 4000) (q : Fin 128) :
    k2_pay1 (F := Ideal) A d b g be d' W (ix2 p q)
      = ∑ k : Fin 128, (max ((g (ix2 0 k) * (A (ix2 p k) * d (ix2 p 0) + b (ix2 0 k))) * Ideal.ofBits .f32 0x3F7FFFAC#32 + be (ix2 0 k)) (Ideal.ofBits .f32 0x00000000#32)
          * d' (ix2 p 0)) * W (ix2 k q) := by
  have e1 : k2_pay1 (F := Ideal) A d b g be d' W (ix2 p q)
      = matmul (F := Ideal) D none (truncf (F := Ideal) .bf16 (pre A d b g be d') bitsLt_bf16_f32) (truncf (F := Ideal) .bf16 W bitsLt_bf16_f32)
          (constant (F := Ideal) S4000x128 .f32 0x00000000#32) (ix2 p q) := rfl
  rw [e1, matmul_ix]
  refine Finset.sum_congr rfl fun k _ => ?_
  show pre A d b g be d' (ix2 p k) * W (ix2 k q) = _
  rw [pre_ix]

/-- The printed index maps, decided over the 25 points: the row-block windows sit at block (t, 0), the weight at (0, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- The three one-row windows sit at block (0, 0) at every point. -/
theorem idx_rows : ∀ t : Fin cfg2.N,
    (win2_2.index t (0 : Fin 2) = 0 ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0) :=
  (by decide +kernel : ∀ t : Fin grid2.N, _)

/-- Block t of the summed table is its rows 4000 t … 4000 t + 3999. -/
theorem blk_a (c : Dev nD) (t : Fin cfg2.N) (p : Fin 4000) (k : Fin 128) (u : Fin 100000) (hu : u.val = 4000 * t.val + p.val) :
    (iblk2 V c 0 t : Vec Ideal S4000x128 .f32) (ix2 p k) = V c main_v43 (ix2 u k) := by
  obtain ⟨e0, e1, -⟩ := idx_facts t
  unfold iblk2
  rw [View.read_apply]
  show V c main_v43 _ = V c main_v43 _
  congr 1
  funext a
  apply Fin.ext
  match a with
  | ⟨0, _⟩ => show win2_0.index t 0 * 4000 + 1 * p.val = u.val; rw [e0, hu]; omega
  | ⟨1, _⟩ => show win2_0.index t 1 * 128 + 1 * k.val = k.val; rw [e1]; omega

/-- Block t of the factor column is its rows 4000 t … 4000 t + 3999. -/
theorem blk_d (c : Dev nD) (t : Fin cfg2.N) (p : Fin 4000) (u : Fin 100000) (hu : u.val = 4000 * t.val + p.val) :
    (iblk2 V c 1 t : Vec Ideal S4000x1 .f32) (ix2 p 0) = V c main_v16 (ix2 u 0) := by
  obtain ⟨-, -, e2, e3, -⟩ := idx_facts t
  unfold iblk2
  rw [View.read_apply]
  show V c main_v16 _ = V c main_v16 _
  congr 1
  funext a
  apply Fin.ext
  match a with
  | ⟨0, _⟩ => show win2_1.index t 0 * 4000 + 1 * p.val = u.val; rw [e2, hu]; omega
  | ⟨1, _⟩ => show win2_1.index t 1 * 1 + 1 * 0 = 0; rw [e3]

/-- Every point sees the whole b row. -/
theorem blk_b (c : Dev nD) (t : Fin cfg2.N) (k : Fin 128) :
    (iblk2 V c 2 t : Vec Ideal S1x128 .f32) (ix2 0 k) = V c main_v44 (ix2 0 k) := by
  have e := (idx_rows t).1
  unfold iblk2
  rw [View.read_apply]
  show V c main_v44 _ = V c main_v44 _
  congr 1
  funext a
  apply Fin.ext
  match a with
  | ⟨0, _⟩ => show win2_2.index t 0 * 1 + 1 * 0 = 0; rw [e.1]
  | ⟨1, _⟩ => show win2_2.index t 1 * 128 + 1 * k.val = k.val; rw [e.2]; omega

/-- Every point sees the whole g row. -/
theorem blk_g (c : Dev nD) (t : Fin cfg2.N) (k : Fin 128) :
    (iblk2 V c 3 t : Vec Ideal S1x128 .f32) (ix2 0 k) = V c main_v45 (ix2 0 k) := by
  have e := (idx_rows t).2.1
  unfold iblk2
  rw [View.read_apply]
  show V c main_v45 _ = V c main_v45 _
  congr 1
  funext a
  apply Fin.ext
  match a with
  | ⟨0, _⟩ => show win2_3.index t 0 * 1 + 1 * 0 = 0; rw [e.1]
  | ⟨1, _⟩ => show win2_3.index t 1 * 128 + 1 * k.val = k.val; rw [e.2]; omega

/-- Every point sees the whole be row. -/
theorem blk_be (c : Dev nD) (t : Fin cfg2.N) (k : Fin 128) :
    (iblk2 V c 4 t : Vec Ideal S1x128 .f32) (ix2 0 k) = V c main_v46 (ix2 0 k) := by
  have e := (idx_rows t).2.2
  unfold iblk2
  rw [View.read_apply]
  show V c main_v46 _ = V c main_v46 _
  congr 1
  funext a
  apply Fin.ext
  match a with
  | ⟨0, _⟩ => show win2_4.index t 0 * 1 + 1 * 0 = 0; rw [e.1]
  | ⟨1, _⟩ => show win2_4.index t 1 * 128 + 1 * k.val = k.val; rw [e.2]; omega

/-- Every point sees the whole weight. -/
theorem blk_w (c : Dev nD) (t : Fin cfg2.N) (k : Fin 128) (q : Fin 128) :
    (iblk2 V c 5 t : Vec Ideal S128x128 .f32) (ix2 k q) = V c main_arg7 (ix2 k q) := by
  obtain ⟨-, -, -, -, e4, e5, -⟩ := idx_facts t
  unfold iblk2
  rw [View.read_apply]
  show V c main_arg7 _ = V c main_arg7 _
  congr 1
  funext a
  apply Fin.ext
  match a with
  | ⟨0, _⟩ => show win2_5.index t 0 * 128 + 1 * k.val = k.val; rw [e4]; omega
  | ⟨1, _⟩ => show win2_5.index t 1 * 128 + 1 * q.val = q.val; rw [e5]; omega

/-- The layer's table over all nodes. -/
def G (c : Dev nD) : S100000x128.Idx → Elt Ideal .bf16 := fun i =>
  val (V c main_v43) (V c main_v16) (V c main_v44) (V c main_v45) (V c main_v46) (V c main_arg7) (i 0) (i 1)

/-- What point t writes back is block t of that table. -/
theorem flushed_eq (c : Dev nD) (t : Fin cfg2.N) :
    (dat2 V c).flushed 6 t = ((cfg2.win 6).blk t).view.read (Elt Ideal) (G V c) := by
  show (cfg2.win 6).cut (grid2.coords t) ((dat2 V c).after 6 t) = _
  rw [after2_6]
  unfold out2_6
  rw [View.canon_unit_zero hz]
  simp only [View.ld_unit_zero (S := S4000x128) hz, View.ld_unit_zero (S := S128x128) hz, View.ld_unit_zero (S := S4000x1) hz,
    View.ld_unit_zero (S := S1x128) hz]
  funext y
  obtain ⟨p, q, rfl⟩ : ∃ (p : Fin 4000) (q : Fin 128), y = ix2 p q := ⟨y 0, y 1, eq_ix2 (n0 := 4000) (n1 := 128) y⟩
  obtain ⟨-, -, -, -, -, -, e6, e7⟩ := idx_facts t
  have hN : cfg2.N = 25 := N_2
  have hu : 4000 * t.val + p.val < 100000 := by have := t.isLt; omega
  have hemb : ((cfg2.win 6).blk t).view.emb (ix2 p q) = ix2 (⟨4000 * t.val + p.val, hu⟩ : Fin 100000) q := by
    funext a; apply Fin.ext
    match a with
    | ⟨0, _⟩ => show win2_6.index t 0 * 4000 + 1 * p.val = 4000 * t.val + p.val; rw [e6]; omega
    | ⟨1, _⟩ => show win2_6.index t 1 * 128 + 1 * q.val = q.val; rw [e7]; omega
  show k2_pay1 (F := Ideal) (iblk2 V c 0 t) (iblk2 V c 1 t) (iblk2 V c 2 t) (iblk2 V c 3 t) (iblk2 V c 4 t) (iblk2 V c 1 t) (iblk2 V c 5 t) (ix2 p q)
    = G V c (((cfg2.win 6).blk t).view.emb (ix2 p q))
  rw [hemb]
  refine (pay_ix (iblk2 V c 0 t) (iblk2 V c 1 t) (iblk2 V c 2 t) (iblk2 V c 3 t) (iblk2 V c 4 t) (iblk2 V c 1 t) (iblk2 V c 5 t) p q).trans ?_
  show _ = val (V c main_v43) (V c main_v16) (V c main_v44) (V c main_v45) (V c main_v46) (V c main_arg7) (⟨4000 * t.val + p.val, hu⟩ : Fin 100000) q
  unfold val
  refine Finset.sum_congr rfl fun k _ => ?_
  rw [blk_d V c t p ⟨4000 * t.val + p.val, hu⟩ rfl, blk_a V c t p k ⟨4000 * t.val + p.val, hu⟩ rfl, blk_b V c t k, blk_g V c t k,
    blk_be V c t k, blk_w V c t k q]

/-- An index of the table is in point t's block iff each coordinate is in the block's range on its axis. -/
theorem mem_blk (t : Fin cfg2.N) (i : S100000x128.Idx) :
    i ∈ ((cfg2.win 6).blk t).view.set ↔ ∀ a : Fin 2, win2_6.index t a * S4000x128.size a ≤ (i a).val ∧ (i a).val < win2_6.index t a * S4000x128.size a + S4000x128.size a := by
  show i ∈ ((View.whole main_v47).slice (win2_6.rect t)).set ↔ _
  rw [View.set_slice_whole, Rect.mem_set_unit]
  exact Iff.rfl

/-- Row r lies in the block of point r / 4000: the 25 blocks tile the table. -/
theorem cover (i : S100000x128.Idx) : ∃ t : Fin cfg2.N, (cfg2.win 6).flush t = true ∧ i ∈ ((cfg2.win 6).blk t).view.set := by
  have hi0 : (i 0).val < 100000 := (i 0).isLt
  have hi1 : (i 1).val < 128 := (i 1).isLt
  have hN : cfg2.N = 25 := N_2
  have ht : (i 0).val / 4000 < cfg2.N := by rw [hN]; omega
  obtain ⟨-, -, -, -, -, -, e6, e7⟩ := idx_facts ⟨(i 0).val / 4000, ht⟩
  refine ⟨⟨(i 0).val / 4000, ht⟩, flush2_6 _, ?_⟩
  rw [mem_blk]
  intro a
  match a with
  | ⟨0, _⟩ =>
    show win2_6.index ⟨(i 0).val / 4000, ht⟩ 0 * 4000 ≤ (i 0).val ∧ (i 0).val < win2_6.index ⟨(i 0).val / 4000, ht⟩ 0 * 4000 + 4000
    rw [e6]
    show (i 0).val / 4000 * 4000 ≤ (i 0).val ∧ (i 0).val < (i 0).val / 4000 * 4000 + 4000
    omega
  | ⟨1, _⟩ =>
    show win2_6.index ⟨(i 0).val / 4000, ht⟩ 1 * 128 ≤ (i 1).val ∧ (i 1).val < win2_6.index ⟨(i 0).val / 4000, ht⟩ 1 * 128 + 128
    rw [e7]
    omega

/-- The table the region leaves. -/
theorem final_arr (c : Dev nD) : (dat2 V c).arrAt 6 cfg2.N = G V c :=
  (dat2 V c).arrAt_eq_of_cover 6 (G V c) (fun t _ => flushed_eq V c t) cover

/-- Entry (u, j) of it. -/
theorem final (c : Dev nD) (u : Fin 100000) (j : Fin 128) :
    (dat2 (F := Ideal) V c).arrAt 6 cfg2.N (ix2 u j)
      = val (V c main_v43) (V c main_v16) (V c main_v44) (V c main_v45) (V c main_v46) (V c main_arg7) u j := by
  rw [final_arr]
  rfl

end Cert.KernelIdeal.Reg2

end
-- ==== Proof.Region3.lean ====
/-
  The fourth kernel's output, entry by entry: the summed rows scaled by the node's factor, plus the bias, times the gain
  and the scale, plus the shift, floored. Every row block of 4000 nodes holds its rows of that table, and the 25 blocks
  tile the 100000 rows.
-/
import proofs.«132462_j15779709846111_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal

noncomputable section

open scoped BigOperators

namespace Cert.KernelIdeal.Reg3

open Cert.KernelIdeal Cert.KernelIdeal.Gen Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-! # Region 3: the rectified affine map of the scaled rows, read off the blocks

Each of the 25 grid points handles 4000 consecutive rows of the 100000 x 128 table: it multiplies every row of its block
by that row's factor, adds the bias row, multiplies by the gain row, scales by the normalisation constant, adds the
offset row and takes the maximum with the floor. Every flushed block is therefore the restriction of ONE function of the
whole arrays, and the 25 blocks cover the table. -/

theorem hz : (![0, 0] : Fin 2 → Nat) = fun _ => 0 := funext fun a => by fin_cases a <;> rfl

/-- An [a, 1] column broadcast to [a, b] reads, at (p, q), the column's entry in row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The value at row u, column k, of the table the region computes from a table A, a factor column d, and the bias,
    gain and offset rows b, g, be. -/
def val (A : S100000x128.Idx → EReal) (d : S100000x1.Idx → EReal) (b g be : S1x128.Idx → EReal)
    (u : Fin 100000) (k : Fin 128) : EReal :=
  max ((g (ix2 0 k) * (A (ix2 u k) * d (ix2 u 0) + b (ix2 0 k))) * Ideal.ofBits .f32 0x3F7FFFAC#32 + be (ix2 0 k))
    (Ideal.ofBits .f32 0x00000000#32)

/-- The body's stored value at row p, column q of a block, from the five loaded blocks. -/
theorem pay_apply (x0 : FVec Ideal S4000x128 .f32) (x1 : FVec Ideal S4000x1 .f32) (x2 x3 x4 : FVec Ideal S1x128 .f32)
    (p : Fin 4000) (q : Fin 128) :
    k3_pay1 x0 x1 x2 x3 x4 (ix2 p q) =
      max ((x3 (ix2 0 q) * (x0 (ix2 p q) * x1 (ix2 p 0) + x2 (ix2 0 q))) * Ideal.ofBits .f32 0x3F7FFFAC#32 + x4 (ix2 0 q))
        (Ideal.ofBits .f32 0x00000000#32) := by
  unfold k3_pay1
  simp only [maximumf_apply, addf_apply, mulf_apply, broadcast_apply, shapeCast_self]
  rw [broadcastTo_a1_ab_apply, broadcastTo_1b_ab_apply, broadcastTo_1b_ab_apply, broadcastTo_1b_ab_apply]
  rfl

/-- The whole output table as one function of the arrays. -/
def G (A : S100000x128.Idx → EReal) (d : S100000x1.Idx → EReal) (b g be : S1x128.Idx → EReal) : S100000x128.Idx → EReal :=
  fun i => val A d b g be (i 0) (i 1)

/-- The printed index maps, decided over the 25 points: the row windows sit at block row t, column block 0; the
    one-row windows at block (0, 0). -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

theorem lt25 (t : Fin cfg3.N) : t.val < 25 := by
  have h := t.isLt
  have h2 : cfg3.N = 25 := N_3
  omega

/-- The table window's block at point t holds rows 4000 t, … of the table. -/
theorem blk0_apply (c : Dev nD) (t : Fin cfg3.N) (p : Fin 4000) (q : Fin 128) (u : Fin 100000) (hu : u.val = 4000 * t.val + p.val) :
    (iblk3 V c 0 t : Vec Ideal S4000x128 .f32) (ix2 p q) = (V c main_v58 : S100000x128.Idx → EReal) (ix2 u q) := by
  obtain ⟨e0, e1, -⟩ := idx_facts t
  unfold iblk3
  rw [View.read_apply]
  show (V c main_v58 : S100000x128.Idx → EReal) _ = _
  congr 1
  funext a
  apply Fin.ext
  match a with
  | ⟨0, _⟩ => show win3_0.index t (0 : Fin 2) * 4000 + 1 * p.val = u.val; rw [e0, hu]; omega
  | ⟨1, _⟩ => show win3_0.index t (1 : Fin 2) * 128 + 1 * q.val = q.val; rw [e1]; omega

/-- The factor column's block at point t holds entries 4000 t, … of the column. -/
theorem blk1_apply (c : Dev nD) (t : Fin cfg3.N) (p : Fin 4000) (u : Fin 100000) (hu : u.val = 4000 * t.val + p.val) :
    (iblk3 V c 1 t : Vec Ideal S4000x1 .f32) (ix2 p 0) = (V c main_v16 : S100000x1.Idx → EReal) (ix2 u 0) := by
  obtain ⟨-, -, e0, e1, -⟩ := idx_facts t
  unfold iblk3
  rw [View.read_apply]
  show (V c main_v16 : S100000x1.Idx → EReal) _ = _
  congr 1
  funext a
  apply Fin.ext
  match a with
  | ⟨0, _⟩ => show win3_1.index t (0 : Fin 2) * 4000 + 1 * p.val = u.val; rw [e0, hu]; omega
  | ⟨1, _⟩ => show win3_1.index t (1 : Fin 2) * 1 + 1 * 0 = 0; rw [e1]

/-- Each one-row window's block is its whole row at every point. -/
theorem blk2_apply (c : Dev nD) (t : Fin cfg3.N) (q : Fin 128) :
    (iblk3 V c 2 t : Vec Ideal S1x128 .f32) (ix2 0 q) = (V c main_v59 : S1x128.Idx → EReal) (ix2 0 q) := by
  obtain ⟨-, -, -, -, e0, e1, -⟩ := idx_facts t
  unfold iblk3
  rw [View.read_apply]
  show (V c main_v59 : S1x128.Idx → EReal) _ = _
  congr 1
  funext a
  apply Fin.ext
  match a with
  | ⟨0, _⟩ => show win3_2.index t (0 : Fin 2) * 1 + 1 * 0 = 0; rw [e0]
  | ⟨1, _⟩ => show win3_2.index t (1 : Fin 2) * 128 + 1 * q.val = q.val; rw [e1]; omega
theorem blk3_apply (c : Dev nD) (t : Fin cfg3.N) (q : Fin 128) :
    (iblk3 V c 3 t : Vec Ideal S1x128 .f32) (ix2 0 q) = (V c main_v60 : S1x128.Idx → EReal) (ix2 0 q) := by
  obtain ⟨-, -, -, -, -, -, e0, e1, -⟩ := idx_facts t
  unfold iblk3
  rw [View.read_apply]
  show (V c main_v60 : S1x128.Idx → EReal) _ = _
  congr 1
  funext a
  apply Fin.ext
  match a with
  | ⟨0, _⟩ => show win3_3.index t (0 : Fin 2) * 1 + 1 * 0 = 0; rw [e0]
  | ⟨1, _⟩ => show win3_3.index t (1 : Fin 2) * 128 + 1 * q.val = q.val; rw [e1]; omega
theorem blk4_apply (c : Dev nD) (t : Fin cfg3.N) (q : Fin 128) :
    (iblk3 V c 4 t : Vec Ideal S1x128 .f32) (ix2 0 q) = (V c main_v61 : S1x128.Idx → EReal) (ix2 0 q) := by
  obtain ⟨-, -, -, -, -, -, -, -, e0, e1, -⟩ := idx_facts t
  unfold iblk3
  rw [View.read_apply]
  show (V c main_v61 : S1x128.Idx → EReal) _ = _
  congr 1
  funext a
  apply Fin.ext
  match a with
  | ⟨0, _⟩ => show win3_4.index t (0 : Fin 2) * 1 + 1 * 0 = 0; rw [e0]
  | ⟨1, _⟩ => show win3_4.index t (1 : Fin 2) * 128 + 1 * q.val = q.val; rw [e1]; omega

/-- What point t writes back is block t of the one whole-table function. -/
theorem flushed_eq (c : Dev nD) (t : Fin cfg3.N) :
    (dat3 V c).flushed 5 t = ((cfg3.win 5).blk t).view.read (Elt Ideal)
      (G (V c main_v58) (V c main_v16) (V c main_v59) (V c main_v60) (V c main_v61)) := by
  show (cfg3.win 5).cut (grid3.coords t) ((dat3 V c).after 5 t) = _
  rw [after3_5]
  unfold out3_5
  rw [View.canon_unit_zero hz]
  simp only [View.ld_unit_zero (S := S4000x128) hz, View.ld_unit_zero (S := S4000x1) hz, View.ld_unit_zero (S := S1x128) hz]
  funext j
  obtain ⟨p, q, rfl⟩ : ∃ (p : Fin 4000) (q : Fin 128), j = ix2 p q := ⟨j 0, j 1, eq_ix2 j⟩
  have ht := lt25 t
  have hu : 4000 * t.val + p.val < 100000 := by have := p.isLt; omega
  obtain ⟨-, -, -, -, -, -, -, -, -, -, e0, e1⟩ := idx_facts t
  have he : (((cfg3.win 5).blk t).view.emb (ix2 p q) : S100000x128.Idx) = ix2 (⟨4000 * t.val + p.val, hu⟩ : Fin 100000) q := by
    funext a; apply Fin.ext
    match a with
    | ⟨0, _⟩ => show win3_5.index t (0 : Fin 2) * 4000 + 1 * p.val = 4000 * t.val + p.val; rw [e0]; omega
    | ⟨1, _⟩ => show win3_5.index t (1 : Fin 2) * 128 + 1 * q.val = q.val; rw [e1]; omega
  show k3_pay1 (iblk3 V c 0 t) (iblk3 V c 1 t) (iblk3 V c 2 t) (iblk3 V c 3 t) (iblk3 V c 4 t) (ix2 p q)
      = G (V c main_v58) (V c main_v16) (V c main_v59) (V c main_v60) (V c main_v61) (((cfg3.win 5).blk t).view.emb (ix2 p q))
  rw [he]
  refine (pay_apply _ _ _ _ _ p q).trans ?_
  rw [blk0_apply V c t p q ⟨_, hu⟩ rfl, blk1_apply V c t p ⟨_, hu⟩ rfl, blk2_apply V c t q, blk3_apply V c t q, blk4_apply V c t q]
  rfl

/-- An index of the table is in point t's block iff each coordinate is in the block's range on its axis. -/
theorem mem_blk (t : Fin cfg3.N) (i : S100000x128.Idx) :
    i ∈ ((cfg3.win 5).blk t).view.set ↔ ∀ a : Fin 2, win3_5.index t a * S4000x128.size a ≤ (i a).val
      ∧ (i a).val < win3_5.index t a * S4000x128.size a + S4000x128.size a := by
  show i ∈ ((View.whole main_v62).slice (win3_5.rect t)).set ↔ _
  rw [View.set_slice_whole, Rect.mem_set_unit]
  exact Iff.rfl

/-- Row r of the table is in the block of point r / 4000: the 25 blocks cover the table. -/
theorem cover (i : S100000x128.Idx) :
    ∃ t : Fin cfg3.N, (cfg3.win 5).flush t = true ∧ i ∈ ((cfg3.win 5).blk t).view.set := by
  have hi0 : (i 0).val < 100000 := (i 0).isLt
  have hi1 : (i 1).val < 128 := (i 1).isLt
  have hN : cfg3.N = 25 := N_3
  obtain ⟨t, ht⟩ : ∃ t : Fin cfg3.N, t.val = (i 0).val / 4000 := ⟨⟨(i 0).val / 4000, by rw [hN]; omega⟩, rfl⟩
  obtain ⟨-, -, -, -, -, -, -, -, -, -, e0, e1⟩ := idx_facts t
  refine ⟨t, flush3_5 t, ?_⟩
  rw [mem_blk]
  intro a
  match a with
  | ⟨0, _⟩ =>
    show win3_5.index t (0 : Fin 2) * 4000 ≤ (i 0).val ∧ (i 0).val < win3_5.index t (0 : Fin 2) * 4000 + 4000
    rw [e0, ht]; omega
  | ⟨1, _⟩ =>
    show win3_5.index t (1 : Fin 2) * 128 ≤ (i 1).val ∧ (i 1).val < win3_5.index t (1 : Fin 2) * 128 + 128
    rw [e1]; omega

/-- The output table after the region is the one function of the arrays. -/
theorem final_arr (c : Dev nD) :
    (dat3 (F := Ideal) V c).arrAt 5 cfg3.N = G (V c main_v58) (V c main_v16) (V c main_v59) (V c main_v60) (V c main_v61) :=
  (dat3 V c).arrAt_eq_of_cover 5 (G (V c main_v58) (V c main_v16) (V c main_v59) (V c main_v60) (V c main_v61))
    (fun t _ => flushed_eq V c t) cover

/-- The output table after the region, entry by entry. -/
theorem final (c : Dev nD) (u : Fin 100000) (k : Fin 128) :
    (dat3 (F := Ideal) V c).arrAt 5 cfg3.N (ix2 u k)
      = val (V c main_v58) (V c main_v16) (V c main_v59) (V c main_v60) (V c main_v61) u k :=
  (congrFun (final_arr V c) (ix2 u k)).trans rfl

end Cert.KernelIdeal.Reg3

end
-- ==== Proof.Region4.lean ====
/-
  The last kernel's output, entry by entry: the pooled table times the first weight plus its bias, floored, times the
  second weight plus its bias. The kernel has one grid point and every window is its whole array; each product into a
  zero accumulator is a plain sum over the contracted axis.
-/
import proofs.«132462_j15779709846111_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

noncomputable section

open scoped BigOperators

namespace Cert.KernelIdeal.Reg4

open Cert.KernelIdeal Cert.KernelIdeal.Gen Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-! # Region 4: two products with a rectifier between, read off the one block

The region has one grid point and every window is its whole array: the 1000 x 128 table times the 128 x 64 matrix plus
the first bias row, the maximum with the floor, times the 64 x 10 matrix plus the second bias row. Both products
accumulate into zero, so each is the plain sum over the contracted index. -/

theorem hz : (![0, 0] : Fin 2 → Nat) = fun _ => 0 := funext fun a => by fin_cases a <;> rfl

/-! ## The two products' operand indices -/

theorem d1_lhs0 (i : S1000x64.Idx) (q : dot_S1000x128_S128x64_S1000x64_1_0_0_1_n_n.contr.Idx) : (dot_S1000x128_S128x64_S1000x64_1_0_0_1_n_n.lhsIdx i q 0).val = (i 0).val := by
  unfold DotDims.lhsIdx
  rw [dif_neg (show ¬(0 : Fin S1000x128.rank) ∈ dot_S1000x128_S128x64_S1000x64_1_0_0_1_n_n.lhsBatch by decide), dif_pos (show (0 : Fin S1000x128.rank) ∈ dot_S1000x128_S128x64_S1000x64_1_0_0_1_n_n.lhsNonContracting by decide)]
  rfl
theorem d1_lhs1 (i : S1000x64.Idx) (q : dot_S1000x128_S128x64_S1000x64_1_0_0_1_n_n.contr.Idx) : (dot_S1000x128_S128x64_S1000x64_1_0_0_1_n_n.lhsIdx i q 1).val = (q ⟨0, by decide⟩).val :=
  dot_S1000x128_S128x64_S1000x64_1_0_0_1_n_n.lhsIdx_val_of_single rfl i q
theorem d1_rhs0 (i : S1000x64.Idx) (q : dot_S1000x128_S128x64_S1000x64_1_0_0_1_n_n.contr.Idx) : (dot_S1000x128_S128x64_S1000x64_1_0_0_1_n_n.rhsIdx i q 0).val = (q ⟨0, by decide⟩).val :=
  dot_S1000x128_S128x64_S1000x64_1_0_0_1_n_n.rhsIdx_val_of_single rfl i q
theorem d1_rhs1 (i : S1000x64.Idx) (q : dot_S1000x128_S128x64_S1000x64_1_0_0_1_n_n.contr.Idx) : (dot_S1000x128_S128x64_S1000x64_1_0_0_1_n_n.rhsIdx i q 1).val = (i 1).val := by
  unfold DotDims.rhsIdx
  rw [dif_neg (show ¬(1 : Fin S128x64.rank) ∈ dot_S1000x128_S128x64_S1000x64_1_0_0_1_n_n.rhsBatch by decide), dif_pos (show (1 : Fin S128x64.rank) ∈ dot_S1000x128_S128x64_S1000x64_1_0_0_1_n_n.rhsNonContracting by decide)]
  rfl

theorem d2_lhs0 (i : S1000x10.Idx) (q : dot_S1000x64_S64x10_S1000x10_1_0_0_1_n_n.contr.Idx) : (dot_S1000x64_S64x10_S1000x10_1_0_0_1_n_n.lhsIdx i q 0).val = (i 0).val := by
  unfold DotDims.lhsIdx
  rw [dif_neg (show ¬(0 : Fin S1000x64.rank) ∈ dot_S1000x64_S64x10_S1000x10_1_0_0_1_n_n.lhsBatch by decide), dif_pos (show (0 : Fin S1000x64.rank) ∈ dot_S1000x64_S64x10_S1000x10_1_0_0_1_n_n.lhsNonContracting by decide)]
  rfl
theorem d2_lhs1 (i : S1000x10.Idx) (q : dot_S1000x64_S64x10_S1000x10_1_0_0_1_n_n.contr.Idx) : (dot_S1000x64_S64x10_S1000x10_1_0_0_1_n_n.lhsIdx i q 1).val = (q ⟨0, by decide⟩).val :=
  dot_S1000x64_S64x10_S1000x10_1_0_0_1_n_n.lhsIdx_val_of_single rfl i q
theorem d2_rhs0 (i : S1000x10.Idx) (q : dot_S1000x64_S64x10_S1000x10_1_0_0_1_n_n.contr.Idx) : (dot_S1000x64_S64x10_S1000x10_1_0_0_1_n_n.rhsIdx i q 0).val = (q ⟨0, by decide⟩).val :=
  dot_S1000x64_S64x10_S1000x10_1_0_0_1_n_n.rhsIdx_val_of_single rfl i q
theorem d2_rhs1 (i : S1000x10.Idx) (q : dot_S1000x64_S64x10_S1000x10_1_0_0_1_n_n.contr.Idx) : (dot_S1000x64_S64x10_S1000x10_1_0_0_1_n_n.rhsIdx i q 1).val = (i 1).val := by
  unfold DotDims.rhsIdx
  rw [dif_neg (show ¬(1 : Fin S64x10.rank) ∈ dot_S1000x64_S64x10_S1000x10_1_0_0_1_n_n.rhsBatch by decide), dif_pos (show (1 : Fin S64x10.rank) ∈ dot_S1000x64_S64x10_S1000x10_1_0_0_1_n_n.rhsNonContracting by decide)]
  rfl

/-- The first product into zero, at row g and column k: the sum over the 128 contracted columns. -/
theorem mm1_apply (x : FVec Ideal S1000x128 .bf16) (w : FVec Ideal S128x64 .bf16) (g : Fin 1000) (k : Fin 64) :
    matmul dot_S1000x128_S128x64_S1000x64_1_0_0_1_n_n none x w (constant (F := Ideal) S1000x64 .f32 0x00000000#32) (ix2 g k) = ∑ l : Fin 128, x (ix2 g l) * w (ix2 l k) := by
  simp only [matmul]
  rw [Ideal.matmul_constant_zero_apply, ← Equiv.sum_comp (contrEquiv1 dot_S1000x128_S128x64_S1000x64_1_0_0_1_n_n 128 rfl rfl).symm]
  refine Finset.sum_congr rfl fun l _ => ?_
  have hk := contrEquiv1_symm_val dot_S1000x128_S128x64_S1000x64_1_0_0_1_n_n 128 rfl rfl l
  have el : dot_S1000x128_S128x64_S1000x64_1_0_0_1_n_n.lhsIdx (ix2 g k) ((contrEquiv1 dot_S1000x128_S128x64_S1000x64_1_0_0_1_n_n 128 rfl rfl).symm l) = ix2 g l := funext fun a => Fin.ext (by
    match a with
    | ⟨0, _⟩ => exact d1_lhs0 _ _
    | ⟨1, _⟩ => exact (d1_lhs1 _ _).trans hk)
  have er : dot_S1000x128_S128x64_S1000x64_1_0_0_1_n_n.rhsIdx (ix2 g k) ((contrEquiv1 dot_S1000x128_S128x64_S1000x64_1_0_0_1_n_n 128 rfl rfl).symm l) = ix2 l k := funext fun a => Fin.ext (by
    match a with
    | ⟨0, _⟩ => exact (d1_rhs0 _ _).trans hk
    | ⟨1, _⟩ => exact d1_rhs1 _ _)
  rw [el, er]

/-- The second product into zero, at row g and column o: the sum over the 64 contracted columns. -/
theorem mm2_apply (x : FVec Ideal S1000x64 .bf16) (w : FVec Ideal S64x10 .bf16) (g : Fin 1000) (k : Fin 10) :
    matmul dot_S1000x64_S64x10_S1000x10_1_0_0_1_n_n none x w (constant (F := Ideal) S1000x10 .f32 0x00000000#32) (ix2 g k) = ∑ l : Fin 64, x (ix2 g l) * w (ix2 l k) := by
  simp only [matmul]
  rw [Ideal.matmul_constant_zero_apply, ← Equiv.sum_comp (contrEquiv1 dot_S1000x64_S64x10_S1000x10_1_0_0_1_n_n 64 rfl rfl).symm]
  refine Finset.sum_congr rfl fun l _ => ?_
  have hk := contrEquiv1_symm_val dot_S1000x64_S64x10_S1000x10_1_0_0_1_n_n 64 rfl rfl l
  have el : dot_S1000x64_S64x10_S1000x10_1_0_0_1_n_n.lhsIdx (ix2 g k) ((contrEquiv1 dot_S1000x64_S64x10_S1000x10_1_0_0_1_n_n 64 rfl rfl).symm l) = ix2 g l := funext fun a => Fin.ext (by
    match a with
    | ⟨0, _⟩ => exact d2_lhs0 _ _
    | ⟨1, _⟩ => exact (d2_lhs1 _ _).trans hk)
  have er : dot_S1000x64_S64x10_S1000x10_1_0_0_1_n_n.rhsIdx (ix2 g k) ((contrEquiv1 dot_S1000x64_S64x10_S1000x10_1_0_0_1_n_n 64 rfl rfl).symm l) = ix2 l k := funext fun a => Fin.ext (by
    match a with
    | ⟨0, _⟩ => exact (d2_rhs0 _ _).trans hk
    | ⟨1, _⟩ => exact d2_rhs1 _ _)
  rw [el, er]

/-- The value at row g, column o, of the table the region computes from a table P, matrices W1, W2 and bias rows b1, b2. -/
def val (P : S1000x128.Idx → EReal) (W1 : S128x64.Idx → EReal) (b1 : S1x64.Idx → EReal) (W2 : S64x10.Idx → EReal)
    (b2 : S1x10.Idx → EReal) (g : Fin 1000) (o : Fin 10) : EReal :=
  (∑ k : Fin 64, max ((∑ l : Fin 128, P (ix2 g l) * W1 (ix2 l k)) + b1 (ix2 0 k)) (Ideal.ofBits .f32 0x00000000#32) * W2 (ix2 k o))
    + b2 (ix2 0 o)

/-- The body's stored value at row g, column o, from the five loaded arrays. -/
theorem pay_apply (x0 : FVec Ideal S1000x128 .f32) (x1 : FVec Ideal S128x64 .f32) (x2 : FVec Ideal S1x64 .f32)
    (x3 : FVec Ideal S64x10 .f32) (x4 : FVec Ideal S1x10 .f32) (g : Fin 1000) (o : Fin 10) :
    k4_pay1 (F := Ideal) x0 x1 x2 x3 x4 (ix2 g o) = val x0 x1 x2 x3 x4 g o := by
  unfold k4_pay1 val
  simp only [addf_apply, shapeCast_self]
  rw [broadcastTo_1b_ab_apply, mm2_apply]
  refine congrArg (· + x4 (ix2 0 o)) (Finset.sum_congr rfl fun k _ => ?_)
  simp only [truncf_apply, maximumf_apply, addf_apply, broadcast_apply]
  rw [broadcastTo_1b_ab_apply, mm1_apply]
  rfl

/-- The whole output table as one function of the arrays. -/
def G (P : S1000x128.Idx → EReal) (W1 : S128x64.Idx → EReal) (b1 : S1x64.Idx → EReal) (W2 : S64x10.Idx → EReal)
    (b2 : S1x10.Idx → EReal) : S1000x10.Idx → EReal :=
  fun i => val P W1 b1 W2 b2 (i 0) (i 1)

/-- The printed index maps at the one point: every window sits at block (0, 0). -/
theorem idx_facts : ∀ t : Fin cfg4.N,
    win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0 ∧ True :=
  (by decide +kernel : ∀ t : Fin grid4.N, _)

/-! ## Each window's block is its whole array -/

/-- The table window's block is the table. -/
theorem blk0_apply (c : Dev nD) (t : Fin cfg4.N) (i : S1000x128.Idx) :
    (iblk4 V c 0 t : Vec Ideal S1000x128 .f32) i = (V c main_v74 : S1000x128.Idx → EReal) i := by
  have e0 : win4_0.index t (0 : Fin 2) = 0 := (idx_facts t).1
  have e1 : win4_0.index t (1 : Fin 2) = 0 := (idx_facts t).2.1
  unfold iblk4
  rw [View.read_apply]
  show (V c main_v74 : S1000x128.Idx → EReal) _ = _
  congr 1
  funext a
  apply Fin.ext
  match a with
  | ⟨0, _⟩ => show win4_0.index t (0 : Fin 2) * 1000 + 1 * (i 0).val = (i 0).val; rw [e0]; omega
  | ⟨1, _⟩ => show win4_0.index t (1 : Fin 2) * 128 + 1 * (i 1).val = (i 1).val; rw [e1]; omega

/-- The first matrix window's block is the matrix. -/
theorem blk1_apply (c : Dev nD) (t : Fin cfg4.N) (i : S128x64.Idx) :
    (iblk4 V c 1 t : Vec Ideal S128x64 .f32) i = (V c main_arg15 : S128x64.Idx → EReal) i := by
  have e0 : win4_1.index t (0 : Fin 2) = 0 := (idx_facts t).2.2.1
  have e1 : win4_1.index t (1 : Fin 2) = 0 := (idx_facts t).2.2.2.1
  unfold iblk4
  rw [View.read_apply]
  show (V c main_arg15 : S128x64.Idx → EReal) _ = _
  congr 1
  funext a
  apply Fin.ext
  match a with
  | ⟨0, _⟩ => show win4_1.index t (0 : Fin 2) * 128 + 1 * (i 0).val = (i 0).val; rw [e0]; omega
  | ⟨1, _⟩ => show win4_1.index t (1 : Fin 2) * 64 + 1 * (i 1).val = (i 1).val; rw [e1]; omega

/-- The first bias window's block is the row. -/
theorem blk2_apply (c : Dev nD) (t : Fin cfg4.N) (i : S1x64.Idx) :
    (iblk4 V c 2 t : Vec Ideal S1x64 .f32) i = (V c main_v75 : S1x64.Idx → EReal) i := by
  have e0 : win4_2.index t (0 : Fin 2) = 0 := (idx_facts t).2.2.2.2.1
  have e1 : win4_2.index t (1 : Fin 2) = 0 := (idx_facts t).2.2.2.2.2.1
  unfold iblk4
  rw [View.read_apply]
  show (V c main_v75 : S1x64.Idx → EReal) _ = _
  congr 1
  funext a
  apply Fin.ext
  match a with
  | ⟨0, _⟩ => show win4_2.index t (0 : Fin 2) * 1 + 1 * (i 0).val = (i 0).val; rw [e0]; omega
  | ⟨1, _⟩ => show win4_2.index t (1 : Fin 2) * 64 + 1 * (i 1).val = (i 1).val; rw [e1]; omega

/-- The second matrix window's block is the matrix. -/
theorem blk3_apply (c : Dev nD) (t : Fin cfg4.N) (i : S64x10.Idx) :
    (iblk4 V c 3 t : Vec Ideal S64x10 .f32) i = (V c main_arg17 : S64x10.Idx → EReal) i := by
  have e0 : win4_3.index t (0 : Fin 2) = 0 := (idx_facts t).2.2.2.2.2.2.1
  have e1 : win4_3.index t (1 : Fin 2) = 0 := (idx_facts t).2.2.2.2.2.2.2.1
  unfold iblk4
  rw [View.read_apply]
  show (V c main_arg17 : S64x10.Idx → EReal) _ = _
  congr 1
  funext a
  apply Fin.ext
  match a with
  | ⟨0, _⟩ => show win4_3.index t (0 : Fin 2) * 64 + 1 * (i 0).val = (i 0).val; rw [e0]; omega
  | ⟨1, _⟩ => show win4_3.index t (1 : Fin 2) * 10 + 1 * (i 1).val = (i 1).val; rw [e1]; omega

/-- The second bias window's block is the row. -/
theorem blk4_apply (c : Dev nD) (t : Fin cfg4.N) (i : S1x10.Idx) :
    (iblk4 V c 4 t : Vec Ideal S1x10 .f32) i = (V c main_v76 : S1x10.Idx → EReal) i := by
  have e0 : win4_4.index t (0 : Fin 2) = 0 := (idx_facts t).2.2.2.2.2.2.2.2.1
  have e1 : win4_4.index t (1 : Fin 2) = 0 := (idx_facts t).2.2.2.2.2.2.2.2.2.1
  unfold iblk4
  rw [View.read_apply]
  show (V c main_v76 : S1x10.Idx → EReal) _ = _
  congr 1
  funext a
  apply Fin.ext
  match a with
  | ⟨0, _⟩ => show win4_4.index t (0 : Fin 2) * 1 + 1 * (i 0).val = (i 0).val; rw [e0]; omega
  | ⟨1, _⟩ => show win4_4.index t (1 : Fin 2) * 10 + 1 * (i 1).val = (i 1).val; rw [e1]; omega

/-- What the one point writes back is the one whole-table function, read through the point's block. -/
theorem flushed_eq (c : Dev nD) (t : Fin cfg4.N) :
    (dat4 V c).flushed 5 t = ((cfg4.win 5).blk t).view.read (Elt Ideal)
      (G (V c main_v74) (V c main_arg15) (V c main_v75) (V c main_arg17) (V c main_v76)) := by
  show (cfg4.win 5).cut (grid4.coords t) ((dat4 V c).after 5 t) = _
  rw [after4_5]
  unfold out4_5
  rw [View.canon_unit_zero hz]
  simp only [View.ld_unit_zero (S := S1000x128) hz, View.ld_unit_zero (S := S128x64) hz, View.ld_unit_zero (S := S1x64) hz,
    View.ld_unit_zero (S := S64x10) hz, View.ld_unit_zero (S := S1x10) hz]
  funext j
  obtain ⟨g, o, rfl⟩ : ∃ (g : Fin 1000) (o : Fin 10), j = ix2 g o := ⟨j 0, j 1, eq_ix2 j⟩
  have e0 : win4_5.index t (0 : Fin 2) = 0 := (idx_facts t).2.2.2.2.2.2.2.2.2.2.1
  have e1 : win4_5.index t (1 : Fin 2) = 0 := (idx_facts t).2.2.2.2.2.2.2.2.2.2.2.1
  have he : (((cfg4.win 5).blk t).view.emb (ix2 g o) : S1000x10.Idx) = ix2 g o := by
    funext a; apply Fin.ext
    match a with
    | ⟨0, _⟩ => show win4_5.index t (0 : Fin 2) * 1000 + 1 * g.val = g.val; rw [e0]; omega
    | ⟨1, _⟩ => show win4_5.index t (1 : Fin 2) * 10 + 1 * o.val = o.val; rw [e1]; omega
  show k4_pay1 (iblk4 V c 0 t) (iblk4 V c 1 t) (iblk4 V c 2 t) (iblk4 V c 3 t) (iblk4 V c 4 t) (ix2 g o)
      = G (V c main_v74) (V c main_arg15) (V c main_v75) (V c main_arg17) (V c main_v76) (((cfg4.win 5).blk t).view.emb (ix2 g o))
  rw [he]
  refine (pay_apply _ _ _ _ _ g o).trans ?_
  show val _ _ _ _ _ g o = val _ _ _ _ _ g o
  unfold val
  simp only [blk0_apply V c t, blk1_apply V c t, blk2_apply V c t, blk3_apply V c t, blk4_apply V c t]

/-- An index of the table is in point t's block iff each coordinate is in the block's range on its axis. -/
theorem mem_blk (t : Fin cfg4.N) (i : S1000x10.Idx) :
    i ∈ ((cfg4.win 5).blk t).view.set ↔ ∀ a : Fin 2, win4_5.index t a * S1000x10.size a ≤ (i a).val
      ∧ (i a).val < win4_5.index t a * S1000x10.size a + S1000x10.size a := by
  show i ∈ ((View.whole main_v77).slice (win4_5.rect t)).set ↔ _
  rw [View.set_slice_whole, Rect.mem_set_unit]
  exact Iff.rfl

/-- The one point's block is the whole table. -/
theorem cover (i : S1000x10.Idx) :
    ∃ t : Fin cfg4.N, (cfg4.win 5).flush t = true ∧ i ∈ ((cfg4.win 5).blk t).view.set := by
  have hi0 : (i 0).val < 1000 := (i 0).isLt
  have hi1 : (i 1).val < 10 := (i 1).isLt
  have e0 : win4_5.index t4_0 (0 : Fin 2) = 0 := (idx_facts t4_0).2.2.2.2.2.2.2.2.2.2.1
  have e1 : win4_5.index t4_0 (1 : Fin 2) = 0 := (idx_facts t4_0).2.2.2.2.2.2.2.2.2.2.2.1
  refine ⟨t4_0, flush4_5 t4_0, ?_⟩
  rw [mem_blk]
  intro a
  match a with
  | ⟨0, _⟩ =>
    show win4_5.index t4_0 (0 : Fin 2) * 1000 ≤ (i 0).val ∧ (i 0).val < win4_5.index t4_0 (0 : Fin 2) * 1000 + 1000
    rw [e0]; omega
  | ⟨1, _⟩ =>
    show win4_5.index t4_0 (1 : Fin 2) * 10 ≤ (i 1).val ∧ (i 1).val < win4_5.index t4_0 (1 : Fin 2) * 10 + 10
    rw [e1]; omega

/-- The output table after the region is the one function of the arrays. -/
theorem final_arr (c : Dev nD) :
    (dat4 (F := Ideal) V c).arrAt 5 cfg4.N = G (V c main_v74) (V c main_arg15) (V c main_v75) (V c main_arg17) (V c main_v76) :=
  (dat4 V c).arrAt_eq_of_cover 5 (G (V c main_v74) (V c main_arg15) (V c main_v75) (V c main_arg17) (V c main_v76))
    (fun t _ => flushed_eq V c t) cover

/-- The output table after the region, entry by entry. -/
theorem final (c : Dev nD) (g : Fin 1000) (o : Fin 10) :
    (dat4 (F := Ideal) V c).arrAt 5 cfg4.N (ix2 g o)
      = val (V c main_v74) (V c main_arg15) (V c main_v75) (V c main_arg17) (V c main_v76) g o :=
  (congrFun (final_arr V c) (ix2 g o)).trans rfl

end Cert.KernelIdeal.Reg4

end
-- ==== Proof.LibScatterRows.lean ====
/-
  Rows of a table scattered and gathered through a column of signed index words.

  A rank-2 table with N rows is updated by M update rows; update row e lands on the table row named by
  the signed reading of the e-th index word, and is dropped when that word names no row. Column
  positions are kept. A gather reads, for result row e, the table row named by the e-th index word
  clamped into [0, N-1]. The lemmas here put those two facts in coordinates, so that a sum over the
  update elements landing on a table element becomes a sum over the EDGES whose word names that row,
  and they count, in 32-bit integers, the edges landing on a row when every update is the word 1.
-/
import Idealize.ShloMosaic.PureOps.Ideal
import Idealize.ShloMosaic.PureOps.ShapeOps
import Idealize.ShloMosaic.Lib.ValueIdx

noncomputable section

open scoped BigOperators

namespace Cert.ScatterRows

open Idealize.ShloMosaic Idealize.ShloMosaic.ValueIdx

variable {N M C w : Nat}

/-- The edges whose index word, read signed, names row `n`. -/
def edgesInto (idx : IVec ⟨2, ![M, 1]⟩ w) (n : Fin N) : Finset (Fin M) :=
  Finset.univ.filter fun e => (idx (ix2 e (0 : Fin 1))).toInt = (n.val : Int)

/-- The table row result row `e` of a row gather reads: the signed word, negative words read as row 0,
    words past the last row as the last row. -/
def sourceRow (hN : 0 < N) (idx : IVec ⟨2, ![M, 1]⟩ w) (e : Fin M) : Fin N :=
  ⟨min (idx (ix2 e (0 : Fin 1))).toInt.toNat (N - 1), by omega⟩

/-! ## Rows of a rank-2 table: the coordinates of the landing index -/

section Rows
variable (d : ScatterDims ⟨2, ![N, C]⟩ ⟨2, ![M, 1]⟩ ⟨2, ![M, C]⟩)

/-- On the row axis the window starts at the signed reading of the update row's index word. -/
theorem rows_start0 (h1 : d.updateWindowDims = [1]) (h2 : d.insertedWindowDims = [0]) (h3 : d.scatterDimsToOperandDims = [0])
    (h4 : d.indexVectorDim = 1) (idx : IVec ⟨2, ![M, 1]⟩ w) (j : (⟨2, ![M, C]⟩ : Shape).Idx) :
    d.start j idx 0 = (idx (ix2 (j 0) (0 : Fin 1))).toInt := by
  obtain ⟨uw, iw, sd, iv, wf⟩ := d
  simp only at h1 h2 h3 h4
  subst h1 h2 h3 h4
  unfold ScatterDims.start
  rw [dif_pos (List.mem_singleton.mpr rfl)]
  congr 2
  funext b
  refine Fin.ext ?_
  match b with
  | ⟨0, _⟩ => rfl
  | ⟨1, _⟩ => rfl

/-- On the column axis, which the index words do not name, the window starts at 0. -/
theorem rows_start1 (h3 : d.scatterDimsToOperandDims = [0])
    (idx : IVec ⟨2, ![M, 1]⟩ w) (j : (⟨2, ![M, C]⟩ : Shape).Idx) :
    d.start j idx 1 = 0 := by
  unfold ScatterDims.start
  rw [dif_neg (by rw [h3]; simp)]

/-- The row axis is inserted: its window coordinate is 0. -/
theorem rows_window0 (h2 : d.insertedWindowDims = [0]) (j : (⟨2, ![M, C]⟩ : Shape).Idx) :
    d.window j 0 = 0 := by
  unfold ScatterDims.window
  rw [dif_neg (by rw [ScatterDims.sKept, h2]; simp [Shape.kept])]

/-- The column axis keeps the update element's column. -/
theorem rows_window1 (h1 : d.updateWindowDims = [1]) (h2 : d.insertedWindowDims = [0]) (j : (⟨2, ![M, C]⟩ : Shape).Idx) :
    d.window j 1 = (j 1).val := by
  obtain ⟨uw, iw, sd, iv, wf⟩ := d
  simp only at h1 h2
  subst h1 h2
  unfold ScatterDims.window
  rw [dif_pos (by simp [ScatterDims.sKept, Shape.kept])]
  rfl

/-- Update element `j` lands on table element (n, c') exactly when the index word of its row reads `n`
    and its column is `c'`. -/
theorem rows_resultIdx (h1 : d.updateWindowDims = [1]) (h2 : d.insertedWindowDims = [0]) (h3 : d.scatterDimsToOperandDims = [0])
    (h4 : d.indexVectorDim = 1) (idx : IVec ⟨2, ![M, 1]⟩ w) (j : (⟨2, ![M, C]⟩ : Shape).Idx) (n : Fin N) (c' : Fin C) :
    d.resultIdx? j idx = some (ix2 n c') ↔ (idx (ix2 (j 0) (0 : Fin 1))).toInt = (n.val : Int) ∧ j 1 = c' := by
  have s0 := rows_start0 d h1 h2 h3 h4 idx j
  have s1 := rows_start1 d h3 idx j
  have w0 := rows_window0 d h2 j
  have w1 := rows_window1 d h1 h2 j
  have hn : n.val < N := n.isLt
  have hc : (j 1).val < C := idx2_lt1 j
  unfold ScatterDims.resultIdx?
  split
  · rename_i h
    rw [Option.some.injEq]
    constructor
    · intro hf
      have e0 := congrArg Fin.val (congrFun hf 0)
      have e1 := congrArg Fin.val (congrFun hf 1)
      have h0 := h 0
      simp only [s0, s1, w0, w1] at e0 e1 h0
      change _ = n.val at e0
      change _ = c'.val at e1
      exact ⟨by omega, Fin.ext (by omega)⟩
    · rintro ⟨ht, hj⟩
      funext a
      refine Fin.ext ?_
      match a with
      | ⟨0, _⟩ =>
        show (d.start j idx 0 + ↑(d.window j 0)).toNat = n.val
        rw [s0, w0]; omega
      | ⟨1, _⟩ =>
        show (d.start j idx 1 + ↑(d.window j 1)).toNat = c'.val
        rw [s1, w1, ← hj]; omega
  · rename_i h
    constructor
    · intro hf; cases hf
    · rintro ⟨ht, hj⟩
      exfalso; apply h
      intro a
      match a with
      | ⟨0, _⟩ =>
        show 0 ≤ d.start j idx 0 + ↑(d.window j 0) ∧ d.start j idx 0 + ↑(d.window j 0) < (N : Int)
        rw [s0, w0]; omega
      | ⟨1, _⟩ =>
        show 0 ≤ d.start j idx 1 + ↑(d.window j 1) ∧ d.start j idx 1 + ↑(d.window j 1) < (C : Int)
        rw [s1, w1]; omega

end Rows

/-- A sum over the update elements that land on table element (n, c) is the sum over the edges into row
    `n` of the update element (e, c). -/
theorem sum_landing_rows {α : Type} [AddCommMonoid α] (d : ScatterDims ⟨2, ![N, C]⟩ ⟨2, ![M, 1]⟩ ⟨2, ![M, C]⟩)
    (h1 : d.updateWindowDims = [1]) (h2 : d.insertedWindowDims = [0]) (h3 : d.scatterDimsToOperandDims = [0])
    (h4 : d.indexVectorDim = 1) (idx : IVec ⟨2, ![M, 1]⟩ w) (n : Fin N) (c : Fin C)
    (f : (⟨2, ![M, C]⟩ : Shape).Idx → α) [DecidablePred fun j => d.resultIdx? j idx = some (ix2 n c)] :
    ∑ j ∈ Finset.univ.filter (fun j => d.resultIdx? j idx = some (ix2 n c)), f j = ∑ e ∈ edgesInto idx n, f (ix2 e c) := by
  symm
  refine Finset.sum_bij (fun e _ => ix2 e c) ?_ ?_ ?_ ?_
  · intro e he
    rw [Finset.mem_filter]
    refine ⟨Finset.mem_univ _, ?_⟩
    rw [rows_resultIdx d h1 h2 h3 h4]
    exact ⟨(Finset.mem_filter.mp he).2, rfl⟩
  · intro e1 _ e2 _ h
    exact congrFun h 0
  · intro j hj
    rw [Finset.mem_filter, rows_resultIdx d h1 h2 h3 h4] at hj
    refine ⟨j 0, Finset.mem_filter.mpr ⟨Finset.mem_univ _, hj.2.1⟩, ?_⟩
    have hj' := eq_ix2 j
    rw [hj.2.2] at hj'
    exact hj'.symm
  · intro e _
    rfl

/-! ## Entries of a rank-1 table -/

section Entries
variable (d : ScatterDims ⟨1, ![N]⟩ ⟨2, ![M, 1]⟩ ⟨1, ![M]⟩)

/-- On the table's one axis the window starts at the signed reading of the update's index word. -/
theorem entries_start (h1 : d.updateWindowDims = []) (h2 : d.insertedWindowDims = [0]) (h3 : d.scatterDimsToOperandDims = [0])
    (h4 : d.indexVectorDim = 1) (idx : IVec ⟨2, ![M, 1]⟩ w) (j : (⟨1, ![M]⟩ : Shape).Idx) :
    d.start j idx 0 = (idx (ix2 (j 0) (0 : Fin 1))).toInt := by
  obtain ⟨uw, iw, sd, iv, wf⟩ := d
  simp only at h1 h2 h3 h4
  subst h1 h2 h3 h4
  unfold ScatterDims.start
  rw [dif_pos (List.mem_singleton.mpr rfl)]
  congr 2
  funext b
  refine Fin.ext ?_
  match b with
  | ⟨0, _⟩ => rfl
  | ⟨1, _⟩ => rfl

/-- The table's one axis is inserted: its window coordinate is 0. -/
theorem entries_window (h2 : d.insertedWindowDims = [0]) (j : (⟨1, ![M]⟩ : Shape).Idx) :
    d.window j 0 = 0 := by
  unfold ScatterDims.window
  rw [dif_neg (by rw [ScatterDims.sKept, h2]; simp [Shape.kept])]

/-- Update `j` lands on table entry `n` exactly when its index word reads `n`. -/
theorem entries_resultIdx (h1 : d.updateWindowDims = []) (h2 : d.insertedWindowDims = [0]) (h3 : d.scatterDimsToOperandDims = [0])
    (h4 : d.indexVectorDim = 1) (idx : IVec ⟨2, ![M, 1]⟩ w) (j : (⟨1, ![M]⟩ : Shape).Idx) (n : Fin N) :
    d.resultIdx? j idx = some (ix1 n) ↔ (idx (ix2 (j 0) (0 : Fin 1))).toInt = (n.val : Int) := by
  have s0 := entries_start d h1 h2 h3 h4 idx j
  have w0 := entries_window d h2 j
  have hn : n.val < N := n.isLt
  unfold ScatterDims.resultIdx?
  split
  · rename_i h
    rw [Option.some.injEq]
    constructor
    · intro hf
      have e0 := congrArg Fin.val (congrFun hf 0)
      have h0 := h 0
      simp only [s0, w0] at e0 h0
      change _ = n.val at e0
      omega
    · intro ht
      funext a
      refine Fin.ext ?_
      match a with
      | ⟨0, _⟩ =>
        show (d.start j idx 0 + ↑(d.window j 0)).toNat = n.val
        rw [s0, w0]; omega
  · rename_i h
    constructor
    · intro hf; cases hf
    · intro ht
      exfalso; apply h
      intro a
      match a with
      | ⟨0, _⟩ =>
        show 0 ≤ d.start j idx 0 + ↑(d.window j 0) ∧ d.start j idx 0 + ↑(d.window j 0) < (N : Int)
        rw [s0, w0]; omega

end Entries

/-- The same for a rank-1 table of N entries updated by M scalars. -/
theorem sum_landing_entries {α : Type} [AddCommMonoid α] (d : ScatterDims ⟨1, ![N]⟩ ⟨2, ![M, 1]⟩ ⟨1, ![M]⟩)
    (h1 : d.updateWindowDims = []) (h2 : d.insertedWindowDims = [0]) (h3 : d.scatterDimsToOperandDims = [0])
    (h4 : d.indexVectorDim = 1) (idx : IVec ⟨2, ![M, 1]⟩ w) (n : Fin N)
    (f : (⟨1, ![M]⟩ : Shape).Idx → α) [DecidablePred fun j => d.resultIdx? j idx = some (ix1 n)] :
    ∑ j ∈ Finset.univ.filter (fun j => d.resultIdx? j idx = some (ix1 n)), f j = ∑ e ∈ edgesInto idx n, f (ix1 e) := by
  symm
  refine Finset.sum_bij (fun e _ => ix1 e) ?_ ?_ ?_ ?_
  · intro e he
    rw [Finset.mem_filter]
    refine ⟨Finset.mem_univ _, ?_⟩
    rw [entries_resultIdx d h1 h2 h3 h4]
    exact (Finset.mem_filter.mp he).2
  · intro e1 _ e2 _ h
    exact congrFun h 0
  · intro j hj
    rw [Finset.mem_filter, entries_resultIdx d h1 h2 h3 h4] at hj
    exact ⟨j 0, Finset.mem_filter.mpr ⟨Finset.mem_univ _, hj.2⟩, (eq_ix1 j).symm⟩
  · intro e _
    rfl

/-! ## A row gather: the coordinates of the operand index -/

section Gather
variable (g : GatherDims ⟨2, ![N, C]⟩ ⟨2, ![M, 1]⟩ ⟨2, ![M, C]⟩)

/-- On the row axis the slice starts at the signed reading of the result row's index word, clamped into [0, N-1]. -/
theorem gather_start0 (h1 : g.offsetDims = [1]) (h5 : g.startIndexMap = [0]) (h6 : g.indexVectorDim = 1)
    (h7 : g.sliceSizes = ![1, C]) (idx : IVec ⟨2, ![M, 1]⟩ w) (j : (⟨2, ![M, C]⟩ : Shape).Idx) :
    g.start j idx 0 = min (idx (ix2 (j 0) (0 : Fin 1))).toInt.toNat (N - 1) := by
  obtain ⟨od, cd, ob, sb, sm, iv, ss, wf⟩ := g
  simp only at h1 h5 h6 h7
  subst h1 h5 h6 h7
  unfold GatherDims.start
  rw [dif_pos (List.mem_singleton.mpr rfl)]
  congr 1
  congr 3
  funext b
  refine Fin.ext ?_
  match b with
  | ⟨0, _⟩ => rfl
  | ⟨1, _⟩ => rfl

/-- On the column axis, which the index words do not name, the slice starts at 0. -/
theorem gather_start1 (h5 : g.startIndexMap = [0]) (idx : IVec ⟨2, ![M, 1]⟩ w) (j : (⟨2, ![M, C]⟩ : Shape).Idx) :
    g.start j idx 1 = 0 := by
  unfold GatherDims.start
  rw [dif_neg (by rw [h5]; simp)]

/-- The row axis is collapsed: its offset coordinate is 0. -/
theorem gather_off0 (h2 : g.collapsedSliceDims = [0]) (j : (⟨2, ![M, C]⟩ : Shape).Idx) :
    g.offCoord j 0 = 0 :=
  g.offCoord_eq_zero j 0 fun h => ((g.mem_sKept 0).mp h).1 (by rw [h2]; exact List.mem_singleton.mpr rfl)

/-- The column axis keeps the result element's column. -/
theorem gather_off1 (h1 : g.offsetDims = [1]) (h2 : g.collapsedSliceDims = [0]) (h3 : g.operandBatchingDims = [])
    (j : (⟨2, ![M, C]⟩ : Shape).Idx) :
    g.offCoord j 1 = (j 1).val := by
  obtain ⟨od, cd, ob, sb, sm, iv, ss, wf⟩ := g
  simp only at h1 h2 h3
  subst h1 h2 h3
  unfold GatherDims.offCoord
  rw [dif_pos (by simp [GatherDims.sKept, Shape.kept])]
  rfl

/-- There are no batching axes: every batching coordinate is 0. -/
theorem gather_batch (h3 : g.operandBatchingDims = []) (j : (⟨2, ![M, C]⟩ : Shape).Idx) (a : Fin 2) :
    g.batchCoord j a = 0 :=
  g.batchCoord_eq_zero j a (by rw [h3]; exact List.not_mem_nil)

end Gather

/-- A row gather reads table element (sourceRow e, c) for result element (e, c). -/
theorem gather_row (hN : 0 < N) (g : GatherDims ⟨2, ![N, C]⟩ ⟨2, ![M, 1]⟩ ⟨2, ![M, C]⟩)
    (h1 : g.offsetDims = [1]) (h2 : g.collapsedSliceDims = [0]) (h3 : g.operandBatchingDims = [])
    (h4 : g.startIndicesBatchingDims = []) (h5 : g.startIndexMap = [0]) (h6 : g.indexVectorDim = 1)
    (h7 : g.sliceSizes = ![1, C]) (idx : IVec ⟨2, ![M, 1]⟩ w) (e : Fin M) (c : Fin C) :
    g.operandIdx (ix2 e c) idx = ix2 (sourceRow hN idx e) c := by
  funext a
  refine Fin.ext ?_
  match a with
  | ⟨0, _⟩ =>
    show g.start (ix2 e c) idx 0 + g.batchCoord (ix2 e c) 0 + g.offCoord (ix2 e c) 0 = (sourceRow hN idx e).val
    rw [gather_start0 g h1 h5 h6 h7, gather_batch g h3, gather_off0 g h2]
    rfl
  | ⟨1, _⟩ =>
    show g.start (ix2 e c) idx 1 + g.batchCoord (ix2 e c) 1 + g.offCoord (ix2 e c) 1 = c.val
    rw [gather_start1 g h5, gather_batch g h3, gather_off1 g h1 h2 h3]
    show 0 + 0 + c.val = c.val
    omega

/-! ## Counting the edges into an entry with 32-bit words -/

/-- Counting the positions below `K` that satisfy `p` along the list 0, 1, …, K-1 gives the size of the set of
    those positions. -/
theorem countP_finRange (K : Nat) (p : Fin K → Prop) [DecidablePred p] :
    (List.finRange K).countP (fun k => decide (p k)) = (Finset.univ.filter p).card := by
  rw [Finset.card_def, Finset.filter_val, ← Multiset.countP_eq_card_filter, Fin.univ_def]
  simp

/-- The 32-bit word of a number below 2^31, added to the zero word, reads signed as that number. -/
theorem toInt_ofNat_small (k : Nat) (hk : k < 2 ^ 31) : (0#32 + BitVec.ofNat 32 k).toInt = (k : Int) := by
  rw [BitVec.zero_add, BitVec.toInt_eq_toNat_cond, BitVec.toNat_ofNat, Nat.mod_eq_of_lt (by omega)]
  rw [if_pos (by omega)]

/-- A left fold whose every step adds the word 1 to the value read by `rd` when the position satisfies `p`, and
    leaves that value alone otherwise, adds to it the number of positions of the list that satisfy `p`. -/
theorem foldl_count {K : Nat} {T : Type} (step : T → Fin K → T) (rd : T → BitVec 32) (p : Fin K → Prop) [DecidablePred p]
    (hstep : ∀ r k, rd (step r k) = rd r + if p k then 1#32 else 0#32) (l : List (Fin K)) (x : T) :
    rd (l.foldl step x) = rd x + BitVec.ofNat 32 (l.countP fun k => decide (p k)) := by
  induction l generalizing x with
  | nil => simp
  | cons k l ih =>
    rw [List.foldl_cons, ih, hstep, List.countP_cons]
    by_cases hk : p k
    · simp only [hk, decide_true, if_true]
      rw [BitVec.ofNat_add, BitVec.add_assoc, BitVec.add_comm (BitVec.ofNat 32 _) (BitVec.ofNat 32 1)]
    · simp [hk]

/-- Row-major numbering identifies the positions of the M scalar updates with the edges, so the positions
    whose index word reads `n` are as many as the edges into `n`. -/
theorem card_positions (idx : IVec ⟨2, ![M, 1]⟩ w) (n : Fin N) :
    (Finset.univ.filter fun k : Fin (⟨1, ![M]⟩ : Shape).numel =>
        (idx (ix2 (((⟨1, ![M]⟩ : Shape).rowMajor.symm k) 0) (0 : Fin 1))).toInt = (n.val : Int)).card
      = (edgesInto idx n).card := by
  refine Finset.card_bij (fun k _ => ((⟨1, ![M]⟩ : Shape).rowMajor.symm k) 0) ?_ ?_ ?_
  · intro k hk
    exact Finset.mem_filter.mpr ⟨Finset.mem_univ _, (Finset.mem_filter.mp hk).2⟩
  · intro k1 _ k2 _ h
    apply (⟨1, ![M]⟩ : Shape).rowMajor.symm.injective
    rw [eq_ix1 ((⟨1, ![M]⟩ : Shape).rowMajor.symm k1), eq_ix1 ((⟨1, ![M]⟩ : Shape).rowMajor.symm k2)]
    exact congrArg ix1 h
  · intro e he
    refine ⟨(⟨1, ![M]⟩ : Shape).rowMajor (ix1 e), ?_, ?_⟩
    · rw [Finset.mem_filter, Equiv.symm_apply_apply]
      exact ⟨Finset.mem_univ _, (Finset.mem_filter.mp he).2⟩
    · rw [Equiv.symm_apply_apply]
      rfl

/-- Scattering the 32-bit word 1 from every edge into a table of zero words, by the row-major fold of integer
    addition, leaves at entry `n` the number of edges into `n`: fewer than 2^31 edges, so the signed reading of
    the word is that number. -/
theorem count_ones (d : ScatterDims ⟨1, ![N]⟩ ⟨2, ![M, 1]⟩ ⟨1, ![M]⟩)
    (h1 : d.updateWindowDims = []) (h2 : d.insertedWindowDims = [0]) (h3 : d.scatterDimsToOperandDims = [0])
    (h4 : d.indexVectorDim = 1) (hM : M < 2 ^ 31) (idx : IVec ⟨2, ![M, 1]⟩ 32) (n : Fin N) :
    (Host.scatter d IntOp.addi (fun _ => (0#32 : BitVec 32)) idx (fun _ => (1#32 : BitVec 32)) (ix1 n)).toInt
      = ((edgesInto idx n).card : Int) := by
  unfold Host.scatter
  rw [foldl_count _ (fun r : (⟨1, ![N]⟩ : Shape).Idx → BitVec 32 => r (ix1 n))
    (fun k => (idx (ix2 (((⟨1, ![M]⟩ : Shape).rowMajor.symm k) 0) (0 : Fin 1))).toInt = (n.val : Int)) ?_
    (List.finRange (⟨1, ![M]⟩ : Shape).numel) (fun _ => (0#32 : BitVec 32))]
  · rw [countP_finRange, card_positions]
    refine toInt_ofNat_small _ (lt_of_le_of_lt ?_ hM)
    calc (edgesInto idx n).card ≤ (Finset.univ : Finset (Fin M)).card := Finset.card_filter_le _ _
      _ = M := by rw [Finset.card_univ, Fintype.card_fin]
  · intro r k
    have hp := entries_resultIdx d h1 h2 h3 h4 idx ((⟨1, ![M]⟩ : Shape).rowMajor.symm k) n
    beta_reduce
    by_cases hk : (idx (ix2 (((⟨1, ![M]⟩ : Shape).rowMajor.symm k) 0) (0 : Fin 1))).toInt = (n.val : Int)
    · rw [if_pos hk, hp.mpr hk]
      dsimp only
      rw [if_pos rfl]
      rfl
    · rw [if_neg hk, BitVec.add_zero]
      generalize d.resultIdx? ((⟨1, ![M]⟩ : Shape).rowMajor.symm k) idx = o at hp
      cases o with
      | none => rfl
      | some i =>
        dsimp only
        rw [if_neg]
        intro hin
        exact hk (hp.mp (by rw [hin]))

end Cert.ScatterRows

end
-- ==== Proof.Spec.lean ====
/-
  A three-layer graph convolution network, stated index by index on the extended reals.

  Nodes are the 100000 rows of a feature table with 128 columns; the 1700000 edges (the given ones and one
  loop per node) are two columns of index words. An edge lands on the node its destination word names
  (and on none when the word names no node) and reads the row its source word names, clamped into the table.
  With d the inverse square root of the in-degree, one layer of the reference is

      H ↦ relu (g · (Σ_{e → v} (H W)[src e] · (d[src e] · d[dst e]) + b) · c + be),

  while the other program scales before and after the sum,

      Y ↦ relu (g · ((Σ_{e → v} ((Y·d) W)[src e]) · d[v] + b) · c + be),

  with the first layer's product formed as (X W)·d. The two agree because d[v] is a NONNEGATIVE REAL:
  multiplication by a nonnegative real distributes over every sum of extended reals, infinite terms
  included, so neither side needs its inputs finite.
-/
import Idealize.ShloMosaic.PureOps.Ideal
import Idealize.ShloMosaic.Lib.ValueIdx
import proofs.«132462_j15779709846111_2_alg».proof.Proof.LibScatterRows

noncomputable section

open scoped BigOperators

namespace Cert.Gcn

open Idealize.ShloMosaic Idealize.ShloMosaic.ValueIdx Cert.ScatterRows

/-- A node-feature table, a column over the nodes, a 128×128 weight, a 128-vector, an edge column of words,
    a value per edge. -/
abbrev Feat := (⟨2, ![100000, 128]⟩ : Shape).Idx → EReal
abbrev DCol := (⟨2, ![100000, 1]⟩ : Shape).Idx → EReal
abbrev Mat := (⟨2, ![128, 128]⟩ : Shape).Idx → EReal
abbrev V128 := (⟨1, ![128]⟩ : Shape).Idx → EReal
abbrev ECol := IVec ⟨2, ![1700000, 1]⟩ 32
abbrev EVal := (⟨1, ![1700000]⟩ : Shape).Idx → EReal

theorem nodes_pos : 0 < 100000 := by decide

/-- A rank-2 table from its entries. -/
def mk2 {a b : Nat} (f : Fin a → Fin b → EReal) : (⟨2, ![a, b]⟩ : Shape).Idx → EReal := fun i => f (i 0) (i 1)
theorem mk2_apply {a b : Nat} (f : Fin a → Fin b → EReal) (u : Fin a) (j : Fin b) : mk2 f (ix2 u j) = f u j := rfl

/-- The row of the table that edge `e` reads. -/
abbrev src (sc : ECol) (e : Fin 1700000) : Fin 100000 := sourceRow nodes_pos sc e

/-- Entry (u, j) of the product H W. -/
def lin (H : Feat) (W : Mat) (u : Fin 100000) (j : Fin 128) : EReal := ∑ k : Fin 128, H (ix2 u k) * W (ix2 k j)

/-- Bias, the evaluation-mode normalisation with scale `c`, and the rectifier with floor `z`, at column k. -/
def act (c z : EReal) (g b be : V128) (a : EReal) (k : Fin 128) : EReal :=
  max ((g (ix1 k) * (a + b (ix1 k))) * c + be (ix1 k)) z

/-! ## The reference -/

/-- One convolution of the reference: the products' source rows, each weighted by its edge's value, summed
    over the edges into the node, on top of `z`. -/
def refConv (z : EReal) (sc dc : ECol) (nrm : EVal) (H : Feat) (W : Mat) : Feat :=
  mk2 fun v j => z + ∑ e ∈ edgesInto dc v, lin H W (src sc e) j * nrm (ix1 e)

def refLayer (c z : EReal) (sc dc : ECol) (nrm : EVal) (g b be : V128) (H : Feat) (W : Mat) : Feat :=
  mk2 fun u k => act c z g b be (refConv z sc dc nrm H W (ix2 u k)) k

/-! ## The program that scales on both sides of the sum -/

/-- The source rows of a table summed over the edges into each node, on top of `z`. -/
def gatherSum (z : EReal) (sc dc : ECol) (T : Feat) : Feat :=
  mk2 fun v j => z + ∑ e ∈ edgesInto dc v, T (ix2 (src sc e) j)

/-- The first product, scaled by the node's factor afterwards. -/
def scaledLin0 (X : Feat) (W : Mat) (d : DCol) : Feat := mk2 fun u j => lin X W u j * d (ix2 u 0)

/-- A later product, its left factor scaled by the node's factor beforehand. -/
def scaledLin (Y : Feat) (W : Mat) (d : DCol) : Feat :=
  mk2 fun u j => ∑ k : Fin 128, (Y (ix2 u k) * d (ix2 u 0)) * W (ix2 k j)

/-- The summed rows scaled by the node's factor, then bias, normalisation and rectifier. -/
def scaledAct (c z : EReal) (g b be : V128) (d : DCol) (A : Feat) : Feat :=
  mk2 fun u k => act c z g b be (A (ix2 u k) * d (ix2 u 0)) k

/-! ## Multiplication by a nonnegative real distributes over sums of extended reals -/

theorem sum_mul_nonneg_real {ι : Type} (s : Finset ι) (f : ι → EReal) (r : ℝ) (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, ← ih]
    exact EReal.right_distrib_of_nonneg_of_ne_top (EReal.coe_nonneg.mpr hr) (EReal.coe_ne_top r) _ _

/-- A later product with its left factor scaled is the plain product scaled. -/
theorem scaledLin_eq (Y : Feat) (W : Mat) (d : DCol) (r : Fin 100000 → ℝ) (hr : ∀ u, 0 ≤ r u)
    (hd : ∀ u, d (ix2 u 0) = (r u : EReal)) (u : Fin 100000) (j : Fin 128) :
    scaledLin Y W d (ix2 u j) = lin Y W u j * d (ix2 u 0) := by
  rw [scaledLin, mk2_apply, lin, hd u, sum_mul_nonneg_real _ _ _ (hr u)]
  refine Finset.sum_congr rfl fun k _ => ?_
  rw [mul_assoc, mul_comm (r u : EReal), ← mul_assoc]

/-- Scaling the rows before the sum and the sum after it is weighting each edge by the two factors' product. -/
theorem gatherSum_scaled (sc dc : ECol) (nrm : EVal) (P : Fin 100000 → Fin 128 → EReal) (d : DCol)
    (r : Fin 100000 → ℝ) (hr : ∀ u, 0 ≤ r u) (hd : ∀ u, d (ix2 u 0) = (r u : EReal))
    (hn : ∀ (v : Fin 100000) (e : Fin 1700000), e ∈ edgesInto dc v → nrm (ix1 e) = d (ix2 (src sc e) 0) * d (ix2 v 0))
    (v : Fin 100000) (j : Fin 128) :
    gatherSum 0 sc dc (mk2 fun u j => P u j * d (ix2 u 0)) (ix2 v j) * d (ix2 v 0)
      = 0 + ∑ e ∈ edgesInto dc v, P (src sc e) j * nrm (ix1 e) := by
  rw [gatherSum, mk2_apply, zero_add, zero_add, hd v, sum_mul_nonneg_real _ _ _ (hr v)]
  refine Finset.sum_congr rfl fun e he => ?_
  rw [mk2_apply, hn v e he, hd v, mul_assoc]

/-- A later product with its left factor scaled, as a table: the plain product scaled row by row. -/
theorem scaledLin_eq_table (Y : Feat) (W : Mat) (d : DCol) (r : Fin 100000 → ℝ) (hr : ∀ u, 0 ≤ r u)
    (hd : ∀ u, d (ix2 u 0) = (r u : EReal)) :
    scaledLin Y W d = mk2 fun u j => lin Y W u j * d (ix2 u 0) := by
  funext i
  obtain ⟨u, j, rfl⟩ : ∃ (u : Fin 100000) (j : Fin 128), i = ix2 u j := ⟨i 0, i 1, eq_ix2 i⟩
  rw [scaledLin_eq Y W d r hr hd, mk2_apply]

/-- The first layer: product, scale, sum over the edges, scale, bias, normalisation, rectifier — the reference's layer. -/
theorem layer_first (c : EReal) (sc dc : ECol) (nrm : EVal) (g b be : V128) (X : Feat) (W : Mat) (d : DCol)
    (r : Fin 100000 → ℝ) (hr : ∀ u, 0 ≤ r u) (hd : ∀ u, d (ix2 u 0) = (r u : EReal))
    (hn : ∀ (v : Fin 100000) (e : Fin 1700000), e ∈ edgesInto dc v → nrm (ix1 e) = d (ix2 (src sc e) 0) * d (ix2 v 0)) :
    scaledAct c 0 g b be d (gatherSum 0 sc dc (scaledLin0 X W d)) = refLayer c 0 sc dc nrm g b be X W := by
  funext i
  obtain ⟨u, k, rfl⟩ : ∃ (u : Fin 100000) (k : Fin 128), i = ix2 u k := ⟨i 0, i 1, eq_ix2 i⟩
  rw [scaledAct, mk2_apply, refLayer, mk2_apply, refConv, mk2_apply]
  exact congrArg (fun a => act c 0 g b be a k) (gatherSum_scaled sc dc nrm (lin X W) d r hr hd hn u k)

/-- A later layer: scale, product, sum over the edges, scale, bias, normalisation, rectifier — the reference's layer. -/
theorem layer_next (c : EReal) (sc dc : ECol) (nrm : EVal) (g b be : V128) (Y : Feat) (W : Mat) (d : DCol)
    (r : Fin 100000 → ℝ) (hr : ∀ u, 0 ≤ r u) (hd : ∀ u, d (ix2 u 0) = (r u : EReal))
    (hn : ∀ (v : Fin 100000) (e : Fin 1700000), e ∈ edgesInto dc v → nrm (ix1 e) = d (ix2 (src sc e) 0) * d (ix2 v 0)) :
    scaledAct c 0 g b be d (gatherSum 0 sc dc (scaledLin Y W d)) = refLayer c 0 sc dc nrm g b be Y W := by
  rw [scaledLin_eq_table Y W d r hr hd]
  funext i
  obtain ⟨u, k, rfl⟩ : ∃ (u : Fin 100000) (k : Fin 128), i = ix2 u k := ⟨i 0, i 1, eq_ix2 i⟩
  rw [scaledAct, mk2_apply, refLayer, mk2_apply, refConv, mk2_apply]
  exact congrArg (fun a => act c 0 g b be a k) (gatherSum_scaled sc dc nrm (lin Y W) d r hr hd hn u k)

end Cert.Gcn

end
-- ==== Proof.KIndex.lean ====
/-
  Host operations of the five-kernel program read at an index: the gathered rows of a table summed onto zero over the
  edges (entry (v, j) is the zero word plus the sum, over the edges into v, of entry j of the row the edge reads), a vector
  reshaped to a column, and a vector reshaped to a one-row table.
-/
import proofs.«132462_j15779709846111_2_alg».proof.KernelIdeal
import proofs.«132462_j15779709846111_2_alg».proof.Proof.Spec
import proofs.«132462_j15779709846111_2_alg».proof.Proof.LibScatterRows
import Idealize.ShloMosaic.PureOps.Ideal
import Idealize.ShloMosaic.Lib.Pipeline.Value
import Idealize.ShloMosaic.Lib.ValueIdx
import Idealize.ShloMosaic.Lib.ValueLayout

noncomputable section

open scoped BigOperators

namespace Cert.KernelIdeal.KIndex

open Cert.KernelIdeal Cert.KernelIdeal.Facts₀ Idealize.ShloMosaic Idealize.ShloMosaic.ValueIdx Cert.ScatterRows

variable [Facts₀]

/-! # Host operations of the program read at an index

A column of 100000 entries as a 100000 x 1 table, a vector as a one-row table, and the sum of gathered rows over
the edges into a node. -/

/-- A vector of 100000 entries laid out as a 100000 x 1 table reads, at (u, 0), entry u. -/
theorem col_apply (D : (⟨S100000, .f32⟩ : BufTy).Contents (Elt Ideal)) (u : Fin 100000) :
    shapeCast S100000x1 D shapeCasts_S100000_S100000x1 (ix2 u 0) = D (ix1 u) :=
  shapeCast_apply D shapeCasts_S100000_S100000x1 (ix2 u 0) (ix1 u) (by
    rw [Shape.rowMajor_val_two, Shape.rowMajor_val_one]
    show u.val = u.val * 1 + 0
    omega)

/-- A vector of 128 entries laid out as a 1 x 128 table reads, at (0, k), entry k. -/
theorem row128_apply (a : (⟨S128, .f32⟩ : BufTy).Contents (Elt Ideal)) (k : Fin 128) :
    shapeCast S1x128 a shapeCasts_S128_S1x128 (ix2 0 k) = a (ix1 k) :=
  shapeCast_a_1a_apply a shapeCasts_S128_S1x128 0 k

/-- A vector of 64 entries laid out as a 1 x 64 table reads, at (0, k), entry k. -/
theorem row64_apply (a : (⟨S64, .f32⟩ : BufTy).Contents (Elt Ideal)) (k : Fin 64) :
    shapeCast S1x64 a shapeCasts_S64_S1x64 (ix2 0 k) = a (ix1 k) :=
  shapeCast_a_1a_apply a shapeCasts_S64_S1x64 0 k

/-- A vector of 10 entries laid out as a 1 x 10 table reads, at (0, k), entry k. -/
theorem row10_apply (a : (⟨S10, .f32⟩ : BufTy).Contents (Elt Ideal)) (k : Fin 10) :
    shapeCast S1x10 a shapeCasts_S10_S1x10 (ix2 0 k) = a (ix1 k) :=
  shapeCast_a_1a_apply a shapeCasts_S10_S1x10 0 k

/-! ## A sum of gathered rows over the edges into a node -/

/-- The accumulating scatter at an index: the operand's entry plus the sum of the update entries landing there. -/
theorem scatterAdd_apply {s si su : Shape} {w : Nat} (d : ScatterDims s si su) (x : FVec Ideal s .f32) (idx : IVec si w)
    (upd : FVec Ideal su .f32) (i : s.Idx) :
    Host.scatterAdd (F := Ideal) (φ := .f32) d x idx upd i
      = x i + ∑ j ∈ Finset.univ.filter (fun j => d.resultIdx? j idx = some i), upd j := rfl

/-- A gather at an index reads the operand at the operand index. -/
theorem gather_apply {s si t : Shape} {α : Type} {w : Nat} (g : GatherDims s si t) (x : s.Idx → α) (idx : IVec si w) (j : t.Idx) :
    Host.gather g x idx j = x (g.operandIdx j idx) := rfl

/-- Update rows summed into the rows of a table their index words name: entry (n, c) is the table's entry plus the
    sum, over the edges into n, of the update's entry (e, c). -/
theorem scatterAdd_rows {N M C w : Nat} (d : ScatterDims ⟨2, ![N, C]⟩ ⟨2, ![M, 1]⟩ ⟨2, ![M, C]⟩)
    (h1 : d.updateWindowDims = [1]) (h2 : d.insertedWindowDims = [0]) (h3 : d.scatterDimsToOperandDims = [0])
    (h4 : d.indexVectorDim = 1) (x : FVec Ideal ⟨2, ![N, C]⟩ .f32) (idx : IVec ⟨2, ![M, 1]⟩ w)
    (upd : FVec Ideal ⟨2, ![M, C]⟩ .f32) (n : Fin N) (c : Fin C) :
    Host.scatterAdd (F := Ideal) (φ := .f32) d x idx upd (ix2 n c) = x (ix2 n c) + ∑ e ∈ edgesInto idx n, upd (ix2 e c) := by
  rw [scatterAdd_apply, sum_landing_rows d h1 h2 h3 h4 idx n c]

/-- The rows of a table gathered along the source words and summed into the destination words' rows, on top of the
    zero table: entry (v, j) is the zero word's value plus the sum, over the edges into v, of the source row's
    entry j. -/
theorem agg_apply (T : (⟨S100000x128, .bf16⟩ : BufTy).Contents (Elt Ideal)) (sc dc : IVec S1700000x1 32) (v : Fin 100000) (j : Fin 128) :
    Host.scatterAdd (F := Ideal) scatter_S100000x128_S1700000x1_S1700000x128_1_0_0_1
        (broadcastInDim S100000x128 ![] bcast_S_S100000x128 (constant (F := Ideal) S_ .f32 0x00000000#32)) dc
        (extf .f32 (Host.gather gather_S100000x128_S1700000x1_S1700000x128_1_0_n_n_0_1_1128 T sc) bitsLt_bf16_f32) (ix2 v j)
      = Ideal.ofBits .f32 0x00000000#32 + ∑ e ∈ edgesInto dc v, T (ix2 (Cert.Gcn.src sc e) j) := by
  refine (scatterAdd_rows scatter_S100000x128_S1700000x1_S1700000x128_1_0_0_1 rfl rfl rfl rfl _ dc _ v j).trans ?_
  refine congrArg₂ (· + ·) ?_ (Finset.sum_congr rfl fun e _ => ?_)
  · exact broadcastInDim_apply ![] bcast_S_S100000x128 (constant (F := Ideal) S_ .f32 0x00000000#32) (ix2 v j) ix0 (fun a => a.elim0)
  · refine (extf_apply (φ := .bf16) (ψ := .f32) (Host.gather gather_S100000x128_S1700000x1_S1700000x128_1_0_n_n_0_1_1128 T sc)
      bitsLt_bf16_f32 (ix2 e j)).trans ((gather_apply gather_S100000x128_S1700000x1_S1700000x128_1_0_n_n_0_1_1128 T sc (ix2 e j)).trans ?_)
    exact congrArg T (gather_row Cert.Gcn.nodes_pos gather_S100000x128_S1700000x1_S1700000x128_1_0_n_n_0_1_1128 rfl rfl rfl rfl rfl rfl rfl sc e j)

end Cert.KernelIdeal.KIndex

end
-- ==== Proof.KGlue.lean ====
/-
  The tables the five kernels leave, entry by entry, are the specification's functions.

  Each kernel reads its one-dimensional parameters (bias, gain, shift) through a one-row table; entry (0, k) of that row is
  entry k of the parameter. With that, the first kernel's entry is the scaled first product, the two middle kernels'
  entries are the product whose left factor is the activated and rescaled table, the fourth kernel's entry is the
  activated table itself, and the last kernel's entry is the two-layer classifier on the pooled rows.
-/
import proofs.«132462_j15779709846111_2_alg».proof.Proof.Region0
import proofs.«132462_j15779709846111_2_alg».proof.Proof.Region1
import proofs.«132462_j15779709846111_2_alg».proof.Proof.Region2
import proofs.«132462_j15779709846111_2_alg».proof.Proof.Region3
import proofs.«132462_j15779709846111_2_alg».proof.Proof.Region4
import proofs.«132462_j15779709846111_2_alg».proof.Proof.Spec
import proofs.«132462_j15779709846111_2_alg».proof.Proof.KIndex

noncomputable section

open scoped BigOperators

namespace Cert.KernelIdeal.Glue

open Cert.KernelIdeal Cert.KernelIdeal.Gen Idealize.ShloMosaic Idealize.ShloMosaic.ValueIdx

/-! ## A parameter vector read through its one-row table -/

theorem row128 (a : S128.Idx → EReal) (k : Fin 128) :
    shapeCast S1x128 a shapeCasts_S128_S1x128 (ix2 0 k) = a (ix1 k) := KIndex.row128_apply a k

theorem row64 (a : S64.Idx → EReal) (k : Fin 64) :
    shapeCast S1x64 a shapeCasts_S64_S1x64 (ix2 0 k) = a (ix1 k) := KIndex.row64_apply a k

theorem row10 (a : S10.Idx → EReal) (k : Fin 10) :
    shapeCast S1x10 a shapeCasts_S10_S1x10 (ix2 0 k) = a (ix1 k) := KIndex.row10_apply a k

/-! ## The five tables -/

/-- The first kernel's entry (u, j): the first product's entry scaled by node u's factor. -/
theorem glue0 (X : S100000x128.Idx → EReal) (W : S128x128.Idx → EReal) (d : S100000x1.Idx → EReal) (u : Fin 100000)
    (j : Fin 128) : Reg0.val X W d u j = Cert.Gcn.scaledLin0 X W d (ix2 u j) := rfl

/-- The activated and rescaled entry (u, k), with the parameters read through their rows. -/
theorem act_row (A : S100000x128.Idx → EReal) (d : S100000x1.Idx → EReal) (b g be : S128.Idx → EReal) (u : Fin 100000)
    (k : Fin 128) :
    max ((shapeCast S1x128 g shapeCasts_S128_S1x128 (ix2 0 k)
            * (A (ix2 u k) * d (ix2 u 0) + shapeCast S1x128 b shapeCasts_S128_S1x128 (ix2 0 k)))
          * Ideal.ofBits .f32 0x3F7FFFAC#32 + shapeCast S1x128 be shapeCasts_S128_S1x128 (ix2 0 k))
        (Ideal.ofBits .f32 0x00000000#32)
      = Cert.Gcn.scaledAct (Ideal.ofBits .f32 0x3F7FFFAC#32) (Ideal.ofBits .f32 0x00000000#32) g b be d A (ix2 u k) := by
  rw [row128, row128, row128]
  rfl

/-- The second kernel's entry (u, j): the product whose left factor is the activated table rescaled by the nodes'
    factors. -/
theorem glue1 (A : S100000x128.Idx → EReal) (d : S100000x1.Idx → EReal) (b g be : S128.Idx → EReal)
    (W : S128x128.Idx → EReal) (u : Fin 100000) (j : Fin 128) :
    Reg1.val A d (shapeCast S1x128 b shapeCasts_S128_S1x128) (shapeCast S1x128 g shapeCasts_S128_S1x128)
        (shapeCast S1x128 be shapeCasts_S128_S1x128) W u j
      = Cert.Gcn.scaledLin (Cert.Gcn.scaledAct (Ideal.ofBits .f32 0x3F7FFFAC#32) (Ideal.ofBits .f32 0x00000000#32) g b be d A)
          W d (ix2 u j) := by
  unfold Reg1.val
  rw [Cert.Gcn.scaledLin, Cert.Gcn.mk2_apply]
  refine Finset.sum_congr rfl fun k _ => ?_
  rw [act_row]

/-- The third kernel's entry (u, j): the same product one layer later. -/
theorem glue2 (A : S100000x128.Idx → EReal) (d : S100000x1.Idx → EReal) (b g be : S128.Idx → EReal)
    (W : S128x128.Idx → EReal) (u : Fin 100000) (j : Fin 128) :
    Reg2.val A d (shapeCast S1x128 b shapeCasts_S128_S1x128) (shapeCast S1x128 g shapeCasts_S128_S1x128)
        (shapeCast S1x128 be shapeCasts_S128_S1x128) W u j
      = Cert.Gcn.scaledLin (Cert.Gcn.scaledAct (Ideal.ofBits .f32 0x3F7FFFAC#32) (Ideal.ofBits .f32 0x00000000#32) g b be d A)
          W d (ix2 u j) := by
  unfold Reg2.val
  rw [Cert.Gcn.scaledLin, Cert.Gcn.mk2_apply]
  refine Finset.sum_congr rfl fun k _ => ?_
  rw [act_row]

/-- The fourth kernel's entry (u, k): the activated table. -/
theorem glue3 (A : S100000x128.Idx → EReal) (d : S100000x1.Idx → EReal) (b g be : S128.Idx → EReal) (u : Fin 100000)
    (k : Fin 128) :
    Reg3.val A d (shapeCast S1x128 b shapeCasts_S128_S1x128) (shapeCast S1x128 g shapeCasts_S128_S1x128)
        (shapeCast S1x128 be shapeCasts_S128_S1x128) u k
      = Cert.Gcn.scaledAct (Ideal.ofBits .f32 0x3F7FFFAC#32) (Ideal.ofBits .f32 0x00000000#32) g b be d A (ix2 u k) := by
  unfold Reg3.val
  exact act_row A d b g be u k

/-- The last kernel's entry (g, o): the pooled row through the first matrix and bias, the rectifier, the second matrix
    and bias. -/
theorem glue4 (P : S1000x128.Idx → EReal) (W1 : S128x64.Idx → EReal) (b1 : S64.Idx → EReal) (W2 : S64x10.Idx → EReal)
    (b2 : S10.Idx → EReal) (g : Fin 1000) (o : Fin 10) :
    Reg4.val P W1 (shapeCast S1x64 b1 shapeCasts_S64_S1x64) W2 (shapeCast S1x10 b2 shapeCasts_S10_S1x10) g o
      = (∑ k : Fin 64, max ((∑ l : Fin 128, P (ix2 g l) * W1 (ix2 l k)) + b1 (ix1 k)) (Ideal.ofBits .f32 0x00000000#32)
            * W2 (ix2 k o)) + b2 (ix1 o) := by
  unfold Reg4.val
  rw [row10]
  refine congrArg (· + b2 (ix1 o)) (Finset.sum_congr rfl fun k _ => ?_)
  rw [row64]

end Cert.KernelIdeal.Glue

end
-- ==== Proof.Spec2.lean ====
/-
  The classifier on the pooled table, and the three layers joined.
-/
import proofs.«132462_j15779709846111_2_alg».proof.Proof.Spec

noncomputable section

open scoped BigOperators

namespace Cert.Gcn

open Idealize.ShloMosaic Idealize.ShloMosaic.ValueIdx Cert.ScatterRows

/-- The two-layer classifier at graph g and class o: a product, a bias, the rectifier with floor z, a product, a bias. -/
def classify (z : EReal) (P : (⟨2, ![1000, 128]⟩ : Shape).Idx → EReal) (W1 : (⟨2, ![128, 64]⟩ : Shape).Idx → EReal)
    (b1 : (⟨1, ![64]⟩ : Shape).Idx → EReal) (W2 : (⟨2, ![64, 10]⟩ : Shape).Idx → EReal) (b2 : (⟨1, ![10]⟩ : Shape).Idx → EReal)
    (g : Fin 1000) (o : Fin 10) : EReal :=
  (∑ k : Fin 64, max ((∑ l : Fin 128, P (ix2 g l) * W1 (ix2 l k)) + b1 (ix1 k)) z * W2 (ix2 k o)) + b2 (ix1 o)

/-- Three layers of the program that scales on both sides of the sum are three layers of the reference. -/
theorem three_layers (c : EReal) (sc dc : ECol) (nrm : EVal) (g1 b1 be1 g2 b2 be2 g3 b3 be3 : V128) (X : Feat) (W1 W2 W3 : Mat)
    (d : DCol) (r : Fin 100000 → ℝ) (hr : ∀ u, 0 ≤ r u) (hd : ∀ u, d (ix2 u 0) = (r u : EReal))
    (hn : ∀ (v : Fin 100000) (e : Fin 1700000), e ∈ edgesInto dc v → nrm (ix1 e) = d (ix2 (src sc e) 0) * d (ix2 v 0)) :
    scaledAct c 0 g3 b3 be3 d (gatherSum 0 sc dc (scaledLin
      (scaledAct c 0 g2 b2 be2 d (gatherSum 0 sc dc (scaledLin
        (scaledAct c 0 g1 b1 be1 d (gatherSum 0 sc dc (scaledLin0 X W1 d))) W2 d))) W3 d))
      = refLayer c 0 sc dc nrm g3 b3 be3 (refLayer c 0 sc dc nrm g2 b2 be2 (refLayer c 0 sc dc nrm g1 b1 be1 X W1) W2) W3 := by
  rw [layer_first c sc dc nrm g1 b1 be1 X W1 d r hr hd hn, layer_next c sc dc nrm g2 b2 be2 _ W2 d r hr hd hn,
    layer_next c sc dc nrm g3 b3 be3 _ W3 d r hr hd hn]

end Cert.Gcn

end
-- ==== Proof.KLayers.lean ====
/-
  The five kernels' outputs as functions of the arguments.

  The first kernel leaves the first product scaled by the degree factor; each of the next two takes the sum over the
  edges of the previous output's gathered rows, scales it, adds the bias, normalises, rectifies, scales again and
  multiplies by the next weight; the fourth stops after the rectifier; the host pools its output per graph and the
  last kernel classifies the pooled table. Each step is the kernel's value at an entry (from its blocks), read at the
  buffers the kernel finds (from the host lines before it).
-/
import proofs.«132462_j15779709846111_2_alg».proof.Proof.KHost
import proofs.«132462_j15779709846111_2_alg».proof.Proof.Region0
import proofs.«132462_j15779709846111_2_alg».proof.Proof.Region1
import proofs.«132462_j15779709846111_2_alg».proof.Proof.Region2
import proofs.«132462_j15779709846111_2_alg».proof.Proof.Region3
import proofs.«132462_j15779709846111_2_alg».proof.Proof.Region4
import proofs.«132462_j15779709846111_2_alg».proof.Proof.KIndex
import proofs.«132462_j15779709846111_2_alg».proof.Proof.KGlue
import proofs.«132462_j15779709846111_2_alg».proof.Proof.Spec2

set_option maxRecDepth 16384

noncomputable section

namespace Cert.KernelIdeal.Layers

open Cert.KernelIdeal Cert.KernelIdeal.Gen Cert.KernelIdeal.HostChain Cert.Gcn
open Idealize.ShloMosaic Idealize.ShloMosaic.TcCoe Idealize.ShloMosaic.ValueIdx Idealize.SL.Sem

/-- The three layers as one function of the argument arrays, at scale `cc` and floor `z`. -/
def net (x0 : Feat) (x1 : (⟨S2x1600000, .i32⟩ : BufTy).Contents (Elt Ideal)) (x3 x5 x7 : Mat)
    (x4 x6 x8 x9 x10 x11 x12 x13 x14 : V128) (cc z : EReal) : Feat :=
  scaledAct cc z x13 x8 x14 (dcolOf (dstWords x1)) (gatherSum z (srcCol (srcWords x1)) (dstCol (dstWords x1)) (scaledLin
    (scaledAct cc z x11 x6 x12 (dcolOf (dstWords x1)) (gatherSum z (srcCol (srcWords x1)) (dstCol (dstWords x1)) (scaledLin
      (scaledAct cc z x9 x4 x10 (dcolOf (dstWords x1)) (gatherSum z (srcCol (srcWords x1)) (dstCol (dstWords x1))
        (scaledLin0 x0 x3 (dcolOf (dstWords x1))))) x5 (dcolOf (dstWords x1))))) x7 (dcolOf (dstWords x1))))

variable (m : (ℓ : Loc nD τ sig) → Buf (Elt Ideal) ℓ) (ρ : Dev nD → PrngReg) (c : Dev nD)

/-- The edge columns and the degree factor's column, from the launch contents of the edge words. -/
def sc : ECol := srcCol (srcWords (arg m ρ c main_arg1))
def dc : ECol := dstCol (dstWords (arg m ρ c main_arg1))
def dk : DCol := dcolOf (dstWords (arg m ρ c main_arg1))

/-- The normalisation's scale and the rectifier's floor, as the programs spell them. -/
abbrev cS : EReal := Ideal.ofBits .f32 0x3F7FFFAC#32
abbrev zK : EReal := Ideal.ofBits .f32 0x00000000#32

/-- What the first four kernels leave. -/
def T1 : Feat := scaledLin0 (arg m ρ c main_arg0) (arg m ρ c main_arg3) (dk m ρ c)
def Y1 : Feat := scaledAct cS zK (arg m ρ c main_arg9) (arg m ρ c main_arg4) (arg m ρ c main_arg10) (dk m ρ c) (gatherSum zK (sc m ρ c) (dc m ρ c) (T1 m ρ c))
def T2 : Feat := scaledLin (Y1 m ρ c) (arg m ρ c main_arg5) (dk m ρ c)
def Y2 : Feat := scaledAct cS zK (arg m ρ c main_arg11) (arg m ρ c main_arg6) (arg m ρ c main_arg12) (dk m ρ c) (gatherSum zK (sc m ρ c) (dc m ρ c) (T2 m ρ c))
def T3 : Feat := scaledLin (Y2 m ρ c) (arg m ρ c main_arg7) (dk m ρ c)
def Y3 : Feat := scaledAct cS zK (arg m ρ c main_arg13) (arg m ρ c main_arg8) (arg m ρ c main_arg14) (dk m ρ c) (gatherSum zK (sc m ρ c) (dc m ρ c) (T3 m ρ c))

theorem Y3_eq : Y3 m ρ c = net (arg m ρ c main_arg0) (arg m ρ c main_arg1) (arg m ρ c main_arg3) (arg m ρ c main_arg5) (arg m ρ c main_arg7)
    (arg m ρ c main_arg4) (arg m ρ c main_arg6) (arg m ρ c main_arg8) (arg m ρ c main_arg9) (arg m ρ c main_arg10) (arg m ρ c main_arg11) (arg m ρ c main_arg12) (arg m ρ c main_arg13) (arg m ρ c main_arg14) cS zK := rfl

/-- The gathered rows of a table summed over the edges, as the spec's function. -/
theorem agg_eq (T : (⟨S100000x128, .bf16⟩ : BufTy).Contents (Elt Ideal)) :
    aggOf T (srcWords (arg m ρ c main_arg1)) (dstWords (arg m ρ c main_arg1)) = gatherSum zK (sc m ρ c) (dc m ρ c) T := by
  funext i
  obtain ⟨v, j, rfl⟩ : ∃ (v : Fin 100000) (j : Fin 128), i = ix2 v j := ⟨i 0, i 1, eq_ix2 i⟩
  exact KIndex.agg_apply T _ _ v j

theorem out0_eq : (dat0 (V3 m ρ) c).arrAt 3 cfg0.N = T1 m ρ c := by
  funext i
  obtain ⟨u, j, rfl⟩ : ∃ (u : Fin 100000) (j : Fin 128), i = ix2 u j := ⟨i 0, i 1, eq_ix2 i⟩
  rw [Reg0.final (V3 m ρ) c u j, in0_x, in0_w, in0_d]
  exact Glue.glue0 _ _ _ u j

theorem agg1_eq : V5 m ρ c main_v28 = gatherSum zK (sc m ρ c) (dc m ρ c) (T1 m ρ c) := by
  rw [in1_a, out0, out0_eq]
  exact agg_eq m ρ c _

theorem out1_eq : (dat1 (V5 m ρ) c).arrAt 6 cfg1.N = T2 m ρ c := by
  funext i
  obtain ⟨u, j, rfl⟩ : ∃ (u : Fin 100000) (j : Fin 128), i = ix2 u j := ⟨i 0, i 1, eq_ix2 i⟩
  rw [Reg1.final (V5 m ρ) c u j, agg1_eq, in1_d, in0_d, in1_b, in1_g, in1_be, in1_w]
  exact Glue.glue1 _ _ _ _ _ _ u j

theorem agg2_eq : V7 m ρ c main_v43 = gatherSum zK (sc m ρ c) (dc m ρ c) (T2 m ρ c) := by
  rw [in2_a, out1, out1_eq]
  exact agg_eq m ρ c _

theorem out2_eq : (dat2 (V7 m ρ) c).arrAt 6 cfg2.N = T3 m ρ c := by
  funext i
  obtain ⟨u, j, rfl⟩ : ∃ (u : Fin 100000) (j : Fin 128), i = ix2 u j := ⟨i 0, i 1, eq_ix2 i⟩
  rw [Reg2.final (V7 m ρ) c u j, agg2_eq, in2_d, in0_d, in2_b, in2_g, in2_be, in2_w]
  exact Glue.glue2 _ _ _ _ _ _ u j

theorem agg3_eq : V9 m ρ c main_v58 = gatherSum zK (sc m ρ c) (dc m ρ c) (T3 m ρ c) := by
  rw [in3_a, out2, out2_eq]
  exact agg_eq m ρ c _

theorem out3_eq : (dat3 (V9 m ρ) c).arrAt 5 cfg3.N = Y3 m ρ c := by
  funext i
  obtain ⟨u, k, rfl⟩ : ∃ (u : Fin 100000) (k : Fin 128), i = ix2 u k := ⟨i 0, i 1, eq_ix2 i⟩
  rw [Reg3.final (V9 m ρ) c u k, agg3_eq, in3_d, in0_d, in3_b, in3_g, in3_be]
  exact Glue.glue3 _ _ _ _ _ u k

/-- The result: the classifier on the per-graph mean of the fourth kernel's output. -/
theorem result (g : Fin 1000) (o : Fin 10) :
    W12 m ρ c (Proc.devRef .tc main_v77) (ix2 g o)
      = classify zK (poolOf (arg m ρ c main_arg2) (Y3 m ρ c)) (arg m ρ c main_arg15) (arg m ρ c main_arg16) (arg m ρ c main_arg17) (arg m ρ c main_arg18) g o := by
  rw [out4, Reg4.final (V11 m ρ) c g o, in4_p, out3, out3_eq, in4_w1, in4_b1, in4_w2, in4_b2]
  exact Glue.glue4 _ _ _ _ _ g o

end Cert.KernelIdeal.Layers

end
-- ==== Proof.RefLayers.lean ====
/-
  The reference program's three layers and its classifier, read entry by entry on the extended reals.

  One layer of the program forms the product H W, gathers its rows along the source column of the edges,
  multiplies each gathered row by its edge's value, adds the rows into a table of zero words along the
  destination column, and then applies bias, gain, scale, shift and the floor entry by entry. Read at (u, k):
  the accumulating scatter is the table's entry plus the sum over the edges into u; the row gather reads the
  source row of the edge; the product is a sum over the 128 columns. So entry (u, k) of a layer is

      max (g k · ((z + Σ_{e → u} (H W)[src e, k] · nrm e) + b k) · c + be k) z,

  which is the layer of the specification. The statement is proved once, over arbitrary inputs, and the three
  layers of the program are its instances. The classifier is two products with a bias each and a floor between.
  The words c (the scale) and z (the zero word) are never evaluated.
-/
import proofs.«132462_j15779709846111_2_alg».proof.Proof.RefReadP
import proofs.«132462_j15779709846111_2_alg».proof.Proof.Spec

noncomputable section

open scoped BigOperators

namespace Cert.ReferenceIdeal.RefValue

open Cert.ReferenceIdeal Cert.ReferenceIdeal.Gen Cert.ReferenceIdeal.ReadP Idealize.ShloMosaic Idealize.ShloMosaic.ValueIdx Cert.ScatterRows Cert.Gcn

/-- The normalisation scale and the rectifier floor, kept as the words the program states them. -/
abbrev cW : EReal := Ideal.ofBits .f32 0x3F7FFFAC#32
abbrev zW : EReal := Ideal.ofBits .f32 0x00000000#32

/-- A 128-vector broadcast to one row and then down the rows reads, at (u, k), its entry k. -/
theorem rowvec_g (v : V128) (u : Fin 100000) (k : Fin 128) : val_main_v49 (F := Ideal) v (ix2 u k) = v (ix1 k) := by
  rw [val_main_v49_apply, val_main_v48_apply]
  exact congrArg v (funext fun a => Fin.ext (by match a with | ⟨0, _⟩ => rfl))
theorem rowvec_b (v : V128) (u : Fin 100000) (k : Fin 128) : val_main_v46 (F := Ideal) v (ix2 u k) = v (ix1 k) := rowvec_g v u k
theorem rowvec_be (v : V128) (u : Fin 100000) (k : Fin 128) : val_main_v54 (F := Ideal) v (ix2 u k) = v (ix1 k) := rowvec_g v u k

/-- The accumulating scatter of update rows onto a table, at (u, k): the table's entry plus the sum, over the edges
    into row u, of the update rows' entries in column k. -/
theorem scatter_rows_apply (x : Feat) (dc : ECol) (upd : S1700000x128.Idx → EReal) (u : Fin 100000) (k : Fin 128) :
    Host.scatterAdd (F := Ideal) (φ := .f32) scatter_S100000x128_S1700000x1_S1700000x128_1_0_0_1 x dc upd (ix2 u k)
      = x (ix2 u k) + ∑ e ∈ edgesInto dc u, upd (ix2 e k) := by
  unfold Host.scatterAdd
  simp only [Ideal.hostScatterAdd_def]
  unfold Ideal.hostScatterAdd
  show x (ix2 u k) + _ = _
  rw [sum_landing_rows scatter_S100000x128_S1700000x1_S1700000x128_1_0_0_1 rfl rfl rfl rfl dc u k upd]

/-- The row gather of the product H W at (e, k): entry (source row of e, k) of the product, a sum over the 128
    columns of H's row and W's column k. -/
theorem gather_lin_apply (H : Feat) (W : Mat) (sc : ECol) (e : Fin 1700000) (k : Fin 128) :
    Host.gather gather_S100000x128_S1700000x1_S1700000x128_1_0_n_n_0_1_1128 (val_main_v31 (F := Ideal) H W) sc (ix2 e k)
      = lin H W (src sc e) k := by
  unfold Host.gather
  rw [gather_row nodes_pos gather_S100000x128_S1700000x1_S1700000x128_1_0_n_n_0_1_1128 rfl rfl rfl rfl rfl rfl rfl sc e k,
    val_main_v31_apply]
  refine Finset.sum_congr rfl fun l _ => ?_
  congr 2
  · exact funext fun a => Fin.ext (by match a with | ⟨0, _⟩ => rfl | ⟨1, _⟩ => rfl)
  · exact funext fun a => Fin.ext (by match a with | ⟨0, _⟩ => rfl | ⟨1, _⟩ => rfl)

/-- The edge values broadcast to a column and then along the rows read, at (e, k), the value of edge e. -/
theorem edgeval_apply (nrm : EVal) (e : Fin 1700000) (k : Fin 128) :
    broadcastInDim S1700000x128 ![0, 1] bcast_S1700000x1_S1700000x128_0_1
      (broadcastInDim S1700000x1 ![0] bcast_S1700000_S1700000x1_0 nrm) (ix2 e k) = nrm (ix1 e) := by
  rw [broadcastInDim_apply _ bcast_S1700000x1_S1700000x128_0_1 _ (ix2 e k) (ix2 e (0 : Fin 1)) (fun a => match a with
      | ⟨0, _⟩ => by show e.val = if (1700000 : Nat) = 1 then 0 else e.val; rw [if_neg (by decide)]
      | ⟨1, _⟩ => by show 0 = if (1 : Nat) = 1 then 0 else k.val; rw [if_pos rfl]),
    broadcastInDim_apply _ bcast_S1700000_S1700000x1_0 nrm (ix2 e (0 : Fin 1)) (ix1 e) (fun a => match a with
      | ⟨0, _⟩ => by show e.val = if (1700000 : Nat) = 1 then 0 else e.val; rw [if_neg (by decide)])]

/-- The table the sum starts from holds the zero word everywhere. -/
theorem start_apply (i : S100000x128.Idx) : val_main_v42 (F := Ideal) i = zW := by
  rw [val_main_v42_apply, val_main_cst_9_apply]
  exact Ideal.ofBits_def (φ := .f32) 0x00000000#32

/-- The scale and the floor, broadcast over the table, read their words everywhere. -/
theorem scale_apply (i : S100000x128.Idx) : val_main_v51 (F := Ideal) i = cW := by
  rw [val_main_v51_apply, val_main_cst_10_apply]
  exact Ideal.ofBits_def (φ := .f32) 0x3F7FFFAC#32
theorem floor_apply (i : S100000x128.Idx) : val_main_call1_v0 (F := Ideal) i = zW := by
  rw [val_main_call1_v0_apply, val_main_call1_cst_apply]
  exact Ideal.ofBits_def (φ := .f32) 0x00000000#32

/-- The convolution of one layer at (u, k): on top of the zero word, the sum over the edges into u of the product's
    source-row entry times the edge's value. -/
theorem conv_apply (H : Feat) (W : Mat) (sc dc : ECol) (nrm : EVal) (u : Fin 100000) (k : Fin 128) :
    Host.scatterAdd (F := Ideal) (φ := .f32) scatter_S100000x128_S1700000x1_S1700000x128_1_0_0_1 (val_main_v42 (F := Ideal)) dc
        (mulf (F := Ideal) (φ := .f32)
          (Host.gather gather_S100000x128_S1700000x1_S1700000x128_1_0_n_n_0_1_1128 (val_main_v31 (F := Ideal) H W) sc)
          (broadcastInDim S1700000x128 ![0, 1] bcast_S1700000x1_S1700000x128_0_1
            (broadcastInDim S1700000x1 ![0] bcast_S1700000_S1700000x1_0 nrm))) (ix2 u k)
      = zW + ∑ e ∈ edgesInto dc u, lin H W (src sc e) k * nrm (ix1 e) := by
  refine (scatter_rows_apply _ dc _ u k).trans ?_
  refine congrArg₂ (· + ·) (start_apply _) (Finset.sum_congr rfl fun e _ => ?_)
  refine (mulf_apply _ _ _).trans ?_
  rw [gather_lin_apply, edgeval_apply]

/-- Bias, gain, scale, shift and floor, applied entry by entry. -/
theorem pointwise_apply (A S B C E Z : FVec Ideal S100000x128 .f32) (i : S100000x128.Idx) :
    maximumf (F := Ideal) (φ := .f32) (addf (F := Ideal) (φ := .f32) (mulf (F := Ideal) (φ := .f32)
      (mulf (F := Ideal) (φ := .f32) A (addf (F := Ideal) (φ := .f32) S B)) C) E) Z i
      = max ((A i * (S i + B i)) * C i + E i) (Z i) := rfl

/-- One layer of the specification at (u, k). -/
theorem refLayer_apply (c z : EReal) (sc dc : ECol) (nrm : EVal) (g b be : V128) (H : Feat) (W : Mat) (u : Fin 100000) (k : Fin 128) :
    refLayer c z sc dc nrm g b be H W (ix2 u k)
      = max ((g (ix1 k) * ((z + ∑ e ∈ edgesInto dc u, lin H W (src sc e) k * nrm (ix1 e)) + b (ix1 k))) * c + be (ix1 k)) z := rfl

/-- One layer as the program composes it, over arbitrary inputs. -/
def layerOps (H : Feat) (W : Mat) (sc dc : ECol) (nrm : EVal) (g b be : V128) : Feat :=
  maximumf (F := Ideal) (φ := .f32)
    (addf (F := Ideal) (φ := .f32)
      (mulf (F := Ideal) (φ := .f32)
        (mulf (F := Ideal) (φ := .f32) (val_main_v49 (F := Ideal) g)
          (addf (F := Ideal) (φ := .f32)
            (Host.scatterAdd (F := Ideal) (φ := .f32) scatter_S100000x128_S1700000x1_S1700000x128_1_0_0_1 (val_main_v42 (F := Ideal)) dc
              (mulf (F := Ideal) (φ := .f32)
                (Host.gather gather_S100000x128_S1700000x1_S1700000x128_1_0_n_n_0_1_1128 (val_main_v31 (F := Ideal) H W) sc)
                (broadcastInDim S1700000x128 ![0, 1] bcast_S1700000x1_S1700000x128_0_1
                  (broadcastInDim S1700000x1 ![0] bcast_S1700000_S1700000x1_0 nrm))))
            (val_main_v46 (F := Ideal) b)))
        (val_main_v51 (F := Ideal)))
      (val_main_v54 (F := Ideal) be))
    (val_main_call1_v0 (F := Ideal))

theorem layerOps_eq (H : Feat) (W : Mat) (sc dc : ECol) (nrm : EVal) (g b be : V128) :
    layerOps H W sc dc nrm g b be = refLayer cW zW sc dc nrm g b be H W := by
  funext i
  obtain ⟨u, k, rfl⟩ : ∃ (u : Fin 100000) (k : Fin 128), i = ix2 u k := ⟨i 0, i 1, eq_ix2 i⟩
  rw [refLayer_apply]
  refine (pointwise_apply (val_main_v49 (F := Ideal) g) _ (val_main_v46 (F := Ideal) b) (val_main_v51 (F := Ideal))
    (val_main_v54 (F := Ideal) be) (val_main_call1_v0 (F := Ideal)) (ix2 u k)).trans ?_
  rw [conv_apply, rowvec_g, rowvec_b, rowvec_be, scale_apply, floor_apply]

/-! ## The three layers of the program are the layer of the specification -/

/-- The first layer: features x0, weight x3, bias x4, gain x9, shift x10. -/
theorem layer1 (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 x9 x10 : (⟨S128, .f32⟩ : BufTy).Contents (Elt Ideal)) :
    val_main_v56 (F := Ideal) x0 x1 x3 x4 x9 x10
      = refLayer cW zW (val_main_v21 (F := Ideal) x1) (val_main_v9 (F := Ideal) x1) (val_main_v30 (F := Ideal) x1) x9 x4 x10 x0 x3 :=
  (show val_main_v56 (F := Ideal) x0 x1 x3 x4 x9 x10
      = layerOps x0 x3 (val_main_v21 (F := Ideal) x1) (val_main_v9 (F := Ideal) x1) (val_main_v30 (F := Ideal) x1) x9 x4 x10 from rfl).trans
    (layerOps_eq _ _ _ _ _ _ _ _)

/-- The second layer: the first layer's table, weight x5, bias x6, gain x11, shift x12. -/
theorem layer2 (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 x9 x10 x11 x12 : (⟨S128, .f32⟩ : BufTy).Contents (Elt Ideal)) :
    val_main_v82 (F := Ideal) x0 x1 x3 x4 x5 x6 x9 x10 x11 x12
      = refLayer cW zW (val_main_v21 (F := Ideal) x1) (val_main_v9 (F := Ideal) x1) (val_main_v30 (F := Ideal) x1) x11 x6 x12
          (val_main_v56 (F := Ideal) x0 x1 x3 x4 x9 x10) x5 :=
  (show val_main_v82 (F := Ideal) x0 x1 x3 x4 x5 x6 x9 x10 x11 x12
      = layerOps (val_main_v56 (F := Ideal) x0 x1 x3 x4 x9 x10) x5 (val_main_v21 (F := Ideal) x1) (val_main_v9 (F := Ideal) x1)
          (val_main_v30 (F := Ideal) x1) x11 x6 x12 from rfl).trans
    (layerOps_eq _ _ _ _ _ _ _ _)

/-- The third layer: the second layer's table, weight x7, bias x8, gain x13, shift x14. -/
theorem layer3 (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal))
    (x8 x9 x10 x11 x12 x13 x14 : (⟨S128, .f32⟩ : BufTy).Contents (Elt Ideal)) :
    val_main_v108 (F := Ideal) x0 x1 x3 x4 x5 x6 x7 x8 x9 x10 x11 x12 x13 x14
      = refLayer cW zW (val_main_v21 (F := Ideal) x1) (val_main_v9 (F := Ideal) x1) (val_main_v30 (F := Ideal) x1) x13 x8 x14
          (val_main_v82 (F := Ideal) x0 x1 x3 x4 x5 x6 x9 x10 x11 x12) x7 :=
  (show val_main_v108 (F := Ideal) x0 x1 x3 x4 x5 x6 x7 x8 x9 x10 x11 x12 x13 x14
      = layerOps (val_main_v82 (F := Ideal) x0 x1 x3 x4 x5 x6 x9 x10 x11 x12) x7 (val_main_v21 (F := Ideal) x1)
          (val_main_v9 (F := Ideal) x1) (val_main_v30 (F := Ideal) x1) x13 x8 x14 from rfl).trans
    (layerOps_eq _ _ _ _ _ _ _ _)

/-! ## The classifier -/

/-- The hidden layer of the classifier at (g, k): the pooled row times column k of the first weight, plus the
    bias, floored at the zero word. -/
theorem hidden_apply (x0 : (⟨S100000x128, .f32⟩ : BufTy).Contents (Elt Ideal)) (x1 : (⟨S2x1600000, .i32⟩ : BufTy).Contents (Elt Ideal)) (x2 : (⟨S100000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal))
    (x8 x9 x10 x11 x12 x13 x14 : (⟨S128, .f32⟩ : BufTy).Contents (Elt Ideal)) (x15 : (⟨S128x64, .f32⟩ : BufTy).Contents (Elt Ideal)) (x16 : (⟨S64, .f32⟩ : BufTy).Contents (Elt Ideal)) (g : Fin 1000) (k : Fin 64) :
    val_main_v125 (F := Ideal) x0 x1 x2 x3 x4 x5 x6 x7 x8 x9 x10 x11 x12 x13 x14 x15 x16 (ix2 g k)
      = max ((∑ l : Fin 128, val_main_v120 (F := Ideal) x0 x1 x2 x3 x4 x5 x6 x7 x8 x9 x10 x11 x12 x13 x14 (ix2 g l) * x15 (ix2 l k)) + x16 (ix1 k)) zW := by
  have e3 : idx_main_v122 (idx_main_v123 (ix2 g k)) = ix1 k := funext fun a => Fin.ext (by match a with | ⟨0, _⟩ => rfl)
  rw [val_main_v125_apply, Ideal.maximumf_def, val_main_v124_apply, Ideal.addf_def, val_main_v121_apply, val_main_v123_apply,
    val_main_v122_apply, val_main_call4_v0_apply, val_main_call4_cst_apply, Ideal.ofBits_def, e3]
  have hs : (∑ l : Fin 128, val_main_v120 (F := Ideal) x0 x1 x2 x3 x4 x5 x6 x7 x8 x9 x10 x11 x12 x13 x14 (lidx_main_v121 (ix2 g k) l) * x15 (ridx_main_v121 (ix2 g k) l))
      = ∑ l : Fin 128, val_main_v120 (F := Ideal) x0 x1 x2 x3 x4 x5 x6 x7 x8 x9 x10 x11 x12 x13 x14 (ix2 g l) * x15 (ix2 l k) :=
    Finset.sum_congr rfl fun l _ => by
      have e1 : lidx_main_v121 (ix2 g k) l = ix2 g l := funext fun a => Fin.ext (by match a with | ⟨0, _⟩ => rfl | ⟨1, _⟩ => rfl)
      have e2 : ridx_main_v121 (ix2 g k) l = ix2 l k := funext fun a => Fin.ext (by match a with | ⟨0, _⟩ => rfl | ⟨1, _⟩ => rfl)
      rw [e1, e2]
  rw [hs]

/-- The classifier's result at (g, o): the hidden row times column o of the second weight, plus the bias. -/
theorem classifier (x0 : (⟨S100000x128, .f32⟩ : BufTy).Contents (Elt Ideal)) (x1 : (⟨S2x1600000, .i32⟩ : BufTy).Contents (Elt Ideal)) (x2 : (⟨S100000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal))
    (x8 x9 x10 x11 x12 x13 x14 : (⟨S128, .f32⟩ : BufTy).Contents (Elt Ideal)) (x15 : (⟨S128x64, .f32⟩ : BufTy).Contents (Elt Ideal)) (x16 : (⟨S64, .f32⟩ : BufTy).Contents (Elt Ideal)) (x17 : (⟨S64x10, .f32⟩ : BufTy).Contents (Elt Ideal)) (x18 : (⟨S10, .f32⟩ : BufTy).Contents (Elt Ideal)) (g : Fin 1000) (o : Fin 10) :
    val_main_v129 (F := Ideal) x0 x1 x2 x3 x4 x5 x6 x7 x8 x9 x10 x11 x12 x13 x14 x15 x16 x17 x18 (ix2 g o)
      = (∑ k : Fin 64, max ((∑ l : Fin 128, val_main_v120 (F := Ideal) x0 x1 x2 x3 x4 x5 x6 x7 x8 x9 x10 x11 x12 x13 x14 (ix2 g l) * x15 (ix2 l k)) + x16 (ix1 k)) zW
            * x17 (ix2 k o)) + x18 (ix1 o) := by
  have e3 : idx_main_v127 (idx_main_v128 (ix2 g o)) = ix1 o := funext fun a => Fin.ext (by match a with | ⟨0, _⟩ => rfl)
  rw [val_main_v129_apply, Ideal.addf_def, val_main_v126_apply, val_main_v128_apply, val_main_v127_apply, e3]
  have hs : (∑ k : Fin 64, val_main_v125 (F := Ideal) x0 x1 x2 x3 x4 x5 x6 x7 x8 x9 x10 x11 x12 x13 x14 x15 x16 (lidx_main_v126 (ix2 g o) k) * x17 (ridx_main_v126 (ix2 g o) k))
      = ∑ k : Fin 64, max ((∑ l : Fin 128, val_main_v120 (F := Ideal) x0 x1 x2 x3 x4 x5 x6 x7 x8 x9 x10 x11 x12 x13 x14 (ix2 g l) * x15 (ix2 l k)) + x16 (ix1 k)) zW
            * x17 (ix2 k o) :=
    Finset.sum_congr rfl fun k _ => by
      have e1 : lidx_main_v126 (ix2 g o) k = ix2 g k := funext fun a => Fin.ext (by match a with | ⟨0, _⟩ => rfl | ⟨1, _⟩ => rfl)
      have e2 : ridx_main_v126 (ix2 g o) k = ix2 k o := funext fun a => Fin.ext (by match a with | ⟨0, _⟩ => rfl | ⟨1, _⟩ => rfl)
      rw [e1, e2, hidden_apply]
  rw [hs]

end Cert.ReferenceIdeal.RefValue

end
-- ==== Proof.RefDegree.lean ====
/-
  The degree factor and the edge weights of the reference's graph convolution.

  Every edge adds the real 1 to the entry of a zero table that its destination word names, so the table holds, at
  node u, the number of edges into u: a nonnegative real. The node's factor is that count to the power minus one half
  where the count is positive and zero elsewhere: again a nonnegative real. The weight of an edge is the factor of the
  node its source word names (clamped into the table) times the factor of the node its destination word names, where a
  negative destination word is first shifted by the number of nodes. An edge that lands on node v has the word of v as
  its destination word, which is not negative, so the shift leaves it alone and the second factor is the factor of v.
-/
import proofs.«132462_j15779709846111_2_alg».proof.Proof.RefReadP
import proofs.«132462_j15779709846111_2_alg».proof.Proof.Spec
import Idealize.ShloMosaic.Lib.IdealHost

noncomputable section

open scoped BigOperators

namespace Cert.ReferenceIdeal.RefValue.Degree

open Cert.ReferenceIdeal Cert.ReferenceIdeal.Gen Cert.ReferenceIdeal.ReadP Idealize.ShloMosaic Idealize.ShloMosaic.ValueIdx
  Cert.ScatterRows

/-! ## A gather of single entries of a rank-1 table through a column of index words -/

section Gather1
variable {N M w : Nat} (g : GatherDims ⟨1, ![N]⟩ ⟨2, ![M, 1]⟩ ⟨1, ![M]⟩)

/-- On the table's one axis the slice starts at the signed reading of the result entry's index word, clamped into
    [0, N-1]. -/
theorem gather1_start (h1 : g.offsetDims = []) (h5 : g.startIndexMap = [0]) (h6 : g.indexVectorDim = 1)
    (h7 : g.sliceSizes = ![1]) (idx : IVec ⟨2, ![M, 1]⟩ w) (j : (⟨1, ![M]⟩ : Shape).Idx) :
    g.start j idx 0 = min (idx (ix2 (j 0) (0 : Fin 1))).toInt.toNat (N - 1) := by
  obtain ⟨od, cd, ob, sb, sm, iv, ss, wf⟩ := g
  simp only at h1 h5 h6 h7
  subst h1 h5 h6 h7
  unfold GatherDims.start
  rw [dif_pos (List.mem_singleton.mpr rfl)]
  congr 1
  congr 3
  funext b
  refine Fin.ext ?_
  match b with
  | ⟨0, _⟩ => rfl
  | ⟨1, _⟩ => rfl

/-- Result entry `e` of such a gather reads the table entry its index word names, clamped into the table. -/
theorem gather1_idx (hN : 0 < N) (h1 : g.offsetDims = []) (h2 : g.collapsedSliceDims = [0]) (h3 : g.operandBatchingDims = [])
    (h5 : g.startIndexMap = [0]) (h6 : g.indexVectorDim = 1) (h7 : g.sliceSizes = ![1])
    (idx : IVec ⟨2, ![M, 1]⟩ w) (e : Fin M) :
    g.operandIdx (ix1 e) idx = ix1 (sourceRow hN idx e) := by
  funext a
  refine Fin.ext ?_
  match a with
  | ⟨0, _⟩ =>
    show g.start (ix1 e) idx 0 + g.batchCoord (ix1 e) 0 + g.offCoord (ix1 e) 0 = (sourceRow hN idx e).val
    rw [gather1_start g h1 h5 h6 h7, g.batchCoord_eq_zero _ _ (by rw [h3]; exact List.not_mem_nil),
      g.offCoord_eq_zero _ _ (fun h => ((g.mem_sKept 0).mp h).1 (by rw [h2]; exact List.mem_singleton.mpr rfl))]
    rfl

end Gather1

/-- A word that is not negative is kept by "add the table's length to a negative word". -/
theorem select_nonneg_word (x a : BitVec 32) (h : 0 ≤ x.toInt) :
    Scalar.select (IntOp.cmpi .slt x 0#32) a x = x := by
  have hlt : x.slt 0#32 = false := by
    simp only [BitVec.slt, BitVec.toInt_zero, decide_eq_false_iff_not, Int.not_lt]
    exact h
  show (if BitVec.ofBool (x.slt 0#32) = 1 then _ else _) = _
  rw [hlt]
  rfl

/-- A finite sum of nonnegative reals, taken in the extended reals, is a nonnegative real. -/
theorem sum_nonneg_real {ι : Type} (s : Finset ι) (f : ι → EReal) (h : ∀ j ∈ s, ∃ r : ℝ, 0 ≤ r ∧ f j = (r : EReal)) :
    ∃ r : ℝ, 0 ≤ r ∧ ∑ j ∈ s, f j = (r : EReal) := by
  classical
  induction s using Finset.induction_on with
  | empty => exact ⟨0, le_refl _, by simp⟩
  | insert a s ha ih =>
    obtain ⟨r, hr, er⟩ := ih fun j hj => h j (Finset.mem_insert_of_mem hj)
    obtain ⟨q, hq, eq⟩ := h a (Finset.mem_insert_self a s)
    exact ⟨q + r, add_nonneg hq hr, by rw [Finset.sum_insert ha, er, eq, EReal.coe_add]⟩

/-- The word of minus one half denotes a real. -/
theorem neg_half_real : ∃ y : ℝ, Ideal.ofBits .f32 0xBF000000#32 = (y : EReal) := by
  refine ⟨-(1 / 2), ?_⟩
  simp [Ideal.ofBits, Ideal.ieee, -EReal.coe_mul, -EReal.coe_neg]
  norm_num

/-- The inverse-square-root factor of a nonnegative real count, with zero where the count is not positive, is a
    nonnegative real. -/
theorem factor_nonneg_real (r : ℝ) (hr : 0 ≤ r) :
    ∃ q : ℝ, 0 ≤ q ∧ Scalar.select (Ideal.cmp .ogt (r : EReal) (Ideal.ofBits .f32 0x00000000#32))
      (Ideal.pow (r : EReal) (Ideal.ofBits .f32 0xBF000000#32)) (Ideal.ofBits .f32 0x00000000#32) = (q : EReal) := by
  obtain ⟨y, hy⟩ := neg_half_real
  unfold Scalar.select
  split
  · exact ⟨Real.rpow r y, Real.rpow_nonneg hr y, by rw [hy, Ideal.pow_coe_coe]⟩
  · exact ⟨0, le_refl _, by rw [Ideal.ofBits_zero_f32]; rfl⟩

/-- A zero start plus a finite sum of nonnegative reals is a nonnegative real. -/
theorem zero_add_sum_nonneg_real {ι : Type} (z : EReal) (hz : z = 0) (s : Finset ι) (f : ι → EReal)
    (h : ∀ j ∈ s, ∃ r : ℝ, 0 ≤ r ∧ f j = (r : EReal)) : ∃ r : ℝ, 0 ≤ r ∧ z + ∑ j ∈ s, f j = (r : EReal) := by
  obtain ⟨r, hr, er⟩ := sum_nonneg_real s f h
  exact ⟨r, hr, by rw [hz, zero_add, er]⟩

/-- The accumulating scatter read at an entry: the start entry plus the sum of the updates that land on it. -/
theorem scatterAdd_apply {s si su : Shape} {w : Nat} (d : ScatterDims s si su) (x : s.Idx → EReal) (idx : IVec si w)
    (upd : su.Idx → EReal) (i : s.Idx) :
    Host.scatterAdd (F := Ideal) (φ := .f32) d x idx upd i
      = x i + ∑ j ∈ Finset.univ.filter (fun j => d.resultIdx? j idx = some i), upd j := rfl

/-- A gather read at a result index: the operand at the index the dimension record computes. -/
theorem gather_apply {α : Type} {s si t : Shape} {w : Nat} (g : GatherDims s si t) (x : s.Idx → α) (idx : IVec si w)
    (j : t.Idx) : Host.gather g x idx j = x (g.operandIdx j idx) := rfl

/-! ## The reference's degree table, factor and edge weights -/

variable (x1 : (⟨S2x1600000, .i32⟩ : BufTy).Contents (Elt Ideal))

/-- The degree table at node u — the zero start plus the real 1 for every update that lands on u — is a nonnegative
    real. -/
theorem deg_nonneg_real (u : Fin 100000) :
    ∃ r : ℝ, 0 ≤ r ∧ val_main_v10 (F := Ideal) x1 (ix1 u) = (r : EReal) := by
  have key := scatterAdd_apply scatter_S100000_S1700000x1_S1700000_n_0_0_1 (val_main_v8 (F := Ideal))
    (val_main_v9 (F := Ideal) x1) (val_main_v7 (F := Ideal)) (ix1 u)
  rw [show val_main_v10 (F := Ideal) x1 (ix1 u) = _ from key]
  refine zero_add_sum_nonneg_real _ ?_ _ _ fun j _ => ⟨1, zero_le_one, ?_⟩
  · rw [val_main_v8_apply, val_main_cst_0_apply, Ideal.ofBits_def, Ideal.ofBits_zero_f32]
  · rw [val_main_v7_apply, val_main_cst_apply, Ideal.ofBits_def, Ideal.ofBits_one_f32, EReal.coe_one]

/-- The factor of node u is a nonnegative real. -/
theorem dinv_nonneg_real (u : Fin 100000) :
    ∃ r : ℝ, 0 ≤ r ∧ val_main_v15 (F := Ideal) x1 (ix1 u) = (r : EReal) := by
  obtain ⟨r, hr, er⟩ := deg_nonneg_real x1 u
  rw [val_main_v15_apply, val_main_v12_apply, val_main_v14_apply, val_main_v13_apply, val_main_cst_2_apply,
    val_main_call0_v1_apply, val_main_call0_v0_apply, val_main_cst_3_apply, val_main_v11_apply, val_main_cst_1_apply, er]
  simp only [Ideal.ofBits_def, Ideal.hostPowf_def]
  exact factor_nonneg_real r hr

/-- For an edge that lands on node v, the destination word after the shift of negative words is still the word of v,
    so the entry the second gather reads is v. -/
theorem landing_row (v : Fin 100000) (e : Fin 1700000) (he : e ∈ edgesInto (val_main_v9 (F := Ideal) x1) v) :
    sourceRow Cert.Gcn.nodes_pos (val_main_v28 (F := Ideal) x1) e = v := by
  have hw : (val_main_v9 (F := Ideal) x1 (ix2 e (0 : Fin 1))).toInt = (v.val : Int) := (Finset.mem_filter.mp he).2
  have h28 : val_main_v28 (F := Ideal) x1 (ix2 e (0 : Fin 1)) = val_main_v9 (F := Ideal) x1 (ix2 e (0 : Fin 1)) := by
    rw [val_main_v9_apply] at hw
    rw [val_main_v28_apply, val_main_v27_apply, val_main_v24_apply, val_main_v23_apply, val_main_c_5_apply, val_main_v9_apply]
    exact select_nonneg_word _ _ (by
      show 0 ≤ (val_main_v6 (F := Ideal) x1 (idx_main_v9 (ix2 e (0 : Fin 1)))).toInt
      rw [hw]; exact Int.natCast_nonneg _)
  apply Fin.ext
  show min (val_main_v28 (F := Ideal) x1 (ix2 e (0 : Fin 1))).toInt.toNat (100000 - 1) = v.val
  rw [h28, hw]
  have := v.isLt
  omega

/-- The weight of an edge that lands on node v is the factor of its source row times the factor of v. -/
theorem weight_of_landing (v : Fin 100000) (e : Fin 1700000) (he : e ∈ edgesInto (val_main_v9 (F := Ideal) x1) v) :
    val_main_v30 (F := Ideal) x1 (ix1 e)
      = val_main_v15 (F := Ideal) x1 (ix1 (Cert.Gcn.src (val_main_v21 (F := Ideal) x1) e))
        * val_main_v15 (F := Ideal) x1 (ix1 v) := by
  have k22 := gather_apply gather_S100000_S1700000x1_S1700000_n_0_n_n_0_1_1 (val_main_v15 (F := Ideal) x1)
    (val_main_v21 (F := Ideal) x1) (ix1 e)
  have k29 := gather_apply gather_S100000_S1700000x1_S1700000_n_0_n_n_0_1_1 (val_main_v15 (F := Ideal) x1)
    (val_main_v28 (F := Ideal) x1) (ix1 e)
  rw [gather1_idx gather_S100000_S1700000x1_S1700000_n_0_n_n_0_1_1 Cert.Gcn.nodes_pos rfl rfl rfl rfl rfl rfl] at k22 k29
  rw [landing_row x1 v e he] at k29
  rw [val_main_v30_apply, Ideal.mulf_def, show val_main_v22 (F := Ideal) x1 (ix1 e) = _ from k22,
    show val_main_v29 (F := Ideal) x1 (ix1 e) = _ from k29]

end Cert.ReferenceIdeal.RefValue.Degree

end
-- ==== Proof.SameTerms.lean ====
/-
  The host lines of the two programs are the same functions of the arguments: the source and destination columns, the
  degree factor, and the mean over each graph, written once with each program's own names for the shapes and the
  dimension records, which are the same literals.
-/
import proofs.«132462_j15779709846111_2_alg».proof.Proof.KDefs
import proofs.«132462_j15779709846111_2_alg».proof.Proof.RefReadP

noncomputable section

namespace Cert.SameTerms

open Idealize.ShloMosaic

theorem src_same (x1 : (⟨Cert.ReferenceIdeal.S2x1600000, .i32⟩ : BufTy).Contents (Elt Ideal)) :
    Cert.KernelIdeal.HostChain.srcCol (Cert.KernelIdeal.HostChain.srcWords x1) = Cert.ReferenceIdeal.ReadP.val_main_v21 (F := Ideal) x1 := rfl

theorem dst_same (x1 : (⟨Cert.ReferenceIdeal.S2x1600000, .i32⟩ : BufTy).Contents (Elt Ideal)) :
    Cert.KernelIdeal.HostChain.dstCol (Cert.KernelIdeal.HostChain.dstWords x1) = Cert.ReferenceIdeal.ReadP.val_main_v9 (F := Ideal) x1 := rfl

theorem dinv_same (x1 : (⟨Cert.ReferenceIdeal.S2x1600000, .i32⟩ : BufTy).Contents (Elt Ideal)) :
    Cert.KernelIdeal.HostChain.dinvOf (Cert.KernelIdeal.HostChain.dstWords x1) = Cert.ReferenceIdeal.ReadP.val_main_v15 (F := Ideal) x1 := rfl

theorem pool_same (x0 : (⟨Cert.ReferenceIdeal.S100000x128, .f32⟩ : BufTy).Contents (Elt Ideal)) (x1 : (⟨Cert.ReferenceIdeal.S2x1600000, .i32⟩ : BufTy).Contents (Elt Ideal)) (x2 : (⟨Cert.ReferenceIdeal.S100000, .i32⟩ : BufTy).Contents (Elt Ideal)) (x3 : (⟨Cert.ReferenceIdeal.S128x128, .f32⟩ : BufTy).Contents (Elt Ideal)) (x4 : (⟨Cert.ReferenceIdeal.S128, .f32⟩ : BufTy).Contents (Elt Ideal)) (x5 : (⟨Cert.ReferenceIdeal.S128x128, .f32⟩ : BufTy).Contents (Elt Ideal)) (x6 : (⟨Cert.ReferenceIdeal.S128, .f32⟩ : BufTy).Contents (Elt Ideal)) (x7 : (⟨Cert.ReferenceIdeal.S128x128, .f32⟩ : BufTy).Contents (Elt Ideal)) (x8 x9 x10 x11 x12 x13 x14 : (⟨Cert.ReferenceIdeal.S128, .f32⟩ : BufTy).Contents (Elt Ideal)) :
    Cert.ReferenceIdeal.ReadP.val_main_v120 (F := Ideal) x0 x1 x2 x3 x4 x5 x6 x7 x8 x9 x10 x11 x12 x13 x14
      = Cert.KernelIdeal.HostChain.poolOf x2 (Cert.ReferenceIdeal.ReadP.val_main_v108 (F := Ideal) x0 x1 x3 x4 x5 x6 x7 x8 x9 x10 x11 x12 x13 x14) := rfl

end Cert.SameTerms

end
-- ==== Proof.Final.lean ====
/-
  The two programs compute one function.

  The reference's result is the classifier on the per-graph mean of three layers H ↦ relu(g·(Σ_{e→v}(HW)[src e]·w_e + b)·c + be),
  with w_e the product of the degree factors of the edge's two ends. The other program's result is the same classifier on
  the same mean of three layers that scale by the degree factor before and after the sum over the edges. The degree factor
  is a nonnegative real at every node (a count raised to the power -1/2, or zero), and multiplication by a nonnegative
  real distributes over every sum of extended reals, so the layers agree whatever the float inputs are; the host lines
  that build the edge columns, the degree factor and the mean are the same terms in both programs.
-/
import proofs.«132462_j15779709846111_2_alg».proof.Defs
import proofs.«132462_j15779709846111_2_alg».proof.Proof.Gen.Kernel.Frame
import proofs.«132462_j15779709846111_2_alg».proof.Proof.Gen.Pre_finite_inputs
import proofs.«132462_j15779709846111_2_alg».proof.Proof.KRun
import proofs.«132462_j15779709846111_2_alg».proof.Proof.KLayers
import proofs.«132462_j15779709846111_2_alg».proof.Proof.RefRunP
import proofs.«132462_j15779709846111_2_alg».proof.Proof.RefReadP
import proofs.«132462_j15779709846111_2_alg».proof.Proof.RefLayers
import proofs.«132462_j15779709846111_2_alg».proof.Proof.RefDegree
import proofs.«132462_j15779709846111_2_alg».proof.Proof.SameTerms
import proofs.«132462_j15779709846111_2_alg».proof.Proof.Spec2
import Idealize.ShloMosaic.PureOps.Ideal.Laws

set_option maxRecDepth 16384

noncomputable section

namespace Cert.Proof.Final

open Idealize.ShloMosaic Idealize.ShloMosaic.TcCoe Idealize.ShloMosaic.ValueIdx Idealize.SL.Sem
open Cert.Gcn Cert.ScatterRows Cert.KernelIdeal.HostChain Cert.KernelIdeal.Layers
open Cert.ReferenceIdeal.ReadP Cert.ReferenceIdeal.RefValue

/-- The classifier on the mean of the three scaled layers is the reference's result, entry by entry. -/
theorem bridge (x0 : (⟨Cert.ReferenceIdeal.S100000x128, .f32⟩ : BufTy).Contents (Elt Ideal)) (x1 : (⟨Cert.ReferenceIdeal.S2x1600000, .i32⟩ : BufTy).Contents (Elt Ideal)) (x2 : (⟨Cert.ReferenceIdeal.S100000, .i32⟩ : BufTy).Contents (Elt Ideal))
    (x3 : (⟨Cert.ReferenceIdeal.S128x128, .f32⟩ : BufTy).Contents (Elt Ideal)) (x4 : (⟨Cert.ReferenceIdeal.S128, .f32⟩ : BufTy).Contents (Elt Ideal)) (x5 : (⟨Cert.ReferenceIdeal.S128x128, .f32⟩ : BufTy).Contents (Elt Ideal))
    (x6 : (⟨Cert.ReferenceIdeal.S128, .f32⟩ : BufTy).Contents (Elt Ideal)) (x7 : (⟨Cert.ReferenceIdeal.S128x128, .f32⟩ : BufTy).Contents (Elt Ideal))
    (x8 x9 x10 x11 x12 x13 x14 : (⟨Cert.ReferenceIdeal.S128, .f32⟩ : BufTy).Contents (Elt Ideal)) (x15 : (⟨Cert.ReferenceIdeal.S128x64, .f32⟩ : BufTy).Contents (Elt Ideal))
    (x16 : (⟨Cert.ReferenceIdeal.S64, .f32⟩ : BufTy).Contents (Elt Ideal)) (x17 : (⟨Cert.ReferenceIdeal.S64x10, .f32⟩ : BufTy).Contents (Elt Ideal)) (x18 : (⟨Cert.ReferenceIdeal.S10, .f32⟩ : BufTy).Contents (Elt Ideal))
    (g : Fin 1000) (o : Fin 10) :
    classify zK (poolOf x2 (net x0 x1 x3 x5 x7 x4 x6 x8 x9 x10 x11 x12 x13 x14 cS zK)) x15 x16 x17 x18 g o
      = val_main_v129 (F := Ideal) x0 x1 x2 x3 x4 x5 x6 x7 x8 x9 x10 x11 x12 x13 x14 x15 x16 x17 x18 (ix2 g o) := by
  -- the degree factor is a nonnegative real at every node
  have hr := fun u => Classical.choose_spec (Degree.dinv_nonneg_real x1 u)
  have hd : ∀ u : Fin 100000, dcolOf (dstWords x1) (ix2 u 0) = ((Classical.choose (Degree.dinv_nonneg_real x1 u) : ℝ) : EReal) := fun u => by
    unfold dcolOf
    rw [Cert.KernelIdeal.KIndex.col_apply, Cert.SameTerms.dinv_same x1]
    exact (hr u).2
  have hcol : ∀ u : Fin 100000, dcolOf (dstWords x1) (ix2 u 0) = val_main_v15 (F := Ideal) x1 (ix1 u) := fun u => by
    unfold dcolOf
    rw [Cert.KernelIdeal.KIndex.col_apply, Cert.SameTerms.dinv_same x1]
  -- an edge's weight is the product of the degree factors of its two ends
  have hn : ∀ (v : Fin 100000) (e : Fin 1700000), e ∈ edgesInto (dstCol (dstWords x1)) v →
      val_main_v30 (F := Ideal) x1 (ix1 e) = dcolOf (dstWords x1) (ix2 (src (srcCol (srcWords x1)) e) 0) * dcolOf (dstWords x1) (ix2 v 0) := by
    intro v e he
    rw [hcol, hcol, Cert.SameTerms.src_same x1]
    rw [Cert.SameTerms.dst_same x1] at he
    exact Degree.weight_of_landing x1 v e he
  -- the three layers
  have h3 : net x0 x1 x3 x5 x7 x4 x6 x8 x9 x10 x11 x12 x13 x14 cS zK = val_main_v108 (F := Ideal) x0 x1 x3 x4 x5 x6 x7 x8 x9 x10 x11 x12 x13 x14 := by
    rw [layer3, layer2, layer1, ← Cert.SameTerms.src_same x1, ← Cert.SameTerms.dst_same x1]
    show net x0 x1 x3 x5 x7 x4 x6 x8 x9 x10 x11 x12 x13 x14 (Ideal.ofBits .f32 0x3F7FFFAC#32) (Ideal.ofBits .f32 0x00000000#32) = refLayer (Ideal.ofBits .f32 0x3F7FFFAC#32) (Ideal.ofBits .f32 0x00000000#32) _ _ _ _ _ _ (refLayer (Ideal.ofBits .f32 0x3F7FFFAC#32) (Ideal.ofBits .f32 0x00000000#32) _ _ _ _ _ _ (refLayer (Ideal.ofBits .f32 0x3F7FFFAC#32) (Ideal.ofBits .f32 0x00000000#32) _ _ _ _ _ _ _ _) _) _
    rw [Ideal.ofBits_zero_f32]
    exact three_layers _ _ _ _ x9 x4 x10 x11 x6 x12 x13 x8 x14 x0 x3 x5 x7 _ _ (fun u => (hr u).1) hd hn
  rw [classifier, Cert.SameTerms.pool_same, ← h3]
  rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Run from memories that agree on the arguments, both programs end with the same result array. -/
theorem algebraic : Cert.algebraic_KernelIdeal_ReferenceIdeal := by
  intro m ρ m' ρ' _ hagree
  refine ⟨fun c => Cert.KernelIdeal.Gen.W12 m ρ c (Proc.devRef .tc Cert.KernelIdeal.main_v77), Cert.KernelIdeal.ValueRun.run (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7, h8, h9, h10, h11, h12, h13, h14, h15, h16, h17, h18⟩ := hagree c
  rw [val_main_v129_eq, h0, h1, h2, h3, h4, h5, h6, h7, h8, h9, h10, h11, h12, h13, h14, h15, h16, h17, h18]
  funext i
  obtain ⟨g, o, rfl⟩ : ∃ (g : Fin 1000) (o : Fin 10), i = ix2 g o := ⟨i 0, i 1, eq_ix2 i⟩
  show _ = Cert.KernelIdeal.Gen.W12 m ρ c (Proc.devRef .tc Cert.KernelIdeal.main_v77) (ix2 g o)
  rw [Cert.KernelIdeal.Layers.result m ρ c g o, Y3_eq]
  exact (bridge _ _ _ _ _ _ _ _ _ _ _ _ _ _ _ _ _ _ _ g o).symm

end Cert.Proof.Final

end
-- ==== Proof.lean ====
/-
  The certificate of a three-layer graph convolution network with per-graph mean pooling and a two-layer classifier:
  a program of five kernels with host gathers and scatters between them against a plain host reference.

  The three frames: the two kernel programs' are their generated frames, the reference's is its run with the result
  dropped. Nothing was rewritten when the kernel program was idealized, so there is nothing to preserve. The value claim
  is `Final.algebraic`: at the ideal instance both programs end with the same result array (Proof/Final.lean says why).
-/
import proofs.«132462_j15779709846111_2_alg».proof.Defs
import proofs.«132462_j15779709846111_2_alg».proof.Proof.Gen.Kernel
import proofs.«132462_j15779709846111_2_alg».proof.Proof.Gen.Kernel.Skeleton
import proofs.«132462_j15779709846111_2_alg».proof.Proof.Gen.Kernel.Launch
import proofs.«132462_j15779709846111_2_alg».proof.Proof.Gen.Kernel.Points
import proofs.«132462_j15779709846111_2_alg».proof.Proof.Gen.Kernel.Frame
import proofs.«132462_j15779709846111_2_alg».proof.Proof.Gen.KernelIdeal
import proofs.«132462_j15779709846111_2_alg».proof.Proof.Gen.KernelIdeal.Skeleton
import proofs.«132462_j15779709846111_2_alg».proof.Proof.Gen.KernelIdeal.Launch
import proofs.«132462_j15779709846111_2_alg».proof.Proof.Gen.KernelIdeal.Points
import proofs.«132462_j15779709846111_2_alg».proof.Proof.Gen.KernelIdeal.Frame
import proofs.«132462_j15779709846111_2_alg».proof.Proof.Gen.ReferenceIdeal
import proofs.«132462_j15779709846111_2_alg».proof.Proof.Gen.Pre_finite_inputs
import proofs.«132462_j15779709846111_2_alg».proof.Proof.Final
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Final.frame_k, Final.frame_ki, Final.frame_ri, Final.preserves, Final.algebraic⟩

end Cert.Proof

end
